-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S32x32 : Shape := ⟨2, ![32, 32]⟩
abbrev S32 : Shape := ⟨1, ![32]⟩
abbrev S32x64 : Shape := ⟨2, ![32, 64]⟩
abbrev S64x128 : Shape := ⟨2, ![64, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg7 : FVec F S32 .f32) (main_arg8 : FVec F S32x64 .f32) (main_arg9 : FVec F S64x128 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg8
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  main_v48

def fn_part1 {F : FTy → Type} [FloatOps F] (main_arg4 : FVec F S32x32 .f32) (main_arg5 : FVec F S32 .f32) (main_arg6 : FVec F S32 .f32) (main_arg7 : FVec F S32 .f32) (main_arg8 : FVec F S32x64 .f32) (main_arg9 : FVec F S64x128 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x64 .f32) (main_arg3 : FVec F S64x32 .f32) (main_arg4 : FVec F S32x32 .f32) (main_arg5 : FVec F S32 .f32) (main_arg6 : FVec F S32 .f32) (main_arg7 : FVec F S32 .f32) (main_arg8 : FVec F S32x64 .f32) (main_arg9 : FVec F S64x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S32x32 : Shape := ⟨2, ![32, 32]⟩
abbrev S32 : Shape := ⟨1, ![32]⟩
abbrev S32x64 : Shape := ⟨2, ![32, 64]⟩
abbrev S64x128 : Shape := ⟨2, ![64, 128]⟩
abbrev S10000x64 : Shape := ⟨2, ![10000, 64]⟩
abbrev S10000x32 : Shape := ⟨2, ![10000, 32]⟩
abbrev S400x10000 : Shape := ⟨2, ![400, 10000]⟩
abbrev S400x32 : Shape := ⟨2, ![400, 32]⟩
abbrev S400x64 : Shape := ⟨2, ![400, 64]⟩
abbrev S1x32 : Shape := ⟨2, ![1, 32]⟩
abbrev S10000 : Shape := ⟨1, ![10000]⟩
abbrev S10000x1 : Shape := ⟨2, ![10000, 1]⟩
abbrev S400x128 : Shape := ⟨2, ![400, 128]⟩

abbrev nBuf : Space → Nat
  | .hbm => 22
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x64, .f32⟩
  | .hbm, ⟨9, _⟩ => ⟨S64x128, .f32⟩
  | .hbm, ⟨10, _⟩ => ⟨S10000x64, .f32⟩
  | .hbm, ⟨11, _⟩ => ⟨S10000x32, .f32⟩
  | .hbm, ⟨12, _⟩ => ⟨S10000x10000, .bf16⟩
  | .hbm, ⟨13, _⟩ => ⟨S10000x32, .f32⟩
  | .hbm, ⟨14, _⟩ => ⟨S10000x10000, .f32⟩
  | .hbm, ⟨15, _⟩ => ⟨S1x32, .f32⟩
  | .hbm, ⟨16, _⟩ => ⟨S1x32, .f32⟩
  | .hbm, ⟨17, _⟩ => ⟨S1x32, .f32⟩
  | .hbm, ⟨18, _⟩ => ⟨S10000x32, .f32⟩
  | .hbm, ⟨19, _⟩ => ⟨S10000x64, .f32⟩
  | .hbm, ⟨20, _⟩ => ⟨S10000x128, .f32⟩
  | .hbm, ⟨21, _⟩ => ⟨S10000x128, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S400x10000, .f32⟩
  | .local _ .vmem, ⟨4, _⟩ => ⟨S400x10000, .f32⟩
  | .local _ .vmem, ⟨5, _⟩ => ⟨S10000x64, .f32⟩
  | .local _ .vmem, ⟨6, _⟩ => ⟨S64x32, .f32⟩
  | .local _ .vmem, ⟨7, _⟩ => ⟨S400x32, .f32⟩
  | .local _ .vmem, ⟨8, _⟩ => ⟨S400x32, .f32⟩
  | .local _ .vmem, ⟨9, _⟩ => ⟨S400x10000, .bf16⟩
  | .local _ .vmem, ⟨10, _⟩ => ⟨S400x10000, .bf16⟩
  | .local _ .vmem, ⟨11, _⟩ => ⟨S400x10000, .bf16⟩
  | .local _ .vmem, ⟨12, _⟩ => ⟨S400x10000, .bf16⟩
  | .local _ .vmem, ⟨13, _⟩ => ⟨S10000x32, .f32⟩
  | .local _ .vmem, ⟨14, _⟩ => ⟨S400x32, .f32⟩
  | .local _ .vmem, ⟨15, _⟩ => ⟨S400x32, .f32⟩
  | .local _ .vmem, ⟨16, _⟩ => ⟨S400x32, .f32⟩
  | .local _ .vmem, ⟨17, _⟩ => ⟨S400x32, .f32⟩
  | .local _ .vmem, ⟨18, _⟩ => ⟨S10000x32, .f32⟩
  | .local _ .vmem, ⟨19, _⟩ => ⟨S400x10000, .f32⟩
  | .local _ .vmem, ⟨20, _⟩ => ⟨S400x10000, .f32⟩
  | .local _ .vmem, ⟨21, _⟩ => ⟨S10000x32, .f32⟩
  | .local _ .vmem, ⟨22, _⟩ => ⟨S32x32, .f32⟩
  | .local _ .vmem, ⟨23, _⟩ => ⟨S1x32, .f32⟩
  | .local _ .vmem, ⟨24, _⟩ => ⟨S1x32, .f32⟩
  | .local _ .vmem, ⟨25, _⟩ => ⟨S1x32, .f32⟩
  | .local _ .vmem, ⟨26, _⟩ => ⟨S32x64, .f32⟩
  | .local _ .vmem, ⟨27, _⟩ => ⟨S10000x32, .f32⟩
  | .local _ .vmem, ⟨28, _⟩ => ⟨S10000x64, .f32⟩
  | .local _ .vmem, ⟨29, _⟩ => ⟨S400x10000, .bf16⟩
  | .local _ .vmem, ⟨30, _⟩ => ⟨S400x10000, .bf16⟩
  | .local _ .vmem, ⟨31, _⟩ => ⟨S10000x64, .f32⟩
  | .local _ .vmem, ⟨32, _⟩ => ⟨S64x128, .f32⟩
  | .local _ .vmem, ⟨33, _⟩ => ⟨S400x128, .f32⟩
  | .local _ .vmem, ⟨34, _⟩ => ⟨S400x128, .f32⟩
  | .local _ .vmem, ⟨35, _⟩ => ⟨S400x10000, .bf16⟩
  | .local _ .vmem, ⟨36, _⟩ => ⟨S400x10000, .bf16⟩
  | .local _ .vmem, ⟨37, _⟩ => ⟨S10000x128, .f32⟩
  | .local _ .vmem, ⟨38, _⟩ => ⟨S400x128, .f32⟩
  | .local _ .vmem, ⟨39, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg6_0 : Ref sig .tc := ⟨.vmem, 27, rfl⟩
abbrev cc4_stg7_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem6_0 : DmaSem sig := 27
abbrev cc4_sem7_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := .none

abbrev stage4_0 : Fin 1 → Memref sig .tc .vmem S10000x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S32x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S10000x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S10000x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S400x32_S400x32_0_0 : ∀ a, (![0, 0] : Fin 2 → Nat) a + S400x32.size a ≤ S400x32.size a
  h_S400x32 : 0 < S400x32.numel
  shapeCasts_S400x10000_S400x10000 : S400x10000.ShapeCasts S400x10000
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  shapeCasts_S400x32_S400x32 : S400x32.ShapeCasts S400x32
  shapeCasts_S32_S1x32 : S32.ShapeCasts S1x32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S32 : S10000x32.Reduces [0] S32
  reduces_S10000x32_S10000 : S10000x32.Reduces [1] S10000
  shapeCasts_S10000_S10000x1 : S10000.ShapeCasts S10000x1
  broadcasts_S10000x1_S10000x32 : S10000x1.Broadcasts S10000x32
  inb_S32x64_S32x64_0_0 : ∀ a, (![0, 0] : Fin 2 → Nat) a + S32x64.size a ≤ S32x64.size a
  h_S32x64 : 0 < S32x64.numel
  inb_S64x128_S64x128_0_0 : ∀ a, (![0, 0] : Fin 2 → Nat) a + S64x128.size a ≤ S64x128.size a
  h_S64x128 : 0 < S64x128.numel
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x32_S400x32_1_0_0_1_n_n_wf : DotDims.WF S400x64 S64x32 S400x32 [1] [0] [0] [1] [] []
  dot_S400x10000_S10000x32_S400x32_1_0_0_1_n_n_wf : DotDims.WF S400x10000 S10000x32 S400x32 [1] [0] [0] [1] [] []
  dot_S400x32_S10000x32_S400x10000_1_1_0_0_n_n_wf : DotDims.WF S400x32 S10000x32 S400x10000 [1] [1] [0] [0] [] []
  dot_S10000x32_S32x32_S10000x32_1_0_0_1_n_n_wf : DotDims.WF S10000x32 S32x32 S10000x32 [1] [0] [0] [1] [] []
  dot_S10000x32_S32x64_S10000x64_1_0_0_1_n_n_wf : DotDims.WF S10000x32 S32x64 S10000x64 [1] [0] [0] [1] [] []
  dot_S400x64_S64x128_S400x128_1_0_0_1_n_n_wf : DotDims.WF S400x64 S64x128 S400x128 [1] [0] [0] [1] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x10000.size a ≤ S10000x10000.size a
  hwx1_4 : ∀ i : grid1.Coords, EltTy.bits .bf16 = 32 ∨ (Rect.block (s := S10000x10000) S400x10000.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x32.size a ≤ S10000x32.size a
  hwx2_2 : ∀ i : grid2.Coords, EltTy.bits .f32 = 32 ∨ (Rect.block (s := S10000x32) S400x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x32.size a ≤ S10000x32.size a
  hwx3_0 : ∀ i : grid3.Coords, EltTy.bits .f32 = 32 ∨ (Rect.block (s := S10000x32) S400x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .f32 = 32 ∨ (Rect.block (s := S10000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)
  hstage4_0 : ∀ j, (stage4_0 j).IsWhole
  hstage4_1 : ∀ j, (stage4_1 j).IsWhole
  hstage4_2 : ∀ j, (stage4_2 j).IsWhole
  hstage4_3 : ∀ j, (stage4_3 j).IsWhole
  hstage4_4 : ∀ j, (stage4_4 j).IsWhole
  hstage4_5 : ∀ j, (stage4_5 j).IsWhole
  hstage4_6 : ∀ j, (stage4_6 j).IsWhole
  hstage4_7 : ∀ j, (stage4_7 j).IsWhole
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .f32 = 32 ∨ (Rect.block (s := S10000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x128.size a ≤ S64x128.size a
  hwx5_2 : ∀ i : grid5.Coords, EltTy.bits .f32 = 32 ∨ (Rect.block (s := S64x128) S64x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x128.size a ≤ S10000x128.size a
  hwx5_3 : ∀ i : grid5.Coords, EltTy.bits .f32 = 32 ∨ (Rect.block (s := S10000x128) S400x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .bf16 = 32 ∨ (Rect.block (s := S10000x10000) S400x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S10000x128.size a
  hwx6_1 : ∀ i : grid6.Coords, EltTy.bits .f32 = 32 ∨ (Rect.block (s := S10000x128) S10000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x128.size a ≤ S10000x128.size a
  hwx6_2 : ∀ i : grid6.Coords, EltTy.bits .f32 = 32 ∨ (Rect.block (s := S10000x128) S400x128.size (cc6_transform_2 i) (hinb6_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S10000x32_S400x10000_1_1_0_0_n_n : DotDims S400x32 S10000x32 S400x10000 where
  lhsContracting := [1]
  rhsContracting := [1]
  lhsNonContracting := [0]
  rhsNonContracting := [0]
  lhsBatch := []
  rhsBatch := []
  wf := dot_S400x32_S10000x32_S400x10000_1_1_0_0_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S400x32.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S400x10000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S400x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.whole (Memref.whole main_v2) false false (stage4_0 0) (sem4_0 0) (Memref.isWhole_whole _) (hstage4_0 0)

abbrev win4_1 : Pipeline.Window sig grid4 :=
  Pipeline.Window.whole (Memref.whole main_arg4) false false (stage4_1 0) (sem4_1 0) (Memref.isWhole_whole _) (hstage4_1 0)

abbrev win4_2 : Pipeline.Window sig grid4 :=
  Pipeline.Window.whole (Memref.whole main_v4) false false (stage4_2 0) (sem4_2 0) (Memref.isWhole_whole _) (hstage4_2 0)

abbrev win4_3 : Pipeline.Window sig grid4 :=
  Pipeline.Window.whole (Memref.whole main_v5) false false (stage4_3 0) (sem4_3 0) (Memref.isWhole_whole _) (hstage4_3 0)

abbrev win4_4 : Pipeline.Window sig grid4 :=
  Pipeline.Window.whole (Memref.whole main_v6) false false (stage4_4 0) (sem4_4 0) (Memref.isWhole_whole _) (hstage4_4 0)

abbrev win4_5 : Pipeline.Window sig grid4 :=
  Pipeline.Window.whole (Memref.whole main_arg8) false false (stage4_5 0) (sem4_5 0) (Memref.isWhole_whole _) (hstage4_5 0)

abbrev win4_6 : Pipeline.Window sig grid4 :=
  Pipeline.Window.whole (Memref.whole main_v7_0) true false (stage4_6 0) (sem4_6 0) (Memref.isWhole_whole _) (hstage4_6 0)

abbrev win4_7 : Pipeline.Window sig grid4 :=
  Pipeline.Window.whole (Memref.whole main_v7_1) true false (stage4_7 0) (sem4_7 0) (Memref.isWhole_whole _) (hstage4_7 0)

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v1_1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7_1) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S64x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v8) S400x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v1_1) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v8) S10000x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v9) S400x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S32x32 : Shape := ⟨2, ![32, 32]⟩
abbrev S32 : Shape := ⟨1, ![32]⟩
abbrev S32x64 : Shape := ⟨2, ![32, 64]⟩
abbrev S64x128 : Shape := ⟨2, ![64, 128]⟩
abbrev S10000x64 : Shape := ⟨2, ![10000, 64]⟩
abbrev S_ : Shape := ⟨0, ![]⟩
abbrev S10000x32 : Shape := ⟨2, ![10000, 32]⟩
abbrev S32x10000 : Shape := ⟨2, ![32, 10000]⟩
abbrev S1x32 : Shape := ⟨2, ![1, 32]⟩
abbrev S10000 : Shape := ⟨1, ![10000]⟩
abbrev S10000x1 : Shape := ⟨2, ![10000, 1]⟩

abbrev nBuf : Space → Nat
  | .hbm => 105
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x64, .f32⟩
  | .hbm, ⟨9, _⟩ => ⟨S64x128, .f32⟩
  | .hbm, ⟨10, _⟩ => ⟨S10000x64, .f32⟩
  | .hbm, ⟨11, _⟩ => ⟨S10000x64, .f32⟩
  | .hbm, ⟨12, _⟩ => ⟨S_, .f32⟩
  | .hbm, ⟨13, _⟩ => ⟨S10000x64, .f32⟩
  | .hbm, ⟨14, _⟩ => ⟨S10000x64, .f32⟩
  | .hbm, ⟨15, _⟩ => ⟨S10000x32, .f32⟩
  | .hbm, ⟨16, _⟩ => ⟨S10000x32, .f32⟩
  | .hbm, ⟨17, _⟩ => ⟨S_, .f32⟩
  | .hbm, ⟨18, _⟩ => ⟨S10000x32, .f32⟩
  | .hbm, ⟨19, _⟩ => ⟨S10000x32, .f32⟩
  | .hbm, ⟨20, _⟩ => ⟨S32x10000, .f32⟩
  | .hbm, ⟨21, _⟩ => ⟨S10000x10000, .f32⟩
  | .hbm, ⟨22, _⟩ => ⟨S10000x10000, .f32⟩
  | .hbm, ⟨23, _⟩ => ⟨S10000x10000, .f32⟩
  | .hbm, ⟨24, _⟩ => ⟨S_, .f32⟩
  | .hbm, ⟨25, _⟩ => ⟨S10000x10000, .f32⟩
  | .hbm, ⟨26, _⟩ => ⟨S10000x10000, .f32⟩
  | .hbm, ⟨27, _⟩ => ⟨S_, .f32⟩
  | .hbm, ⟨28, _⟩ => ⟨S10000x10000, .f32⟩
  | .hbm, ⟨29, _⟩ => ⟨S10000x10000, .f32⟩
  | .hbm, ⟨30, _⟩ => ⟨S10000x32, .f32⟩
  | .hbm, ⟨31, _⟩ => ⟨S1x32, .f32⟩
  | .hbm, ⟨32, _⟩ => ⟨S10000x32, .f32⟩
  | .hbm, ⟨33, _⟩ => ⟨S10000x32, .f32⟩
  | .hbm, ⟨34, _⟩ => ⟨S_, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .i32⟩
  | .hbm, ⟨40, _⟩ => ⟨S_, .f32⟩
  | .hbm, ⟨41, _⟩ => ⟨S32, .f32⟩
  | .hbm, ⟨42, _⟩ => ⟨S1x32, .f32⟩
  | .hbm, ⟨43, _⟩ => ⟨S_, .f32⟩
  | .hbm, ⟨44, _⟩ => ⟨S1x32, .f32⟩
  | .hbm, ⟨45, _⟩ => ⟨S1x32, .f32⟩
  | .hbm, ⟨46, _⟩ => ⟨S10000x32, .f32⟩
  | .hbm, ⟨47, _⟩ => ⟨S10000x32, .f32⟩
  | .hbm, ⟨48, _⟩ => ⟨S10000x32, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S1x32, .f32⟩
  | .hbm, ⟨63, _⟩ => ⟨S10000x32, .f32⟩
  | .hbm, ⟨64, _⟩ => ⟨S10000x32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S1x32, .f32⟩
  | .hbm, ⟨70, _⟩ => ⟨S10000x32, .f32⟩
  | .hbm, ⟨71, _⟩ => ⟨S10000x32, .f32⟩
  | .hbm, ⟨72, _⟩ => ⟨S1x32, .f32⟩
  | .hbm, ⟨73, _⟩ => ⟨S10000x32, .f32⟩
  | .hbm, ⟨74, _⟩ => ⟨S10000x32, .f32⟩
  | .hbm, ⟨75, _⟩ => ⟨S1x32, .f32⟩
  | .hbm, ⟨76, _⟩ => ⟨S10000x32, .f32⟩
  | .hbm, ⟨77, _⟩ => ⟨S10000x32, .f32⟩
  | .hbm, ⟨78, _⟩ => ⟨S_, .f32⟩
  | .hbm, ⟨79, _⟩ => ⟨S10000x32, .f32⟩
  | .hbm, ⟨80, _⟩ => ⟨S10000x32, .f32⟩
  | .hbm, ⟨81, _⟩ => ⟨S_, .f32⟩
  | .hbm, ⟨82, _⟩ => ⟨S10000, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S10000x1, .f32⟩
  | .hbm, ⟨87, _⟩ => ⟨S10000x32, .f32⟩
  | .hbm, ⟨88, _⟩ => ⟨S10000x32, .f32⟩
  | .hbm, ⟨89, _⟩ => ⟨S10000x32, .f32⟩
  | .hbm, ⟨90, _⟩ => ⟨S_, .f32⟩
  | .hbm, ⟨91, _⟩ => ⟨S10000, .f32⟩
  | .hbm, ⟨92, _⟩ => ⟨S10000x1, .f32⟩
  | .hbm, ⟨93, _⟩ => ⟨S10000x32, .f32⟩
  | .hbm, ⟨94, _⟩ => ⟨S10000x32, .f32⟩
  | .hbm, ⟨95, _⟩ => ⟨S10000x64, .f32⟩
  | .hbm, ⟨96, _⟩ => ⟨S10000x64, .f32⟩
  | .hbm, ⟨97, _⟩ => ⟨S_, .f32⟩
  | .hbm, ⟨98, _⟩ => ⟨S10000x64, .f32⟩
  | .hbm, ⟨99, _⟩ => ⟨S10000x64, .f32⟩
  | .hbm, ⟨100, _⟩ => ⟨S10000x128, .f32⟩
  | .hbm, ⟨101, _⟩ => ⟨S10000x128, .f32⟩
  | .hbm, ⟨102, _⟩ => ⟨S_, .f32⟩
  | .hbm, ⟨103, _⟩ => ⟨S10000x128, .f32⟩
  | .hbm, ⟨104, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_cst_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_cst_1 : Ref sig .tc := ⟨.hbm, 50, rfl⟩
abbrev main_call2_v8 : Ref sig .tc := ⟨.hbm, 51, rfl⟩
abbrev main_call2_cst_2 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_cst_3 : Ref sig .tc := ⟨.hbm, 56, rfl⟩
abbrev main_call2_v12 : Ref sig .tc := ⟨.hbm, 57, rfl⟩
abbrev main_call2_cst_4 : Ref sig .tc := ⟨.hbm, 58, rfl⟩
abbrev main_call2_call0_v0 : Ref sig .tc := ⟨.hbm, 59, rfl⟩
abbrev main_call2_call0_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_3 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_call3_cst : Ref sig .tc := ⟨.hbm, 78, rfl⟩
abbrev main_call3_v0 : Ref sig .tc := ⟨.hbm, 79, rfl⟩
abbrev main_v37 : Ref sig .tc := ⟨.hbm, 80, rfl⟩
abbrev main_cst_4 : Ref sig .tc := ⟨.hbm, 81, rfl⟩
abbrev main_v38 : Ref sig .tc := ⟨.hbm, 82, rfl⟩
abbrev main_cst_5 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_6 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_call4_cst : Ref sig .tc := ⟨.hbm, 97, rfl⟩
abbrev main_call4_v0 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_call5_cst : Ref sig .tc := ⟨.hbm, 102, rfl⟩
abbrev main_call5_v0 : Ref sig .tc := ⟨.hbm, 103, rfl⟩
abbrev main_v54 : Ref sig .tc := ⟨.hbm, 104, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  bcast_S_S10000x32 : S_.BroadcastsInDim S10000x32 (![] : Fin 0 → Fin S10000x32.rank)
  transposes_S10000x32_S32x10000_1_0 : S10000x32.Transposes [1, 0] S32x10000
  bcast_S_S10000x10000 : S_.BroadcastsInDim S10000x10000 (![] : Fin 0 → Fin S10000x10000.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  reducesTo_S10000x32_S32_d0 : S10000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  reducesTo_S10000x32_S10000_d1 : S10000x32.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  bcast_S_S10000x128 : S_.BroadcastsInDim S10000x128 (![] : Fin 0 → Fin S10000x128.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []
  dot_S10000x32_S32x32_S10000x32_1_0_0_1_n_n_wf : DotDims.WF S10000x32 S32x32 S10000x32 [1] [0] [0] [1] [] []
  dot_S10000x32_S32x64_S10000x64_1_0_0_1_n_n_wf : DotDims.WF S10000x32 S32x64 S10000x64 [1] [0] [0] [1] [] []
  dot_S10000x64_S64x128_S10000x128_1_0_0_1_n_n_wf : DotDims.WF S10000x64 S64x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.HandKernel.Reg0.lean ====
/- The class-A half of region 0 of the kernel program (`cc0__mm_body`: the gridless product of two whole arrays), at a parameter `V` — the TensorCore's buffer
   contents when the region is entered —: each window's block at a point, what the body leaves in each output
   window's buffer as a function of the input windows' blocks, the body's triple, the pipeline's proof data and the
   body obligation at every point. Generic in the float interpretation `F`. -/
import proofs.«157920_g66340064854107_cont_9to1c4b_694_10_alg».proof.Proof.Gen.Kernel.Launch
import proofs.«157920_g66340064854107_cont_9to1c4b_694_10_alg».proof.Proof.Gen.Kernel.Skeleton
import proofs.«157920_g66340064854107_cont_9to1c4b_694_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x128 := Rect.unit (s := S10000x128) ![0, 0] S10000x128.size Gen.inb_S10000x128_S10000x128_0_0
abbrev r0_1 : Rect S128x64 := Rect.unit (s := S128x64) ![0, 0] S128x64.size Gen.inb_S128x64_S128x64_0_0
abbrev r0_2 : Rect S10000x64 := Rect.unit (s := S10000x64) ![0, 0] S10000x64.size Gen.inb_S10000x64_S10000x64_0_0

/-! ## What the body leaves in the output window's buffer -/

/-- Window 2's staging buffer after the body, from the input windows' blocks: its one store, of the whole buffer. -/
def out0_2 (x0 : Vec F S10000x128 .f32) (x1 : Vec F S128x64 .f32) : Vec F S10000x64 .f32 :=
  View.canon [⟨r0_2, k0_pay1 (View.ld x0 r0_0) (View.ld x1 r0_1)⟩]

/-- The store is of the whole buffer, so it covers it. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's triple -/

set_option maxHeartbeats 1000000 in
/-- The kernel body on whole staging memrefs, the inputs' at read contents `x0`, `x1` and the output's at anything
    (the body reads it once and drops the value), runs to the continuation holding the inputs' as they were and the
    output's at `out0_2` of the inputs'. -/
theorem sound_kernel0 (c : Dev nD) (E : Set ℕ) (arg0 : Memref sig .tc .vmem S10000x128 .f32) (harg0 : arg0.IsWhole) (arg1 : Memref sig .tc .vmem S128x64 .f32) (harg1 : arg1.IsWhole) (arg2 : Memref sig .tc .vmem S10000x64 .f32) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_body arg0 harg0 arg1 harg1 arg2 harg2) K := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.HandKernel.Reg1.lean ====
/- The class-A half of region 1 of the kernel program (`cc1__agg_first_body`: a block of rows times a whole matrix, rectified, times a second matrix; and the block itself narrowed to bf16), at a parameter `V` — the TensorCore's buffer
   contents when the region is entered —: each window's block at a point, what the body leaves in each output
   window's buffer as a function of the input windows' blocks, the body's triple, the pipeline's proof data and the
   body obligation at every point. Generic in the float interpretation `F`. -/
import proofs.«157920_g66340064854107_cont_9to1c4b_694_10_alg».proof.Proof.Gen.Kernel.Launch
import proofs.«157920_g66340064854107_cont_9to1c4b_694_10_alg».proof.Proof.Gen.Kernel.Skeleton
import proofs.«157920_g66340064854107_cont_9to1c4b_694_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S400x10000 := Rect.unit (s := S400x10000) ![0, 0] S400x10000.size Gen.inb_S400x10000_S400x10000_0_0
abbrev r1_1 : Rect S10000x64 := Rect.unit (s := S10000x64) ![0, 0] S10000x64.size Gen.inb_S10000x64_S10000x64_0_0
abbrev r1_2 : Rect S64x32 := Rect.unit (s := S64x32) ![0, 0] S64x32.size Gen.inb_S64x32_S64x32_0_0
abbrev r1_3 : Rect S400x32 := Rect.unit (s := S400x32) ![0, 0] S400x32.size Gen.inb_S400x32_S400x32_0_0

/-! ## What the body leaves in each output window's buffer -/

/-- Window 3's staging buffer after the body, from the input windows' blocks: its one store, of the whole buffer. -/
def out1_3 (x0 : Vec F S400x10000 .f32) (x1 : Vec F S10000x64 .f32) (x2 : Vec F S64x32 .f32) : Vec F S400x32 .f32 :=
  View.canon [⟨r1_3, k1_pay2 (View.ld x0 r1_0) (View.ld x1 r1_1) (View.ld x2 r1_2)⟩]

/-- Window 4's staging buffer after the body, from the input windows' blocks (it reads the first only): its one
    store, of the whole buffer. -/
def out1_4 (x0 : Vec F S400x10000 .f32) (x1 : Vec F S10000x64 .f32) (x2 : Vec F S64x32 .f32) : Vec F S400x10000 .bf16 :=
  View.canon [⟨r1_0, k1_pay1 (View.ld x0 r1_0)⟩]

/-- Each store is of the whole buffer, so it covers it. -/
theorem cover1_3 (p0 : Vec F S400x32 .f32) (y : S400x32.Idx) :
    ∃ pc ∈ ([⟨r1_3, p0⟩] : List (View.Piece (Elt F) S400x32 .f32)), y ∈ pc.1.set :=
  View.cover_of_tiled [⟨r1_3, p0⟩] S400x32.size (by rfl) y
theorem cover1_4 (p0 : Vec F S400x10000 .bf16) (y : S400x10000.Idx) :
    ∃ pc ∈ ([⟨r1_0, p0⟩] : List (View.Piece (Elt F) S400x10000 .bf16)), y ∈ pc.1.set :=
  View.cover_of_tiled [⟨r1_0, p0⟩] S400x10000.size (by rfl) y

/-! ## The body's triple -/

set_option maxHeartbeats 1000000 in
/-- The kernel body on whole staging memrefs, the inputs' at read contents `x0`, `x1`, `x2` and the outputs' at
    anything (the body reads each once and drops the value), runs to the continuation holding the inputs' as they were
    and each output's at `out1_W` of the inputs'. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S64x32 .f32) (harg3 : arg3.IsWhole) (arg4 : Memref sig .tc .vmem S400x32 .f32) (harg4 : arg4.IsWhole) (arg5 : Memref sig .tc .vmem S400x10000 .bf16) (harg5 : arg5.IsWhole)
    (x0 : Vec F S400x10000 .f32) (x1 : Vec F S10000x64 .f32) (x2 : Vec F S64x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__agg_first_body i arg1 harg1 arg2 harg2 arg3 harg3 arg4 harg4 arg5 harg5) K := by
  simp only [cc1__agg_first_body_eq_skeleton]; unfold cc1__agg_first_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.HandKernel.Reg2.lean ====
/- The class-A half of region 2 of the kernel program (`cc2__agg_body`: one bf16 block of rows times a whole f32 matrix, rectified), at a parameter `V` — the TensorCore's buffer
   contents when the region is entered —: each window's block at a point, what the body leaves in each output
   window's buffer as a function of the input windows' blocks, the body's triple, the pipeline's proof data and the
   body obligation at every point. Generic in the float interpretation `F`. -/
import proofs.«157920_g66340064854107_cont_9to1c4b_694_10_alg».proof.Proof.Gen.Kernel.Launch
import proofs.«157920_g66340064854107_cont_9to1c4b_694_10_alg».proof.Proof.Gen.Kernel.Skeleton
import proofs.«157920_g66340064854107_cont_9to1c4b_694_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S400x10000 := Rect.unit (s := S400x10000) ![0, 0] S400x10000.size Gen.inb_S400x10000_S400x10000_0_0
abbrev r2_1 : Rect S10000x32 := Rect.unit (s := S10000x32) ![0, 0] S10000x32.size Gen.inb_S10000x32_S10000x32_0_0
abbrev r2_2 : Rect S400x32 := Rect.unit (s := S400x32) ![0, 0] S400x32.size Gen.inb_S400x32_S400x32_0_0

/-! ## What the body leaves in the output window's buffer -/

/-- Window 2's staging buffer after the body, from the input windows' blocks: its one store, of the whole buffer. -/
def out2_2 (x0 : Vec F S400x10000 .bf16) (x1 : Vec F S10000x32 .f32) : Vec F S400x32 .f32 :=
  View.canon [⟨r2_2, k2_pay1 (View.ld x0 r2_0) (View.ld x1 r2_1)⟩]

/-- The store is of the whole buffer, so it covers it. -/
theorem cover2_2 (p0 : Vec F S400x32 .f32) (y : S400x32.Idx) :
    ∃ pc ∈ ([⟨r2_2, p0⟩] : List (View.Piece (Elt F) S400x32 .f32)), y ∈ pc.1.set :=
  View.cover_of_tiled [⟨r2_2, p0⟩] S400x32.size (by rfl) y

/-! ## The body's triple -/

set_option maxHeartbeats 1000000 in
/-- The kernel body on whole staging memrefs, the inputs' at read contents `x0`, `x1` and the output's at anything
    (the body reads it once and drops the value), runs to the continuation holding the inputs' as they were and the
    output's at `out2_2` of the inputs'. -/
theorem sound_kernel2 (c : Dev nD) (E : Set ℕ) (i : grid2.Coords) (arg1 : Memref sig .tc .vmem S400x10000 .bf16) (harg1 : arg1.IsWhole) (arg2 : Memref sig .tc .vmem S10000x32 .f32) (harg2 : arg2.IsWhole) (arg3 : Memref sig .tc .vmem S400x32 .f32) (harg3 : arg3.IsWhole)
    (x0 : Vec F S400x10000 .bf16) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__agg_body i arg1 harg1 arg2 harg2 arg3 harg3) K := by
  simp only [cc2__agg_body_eq_skeleton]; unfold cc2__agg_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.HandKernel.Reg3.lean ====
/- Region 3 of the kernel program, at a parameter `V` (the TensorCore's buffer contents when the region is
   entered): each window's block at a grid point, what the body leaves in the output window's buffer, the body's
   triple, the pipeline's proof data and its body obligation. Generic in the float interpretation `F`. -/
import proofs.«157920_g66340064854107_cont_9to1c4b_694_10_alg».proof.Proof.Gen.Kernel.Launch
import proofs.«157920_g66340064854107_cont_9to1c4b_694_10_alg».proof.Proof.Gen.Kernel.Skeleton
import proofs.«157920_g66340064854107_cont_9to1c4b_694_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of
-- the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3: `cc3__apred_body` (pipeline 3), at the entry contents `V`

Its two input windows read ONE array: window 0 a block of 400 rows of it, window 1 the whole of it. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved, so the block of the point before is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved, so the block of the point before is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S400x32 := Rect.unit (s := S400x32) ![0, 0] S400x32.size inb_S400x32_S400x32_0_0
abbrev r3_1 : Rect S10000x32 := Rect.unit (s := S10000x32) ![0, 0] S10000x32.size inb_S10000x32_S10000x32_0_0
abbrev r3_2 : Rect S400x10000 := Rect.unit (s := S400x10000) ![0, 0] S400x10000.size inb_S400x10000_S400x10000_0_0

/-! ## What the body leaves in the output window's buffer -/

/-- Window 2's staging buffer after the body, from the input windows' blocks: its one store, of the whole buffer,
    as a single piece. -/
def out3_2 (x0 : Vec F S400x32 .f32) (x1 : Vec F S10000x32 .f32) : Vec F S400x10000 .f32 :=
  View.canon [⟨r3_2, k3_pay1 (View.ld x0 r3_0) (View.ld x1 r3_1)⟩]

/-- The store is of the whole buffer, so it covers it. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

/-! ## The body's triple -/

set_option maxHeartbeats 1000000 in
/-- The kernel body on whole staging memrefs, the inputs' at read contents `x0`, `x1` and the output's at anything,
    runs to the continuation holding the inputs' as they were and the output's at `out3_2` of the inputs'. The body
    reads the output buffer before storing it whole; what it read there is not used. -/
theorem sound_kernel3 (c : Dev nD) (E : Set ℕ) (i : grid3.Coords) (arg1 : Memref sig .tc .vmem S400x32 .f32) (harg1 : arg1.IsWhole) (arg2 : Memref sig .tc .vmem S10000x32 .f32) (harg2 : arg2.IsWhole) (arg3 : Memref sig .tc .vmem S400x10000 .f32) (harg3 : arg3.IsWhole)
    (x0 : Vec F S400x32 .f32) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__apred_body i arg1 harg1 arg2 harg2 arg3 harg3) K := by
  simp only [cc3__apred_body_eq_skeleton]; unfold cc3__apred_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the input blocks; the invariant the scoped
    rest and the generator register, untouched; nothing owed. The two input windows read one array, so each holds
    one half of that array's share; the output window holds the whole share of its own. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The share held of each window's array. -/
theorem q3_0 (c : Dev nD) : (dat3 V c).q 0 = fullShare.left := by dsimp only [dat3]
theorem q3_1 (c : Dev nD) : (dat3 V c).q 1 = fullShare.right := by dsimp only [dat3]
theorem q3_2 (c : Dev nD) : (dat3 V c).q 2 = fullShare := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`), so `sound_kernel3`
    applies; the invariant and the core's owed counters pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.HandKernel.Reg4.lean ====
/- The class-A half of region 4 of the kernel program (the gridless call of the normalise-rectify-softmax body,
   eight windows, two outputs), at any float model `F` and at a parameter `V`: the buffer contents when the region is
   entered. Each window's block at the one point, what the body leaves in the two output buffers as one whole-buffer
   piece each over the skeleton's payloads, the body's triple, the proof data and the body obligation. -/
import proofs.«157920_g66340064854107_cont_9to1c4b_694_10_alg».proof.Proof.Gen.Kernel.Launch
import proofs.«157920_g66340064854107_cont_9to1c4b_694_10_alg».proof.Proof.Gen.Kernel.Skeleton
import proofs.«157920_g66340064854107_cont_9to1c4b_694_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, for any proof data whose array is `V`'s and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, for any proof data whose array is `V`'s and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, for any proof data whose array is `V`'s and whose
    body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, for any proof data whose array is `V`'s and whose
    body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, for any proof data whose array is `V`'s and whose
    body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S10000x32 := Rect.unit (s := S10000x32) ![0, 0] S10000x32.size inb_S10000x32_S10000x32_0_0
abbrev r4_1 : Rect S32x32 := Rect.unit (s := S32x32) ![0, 0] S32x32.size inb_S32x32_S32x32_0_0
abbrev r4_2 : Rect S1x32 := Rect.unit (s := S1x32) ![0, 0] S1x32.size inb_S1x32_S1x32_0_0
abbrev r4_3 : Rect S32x64 := Rect.unit (s := S32x64) ![0, 0] S32x64.size inb_S32x64_S32x64_0_0
abbrev r4_4 : Rect S10000x64 := Rect.unit (s := S10000x64) ![0, 0] S10000x64.size inb_S10000x64_S10000x64_0_0

/-! ## What the body leaves in each output window's buffer -/

/-- Window 6's staging buffer after the body, from the input windows' blocks: its one store, of the whole buffer, of
    the soft-max quotient over the rectified normalised rows and their row maxima. -/
def out4_6 (x0 : Vec F S10000x32 .f32) (x1 : Vec F S32x32 .f32) (x2 : Vec F S1x32 .f32) (x3 : Vec F S1x32 .f32) (x4 : Vec F S1x32 .f32) (x5 : Vec F S32x64 .f32) : Vec F S10000x32 .f32 :=
  View.canon [⟨r4_0, k4_pay1 (k4_pay3 (View.ld x0 r4_0) (View.ld x1 r4_1) (View.ld x2 r4_2) (View.ld x3 r4_2) (View.ld x4 r4_2)) (k4_pay4 (View.ld x0 r4_0) (View.ld x1 r4_1) (View.ld x2 r4_2) (View.ld x3 r4_2) (View.ld x4 r4_2))⟩]

/-- Window 7's staging buffer after the body: its one store, of the whole buffer, of the product of that quotient
    with window 5's matrix. -/
def out4_7 (x0 : Vec F S10000x32 .f32) (x1 : Vec F S32x32 .f32) (x2 : Vec F S1x32 .f32) (x3 : Vec F S1x32 .f32) (x4 : Vec F S1x32 .f32) (x5 : Vec F S32x64 .f32) : Vec F S10000x64 .f32 :=
  View.canon [⟨r4_4, k4_pay2 (k4_pay3 (View.ld x0 r4_0) (View.ld x1 r4_1) (View.ld x2 r4_2) (View.ld x3 r4_2) (View.ld x4 r4_2)) (k4_pay4 (View.ld x0 r4_0) (View.ld x1 r4_1) (View.ld x2 r4_2) (View.ld x3 r4_2) (View.ld x4 r4_2)) (View.ld x5 r4_3)⟩]

/-- The one store tiles the buffer, so it covers it. -/
theorem cover4_6 (p0 : Vec F S10000x32 .f32) (y : S10000x32.Idx) :
    ∃ pc ∈ ([⟨r4_0, p0⟩] : List (View.Piece (Elt F) S10000x32 .f32)), y ∈ pc.1.set :=
  View.cover_of_tiled [⟨r4_0, p0⟩] S10000x32.size (by rfl) y

theorem cover4_7 (p0 : Vec F S10000x64 .f32) (y : S10000x64.Idx) :
    ∃ pc ∈ ([⟨r4_4, p0⟩] : List (View.Piece (Elt F) S10000x64 .f32)), y ∈ pc.1.set :=
  View.cover_of_tiled [⟨r4_4, p0⟩] S10000x64.size (by rfl) y

/-! ## The body's triple -/

set_option maxHeartbeats 4000000 in
/-- The kernel body on whole staging memrefs, the inputs' at read contents `xW` and the outputs' at anything, runs to
    the continuation holding the inputs' as they were and each output's at `out4_W` of the inputs': the printed
    functions are their skeletons, run statement by statement through the call of the first part. -/
theorem sound_kernel4 (c : Dev nD) (E : Set ℕ) (arg0 : Memref sig .tc .vmem S10000x32 .f32) (harg0 : arg0.IsWhole) (arg1 : Memref sig .tc .vmem S32x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S10000x32 .f32) (harg6 : arg6.IsWhole) (arg7 : Memref sig .tc .vmem S10000x64 .f32) (harg7 : arg7.IsWhole)
    (x0 : Vec F S10000x32 .f32) (x1 : Vec F S32x32 .f32) (x2 : Vec F S1x32 .f32) (x3 : Vec F S1x32 .f32) (x4 : Vec F S1x32 .f32) (x5 : Vec F S32x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out4_6 x0 x1 x2 x3 x4 x5) ∗ owns (c : Thread nD τ) arg7 fullShare (out4_7 x0 x1 x2 x3 x4 x5)) -∗ K ⟨⟩))
      ⊢ wp frame (wpE (defs₀ (F := F)) Variants.none c none) E (cc4__mlp_body arg0 harg0 arg1 harg1 arg2 harg2 arg3 harg3 arg4 harg4 arg5 harg5 arg6 harg6 arg7 harg7) K := by
  simp only [cc4__mlp_body_eq_skeleton]; unfold cc4__mlp_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover4_6 _)
  iexists _; isplitr
  swap; · iexact H7
  ipureintro
  try dsimp only
  exact View.read_writes_eq_canon _ _ _ (cover4_7 _)

/-! ## The pipeline's proof data -/

/-- The proof data of pipeline 4 on core `c`: the arrays as the region finds them (`V`); after the body each input's
    buffer at its block and each output's at `out4_W` of the input blocks; the class's invariant (the scoped rest and
    the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => out4_7 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) := by dsimp only [dat4]

/-- Each input's staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so the triple applies; the invariant and the core's
    debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.HandKernel.Reg5.lean ====
/- Region 5 of the kernel program, at a parameter `V` (the TensorCore's buffer contents when the region is
   entered): each window's block at a grid point, what the body leaves in the output window's buffer, the body's
   triple, the pipeline's proof data and its body obligation. Generic in the float interpretation `F`. -/
import proofs.«157920_g66340064854107_cont_9to1c4b_694_10_alg».proof.Proof.Gen.Kernel.Launch
import proofs.«157920_g66340064854107_cont_9to1c4b_694_10_alg».proof.Proof.Gen.Kernel.Skeleton
import proofs.«157920_g66340064854107_cont_9to1c4b_694_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of
-- the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5: `cc5__agg_mm_body` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved, so the block of the point before is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved, so the block of the point before is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved, so the block of the point before is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S400x10000 := Rect.unit (s := S400x10000) ![0, 0] S400x10000.size inb_S400x10000_S400x10000_0_0
abbrev r5_1 : Rect S10000x64 := Rect.unit (s := S10000x64) ![0, 0] S10000x64.size inb_S10000x64_S10000x64_0_0
abbrev r5_2 : Rect S64x128 := Rect.unit (s := S64x128) ![0, 0] S64x128.size inb_S64x128_S64x128_0_0
abbrev r5_3 : Rect S400x128 := Rect.unit (s := S400x128) ![0, 0] S400x128.size inb_S400x128_S400x128_0_0

/-! ## What the body leaves in the output window's buffer -/

/-- Window 3's staging buffer after the body, from the input windows' blocks: its one store, of the whole buffer,
    as a single piece. -/
def out5_3 (x0 : Vec F S400x10000 .bf16) (x1 : Vec F S10000x64 .f32) (x2 : Vec F S64x128 .f32) : Vec F S400x128 .f32 :=
  View.canon [⟨r5_3, k5_pay1 (View.ld x0 r5_0) (View.ld x1 r5_1) (View.ld x2 r5_2)⟩]

/-- The store is of the whole buffer, so it covers it. -/
theorem cover5_3 (p0 : Vec F S400x128 .f32) (y : S400x128.Idx) :
    ∃ pc ∈ ([⟨r5_3, p0⟩] : List (View.Piece (Elt F) S400x128 .f32)), y ∈ pc.1.set :=
  View.cover_of_tiled [⟨r5_3, p0⟩] S400x128.size (by rfl) y

/-! ## The body's triple -/

set_option maxHeartbeats 1000000 in
/-- The kernel body on whole staging memrefs, the inputs' at read contents `x0`, `x1`, `x2` and the output's at
    anything, runs to the continuation holding the inputs' as they were and the output's at `out5_3` of the inputs'.
    The body reads the output buffer before storing it whole; what it read there is not used. -/
theorem sound_kernel5 (c : Dev nD) (E : Set ℕ) (i : grid5.Coords) (arg1 : Memref sig .tc .vmem S400x10000 .bf16) (harg1 : arg1.IsWhole) (arg2 : Memref sig .tc .vmem S10000x64 .f32) (harg2 : arg2.IsWhole) (arg3 : Memref sig .tc .vmem S64x128 .f32) (harg3 : arg3.IsWhole) (arg4 : Memref sig .tc .vmem S400x128 .f32) (harg4 : arg4.IsWhole)
    (x0 : Vec F S400x10000 .bf16) (x1 : Vec F S10000x64 .f32) (x2 : Vec F S64x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__agg_mm_body i arg1 harg1 arg2 harg2 arg3 harg3 arg4 harg4) K := by
  simp only [cc5__agg_mm_body_eq_skeleton]; unfold cc5__agg_mm_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point
    `t` each input's buffer at its block and the output's at `out5_3` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_0`, `before5_1`, `before5_2`), so
    `sound_kernel5` applies; the invariant and the core's owed counters pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.HandKernel.Reg6.lean ====
/- Region 6 of the kernel program, at a parameter `V` (the TensorCore's buffer contents when the region is
   entered): each window's block at a grid point, what the body leaves in the output window's buffer, the body's
   triple, the pipeline's proof data and its body obligation. Generic in the float interpretation `F`. -/
import proofs.«157920_g66340064854107_cont_9to1c4b_694_10_alg».proof.Proof.Gen.Kernel.Launch
import proofs.«157920_g66340064854107_cont_9to1c4b_694_10_alg».proof.Proof.Gen.Kernel.Skeleton
import proofs.«157920_g66340064854107_cont_9to1c4b_694_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of
-- the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6: `cc6__agg_body` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block
    index has not moved, so the block of the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block
    index has not moved, so the block of the point before is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S400x10000 := Rect.unit (s := S400x10000) ![0, 0] S400x10000.size inb_S400x10000_S400x10000_0_0
abbrev r6_1 : Rect S10000x128 := Rect.unit (s := S10000x128) ![0, 0] S10000x128.size inb_S10000x128_S10000x128_0_0
abbrev r6_2 : Rect S400x128 := Rect.unit (s := S400x128) ![0, 0] S400x128.size inb_S400x128_S400x128_0_0

/-! ## What the body leaves in the output window's buffer -/

/-- Window 2's staging buffer after the body, from the input windows' blocks: its one store, of the whole buffer,
    as a single piece. -/
def out6_2 (x0 : Vec F S400x10000 .bf16) (x1 : Vec F S10000x128 .f32) : Vec F S400x128 .f32 :=
  View.canon [⟨r6_2, k6_pay1 (View.ld x0 r6_0) (View.ld x1 r6_1)⟩]

/-- The store is of the whole buffer, so it covers it. -/
theorem cover6_2 (p0 : Vec F S400x128 .f32) (y : S400x128.Idx) :
    ∃ pc ∈ ([⟨r6_2, p0⟩] : List (View.Piece (Elt F) S400x128 .f32)), y ∈ pc.1.set :=
  View.cover_of_tiled [⟨r6_2, p0⟩] S400x128.size (by rfl) y

/-! ## The body's triple -/

set_option maxHeartbeats 1000000 in
/-- The kernel body on whole staging memrefs, the inputs' at read contents `x0`, `x1` and the output's at anything,
    runs to the continuation holding the inputs' as they were and the output's at `out6_2` of the inputs'. The body
    reads the output buffer before storing it whole; what it read there is not used. -/
theorem sound_kernel6 (c : Dev nD) (E : Set ℕ) (i : grid6.Coords) (arg1 : Memref sig .tc .vmem S400x10000 .bf16) (harg1 : arg1.IsWhole) (arg2 : Memref sig .tc .vmem S10000x128 .f32) (harg2 : arg2.IsWhole) (arg3 : Memref sig .tc .vmem S400x128 .f32) (harg3 : arg3.IsWhole)
    (x0 : Vec F S400x10000 .bf16) (x1 : Vec F S10000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__agg_body i arg1 harg1 arg2 harg2 arg3 harg3) K := by
  simp only [cc6__agg_body_eq_skeleton]; unfold cc6__agg_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point
    `t` each input's buffer at its block and the output's at `out6_2` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_0`, `before6_1`), so `sound_kernel6`
    applies; the invariant and the core's owed counters pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.HandKernel.Run.lean ====
/-
  The run of the kernel program: @main is seven kernel regions with three reshapes between the fourth and the fifth. Each
  region is entered with every unscoped buffer of the core at a known boundary content and left with its output arrays at
  what its write-backs leave and everything else untouched; the boundaries are a fold from the launch memory. From the
  run follow the frame (no argument array is ever written) and, read at the output arrays, what the program returns.
  Generic in the float instance.
-/
import proofs.«157920_g66340064854107_cont_9to1c4b_694_10_alg».proof.Proof.HandKernel.Reg0
import proofs.«157920_g66340064854107_cont_9to1c4b_694_10_alg».proof.Proof.HandKernel.Reg1
import proofs.«157920_g66340064854107_cont_9to1c4b_694_10_alg».proof.Proof.HandKernel.Reg2
import proofs.«157920_g66340064854107_cont_9to1c4b_694_10_alg».proof.Proof.HandKernel.Reg3
import proofs.«157920_g66340064854107_cont_9to1c4b_694_10_alg».proof.Proof.HandKernel.Reg4
import proofs.«157920_g66340064854107_cont_9to1c4b_694_10_alg».proof.Proof.HandKernel.Reg5
import proofs.«157920_g66340064854107_cont_9to1c4b_694_10_alg».proof.Proof.HandKernel.Reg6
import proofs.«157920_g66340064854107_cont_9to1c4b_694_10_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main: a fold from the launch memory

@main is: region 0, region 1, region 2, region 3, three reshapes (the bias, scale and shift rows), region 4, region 5,
region 6. `W j` is what core `c` holds in every buffer before item `j`; a region leaves each of its arrays at what
its write-backs leave (an input array as entered) and every other buffer alone. -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- Region 0 changes none but its output arrays. -/
theorem W1_keep (c : Dev nD) (b : Ref sig .tc) (hb : b ∉ ([main_v0] : List (Ref sig .tc))) :
    W1 m ρ c (Proc.devRef .tc b) = W0 m ρ c (Proc.devRef .tc b) := by
  by_cases h : ∀ w, Pipeline.arrRef spec0 w ≠ b
  · exact W1_of_ne m ρ c b h
  · obtain ⟨w, hw⟩ := not_forall.mp h; obtain rfl := not_not.mp hw
    match w with
    | ⟨0, _⟩ => exact (W1_arr m ρ c ⟨0, by decide⟩).trans (((dat0 (V0 m ρ) c).arrAt_in ⟨0, by decide⟩ rfl _).trans (A_eq0 (V0 m ρ) c ⟨0, by decide⟩))
    | ⟨1, _⟩ => exact (W1_arr m ρ c ⟨1, by decide⟩).trans (((dat0 (V0 m ρ) c).arrAt_in ⟨1, by decide⟩ rfl _).trans (A_eq0 (V0 m ρ) c ⟨1, by decide⟩))
    | ⟨2, _⟩ => exact absurd (List.Mem.head _) hb

/-- After region 1: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- Region 1 changes none but its output arrays. -/
theorem W2_keep (c : Dev nD) (b : Ref sig .tc) (hb : b ∉ ([main_v1_0, main_v1_1] : List (Ref sig .tc))) :
    W2 m ρ c (Proc.devRef .tc b) = W1 m ρ c (Proc.devRef .tc b) := by
  by_cases h : ∀ w, Pipeline.arrRef spec1 w ≠ b
  · exact W2_of_ne m ρ c b h
  · obtain ⟨w, hw⟩ := not_forall.mp h; obtain rfl := not_not.mp hw
    match w with
    | ⟨0, _⟩ => exact (W2_arr m ρ c ⟨0, by decide⟩).trans (((dat1 (V1 m ρ) c).arrAt_in ⟨0, by decide⟩ rfl _).trans (A_eq1 (V1 m ρ) c ⟨0, by decide⟩))
    | ⟨1, _⟩ => exact (W2_arr m ρ c ⟨1, by decide⟩).trans (((dat1 (V1 m ρ) c).arrAt_in ⟨1, by decide⟩ rfl _).trans (A_eq1 (V1 m ρ) c ⟨1, by decide⟩))
    | ⟨2, _⟩ => exact (W2_arr m ρ c ⟨2, by decide⟩).trans (((dat1 (V1 m ρ) c).arrAt_in ⟨2, by decide⟩ rfl _).trans (A_eq1 (V1 m ρ) c ⟨2, by decide⟩))
    | ⟨3, _⟩ => exact absurd (List.Mem.head _) hb
    | ⟨4, _⟩ => exact absurd (List.Mem.tail _ (List.Mem.head _)) hb

/-- After region 2: its arrays at what the pipeline leaves, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- Region 2 changes none but its output arrays. -/
theorem W3_keep (c : Dev nD) (b : Ref sig .tc) (hb : b ∉ ([main_v2] : List (Ref sig .tc))) :
    W3 m ρ c (Proc.devRef .tc b) = W2 m ρ c (Proc.devRef .tc b) := by
  by_cases h : ∀ w, Pipeline.arrRef spec2 w ≠ b
  · exact W3_of_ne m ρ c b h
  · obtain ⟨w, hw⟩ := not_forall.mp h; obtain rfl := not_not.mp hw
    match w with
    | ⟨0, _⟩ => exact (W3_arr m ρ c ⟨0, by decide⟩).trans (((dat2 (V2 m ρ) c).arrAt_in ⟨0, by decide⟩ rfl _).trans (A_eq2 (V2 m ρ) c ⟨0, by decide⟩))
    | ⟨1, _⟩ => exact (W3_arr m ρ c ⟨1, by decide⟩).trans (((dat2 (V2 m ρ) c).arrAt_in ⟨1, by decide⟩ rfl _).trans (A_eq2 (V2 m ρ) c ⟨1, by decide⟩))
    | ⟨2, _⟩ => exact absurd (List.Mem.head _) hb

/-- After region 3: its one output array `main_v3` at what the pipeline leaves; the array its two input windows read
    and every other buffer as entered. -/
def W4 (c : Dev nD) : Valuation τ sig (Elt F) :=
  Function.update (W3 m ρ c) (Proc.devRef .tc main_v3) ((dat3 (V3 m ρ) c).arrAt 2 cfg3.N)
abbrev V4 : (c : Dev nD) → (b : Ref sig .tc) → Buf (Elt F) ((c : Thread nD τ).loc b) := fun c b => W4 m ρ c b
theorem W4_out (c : Dev nD) : W4 m ρ c (Proc.devRef .tc main_v3) = (dat3 (V3 m ρ) c).arrAt 2 cfg3.N := by
  unfold W4; exact Function.update_self ..
theorem W4_keep (c : Dev nD) (b : Ref sig .tc) (hb : b ∉ ([main_v3] : List (Ref sig .tc))) :
    W4 m ρ c (Proc.devRef .tc b) = W3 m ρ c (Proc.devRef .tc b) := by
  unfold W4
  exact Function.update_of_ne (StableHlo.devRef_ne_of_ne (List.ne_of_not_mem_cons hb)) ..

/-- After the three reshapes. -/
abbrev W5 : Dev nD → Valuation τ sig (Elt F) := fun c => StableHlo.after hostOps4 (W4 m ρ c)
abbrev V5 : (c : Dev nD) → (b : Ref sig .tc) → Buf (Elt F) ((c : Thread nD τ).loc b) := fun c b => W5 m ρ c b
theorem W5_keep (c : Dev nD) (b : Ref sig .tc) (hb : b ∉ hostOps4_W) : W5 m ρ c (Proc.devRef .tc b) = W4 m ρ c (Proc.devRef .tc b) :=
  StableHlo.after_of_writes_sub hostOps4 _ hostOps4_writes hb

/-- After region 4: its arrays at what the pipeline leaves, every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)
/-- Region 4 changes none but its output arrays. -/
theorem W6_keep (c : Dev nD) (b : Ref sig .tc) (hb : b ∉ ([main_v7_0, main_v7_1] : List (Ref sig .tc))) :
    W6 m ρ c (Proc.devRef .tc b) = W5 m ρ c (Proc.devRef .tc b) := by
  by_cases h : ∀ w, Pipeline.arrRef spec4 w ≠ b
  · exact W6_of_ne m ρ c b h
  · obtain ⟨w, hw⟩ := not_forall.mp h; obtain rfl := not_not.mp hw
    match w with
    | ⟨0, _⟩ => exact (W6_arr m ρ c ⟨0, by decide⟩).trans (((dat4 (V5 m ρ) c).arrAt_in ⟨0, by decide⟩ rfl _).trans (A_eq4 (V5 m ρ) c ⟨0, by decide⟩))
    | ⟨1, _⟩ => exact (W6_arr m ρ c ⟨1, by decide⟩).trans (((dat4 (V5 m ρ) c).arrAt_in ⟨1, by decide⟩ rfl _).trans (A_eq4 (V5 m ρ) c ⟨1, by decide⟩))
    | ⟨2, _⟩ => exact (W6_arr m ρ c ⟨2, by decide⟩).trans (((dat4 (V5 m ρ) c).arrAt_in ⟨2, by decide⟩ rfl _).trans (A_eq4 (V5 m ρ) c ⟨2, by decide⟩))
    | ⟨3, _⟩ => exact (W6_arr m ρ c ⟨3, by decide⟩).trans (((dat4 (V5 m ρ) c).arrAt_in ⟨3, by decide⟩ rfl _).trans (A_eq4 (V5 m ρ) c ⟨3, by decide⟩))
    | ⟨4, _⟩ => exact (W6_arr m ρ c ⟨4, by decide⟩).trans (((dat4 (V5 m ρ) c).arrAt_in ⟨4, by decide⟩ rfl _).trans (A_eq4 (V5 m ρ) c ⟨4, by decide⟩))
    | ⟨5, _⟩ => exact (W6_arr m ρ c ⟨5, by decide⟩).trans (((dat4 (V5 m ρ) c).arrAt_in ⟨5, by decide⟩ rfl _).trans (A_eq4 (V5 m ρ) c ⟨5, by decide⟩))
    | ⟨6, _⟩ => exact absurd (List.Mem.head _) hb
    | ⟨7, _⟩ => exact absurd (List.Mem.tail _ (List.Mem.head _)) hb

/-- After region 5: its arrays at what the pipeline leaves, every other buffer as entered. -/
def W7 (c : Dev nD) : Valuation τ sig (Elt F) :=
  Pipeline.withArrays spec5 c (W6 m ρ c) fun w => (dat5 (V6 m ρ) c).arrAt w cfg5.N
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
abbrev V7 : (c : Dev nD) → (b : Ref sig .tc) → Buf (Elt F) ((c : Thread nD τ).loc b) := fun c b => W7 m ρ c b
theorem hF5 (c : Dev nD) (w : Fin cfg5.W) : (dat5 (V6 m ρ) c).arrAt w cfg5.N = V7 m ρ c (Pipeline.arrRef spec5 w) :=
  (W7_arr m ρ c w).symm
theorem hrest5 (c : Dev nD) : ∀ b, b ∉ Finset.univ.image (Pipeline.arrRef spec5) → V7 m ρ c b = V6 m ρ c b :=
  fun b hb => W7_of_ne m ρ c b fun w e => hb (Finset.mem_image.mpr ⟨w, Finset.mem_univ _, e⟩)
/-- Region 5 changes none but its output arrays. -/
theorem W7_keep (c : Dev nD) (b : Ref sig .tc) (hb : b ∉ ([main_v8] : List (Ref sig .tc))) :
    W7 m ρ c (Proc.devRef .tc b) = W6 m ρ c (Proc.devRef .tc b) := by
  by_cases h : ∀ w, Pipeline.arrRef spec5 w ≠ b
  · exact W7_of_ne m ρ c b h
  · obtain ⟨w, hw⟩ := not_forall.mp h; obtain rfl := not_not.mp hw
    match w with
    | ⟨0, _⟩ => exact (W7_arr m ρ c ⟨0, by decide⟩).trans (((dat5 (V6 m ρ) c).arrAt_in ⟨0, by decide⟩ rfl _).trans (A_eq5 (V6 m ρ) c ⟨0, by decide⟩))
    | ⟨1, _⟩ => exact (W7_arr m ρ c ⟨1, by decide⟩).trans (((dat5 (V6 m ρ) c).arrAt_in ⟨1, by decide⟩ rfl _).trans (A_eq5 (V6 m ρ) c ⟨1, by decide⟩))
    | ⟨2, _⟩ => exact (W7_arr m ρ c ⟨2, by decide⟩).trans (((dat5 (V6 m ρ) c).arrAt_in ⟨2, by decide⟩ rfl _).trans (A_eq5 (V6 m ρ) c ⟨2, by decide⟩))
    | ⟨3, _⟩ => exact absurd (List.Mem.head _) hb

/-- After region 6: its arrays at what the pipeline leaves, every other buffer as entered. -/
def W8 (c : Dev nD) : Valuation τ sig (Elt F) :=
  Pipeline.withArrays spec6 c (W7 m ρ c) fun w => (dat6 (V7 m ρ) c).arrAt w cfg6.N
theorem W8_arr (c : Dev nD) (w : Fin cfg6.W) :
    W8 m ρ c (Proc.devRef .tc (Pipeline.arrRef spec6 w)) = (dat6 (V7 m ρ) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m ρ c (Proc.devRef .tc b) = W7 m ρ c (Proc.devRef .tc b) := by
  unfold W8; exact Pipeline.withArrays_of_ne spec6 c _ _ b hb
abbrev V8 : (c : Dev nD) → (b : Ref sig .tc) → Buf (Elt F) ((c : Thread nD τ).loc b) := fun c b => W8 m ρ c b
theorem hF6 (c : Dev nD) (w : Fin cfg6.W) : (dat6 (V7 m ρ) c).arrAt w cfg6.N = V8 m ρ c (Pipeline.arrRef spec6 w) :=
  (W8_arr m ρ c w).symm
theorem hrest6 (c : Dev nD) : ∀ b, b ∉ Finset.univ.image (Pipeline.arrRef spec6) → V8 m ρ c b = V7 m ρ c b :=
  fun b hb => W8_of_ne m ρ c b fun w e => hb (Finset.mem_image.mpr ⟨w, Finset.mem_univ _, e⟩)
/-- Region 6 changes none but its output arrays. -/
theorem W8_keep (c : Dev nD) (b : Ref sig .tc) (hb : b ∉ ([main_v9] : List (Ref sig .tc))) :
    W8 m ρ c (Proc.devRef .tc b) = W7 m ρ c (Proc.devRef .tc b) := by
  by_cases h : ∀ w, Pipeline.arrRef spec6 w ≠ b
  · exact W8_of_ne m ρ c b h
  · obtain ⟨w, hw⟩ := not_forall.mp h; obtain rfl := not_not.mp hw
    match w with
    | ⟨0, _⟩ => exact (W8_arr m ρ c ⟨0, by decide⟩).trans (((dat6 (V7 m ρ) c).arrAt_in ⟨0, by decide⟩ rfl _).trans (A_eq6 (V7 m ρ) c ⟨0, by decide⟩))
    | ⟨1, _⟩ => exact (W8_arr m ρ c ⟨1, by decide⟩).trans (((dat6 (V7 m ρ) c).arrAt_in ⟨1, by decide⟩ rfl _).trans (A_eq6 (V7 m ρ) c ⟨1, by decide⟩))
    | ⟨2, _⟩ => exact absurd (List.Mem.head _) hb

/-! # The proof data family and the thread state -/

/-- No pipeline has a prefetched table. -/
abbrev adm : (p : Fin 7) → (pcfgs (F := F) p).Adm := fun p => (cfgs p).toPCfg_adm
/-- Every pipeline's proof data, each at its region's entry contents: a literal match on the pipeline's number. -/
def pdats : (p : Fin 7) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V5 m ρ) c
  | ⟨5, _⟩ => fun c => dat5 (V6 m ρ) c
  | ⟨6, _⟩ => fun c => dat6 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W8 m ρ c) ∗ ∃ r, prngReg c r)

/-! # The regions as items -/

set_option backward.isDefEq.respectTransparency.types false in
/-- Region 0 over the thread state: entered with every unscoped buffer at `W0`, left with them at `W1`. Its arrays
    are split out of the unscoped buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its arrays
    are split out of the unscoped buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. Its arrays
    are split out of the unscoped buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3: two input windows on one array

Its windows 0 and 1 both read `main_v2`: at entry the array's full share is dealt in halves, one per window, and at
the exit the halves (both still at the entry contents: an input array is never written) are joined again. -/

/-- The arrays behind region 3's windows are `main_v2` and `main_v3`. -/
theorem arrs3 : (Finset.univ.image (Pipeline.arrRef spec3) : Finset (Ref sig .tc)) = {main_v2, main_v3} := by decide

theorem share3_0 (c : Dev nD) : (pdats m ρ 3 c).share 0 = fullShare.left := rfl
theorem share3_1 (c : Dev nD) : (pdats m ρ 3 c).share 1 = fullShare.right := rfl
theorem share3_2 (c : Dev nD) : (pdats m ρ 3 c).share 2 = fullShare := rfl

/-- ENTRY: the core's unscoped buffers at `V3` are region 3's arrays at their entry contents, `main_v2` dealt in two halves,
    and the unscoped rest. -/
theorem entry3 (c : Dev nD) :
    (unscopedBufs c (V3 m ρ c) : sProp 𝕄)
      ⊢ iprop((pdats m ρ 3 c).arrays ((pdats m ρ 3 c).arrAt · 0) ∗ Pipeline.unscopedRest (Ix := Unit) (Name := ℕ) (U := UR sig nD τ) (Lvl := ℕ) spec3 c (V3 m ρ c)) := by
  rw [Pipeline.unscopedBufs_split₀ (Pipeline.pin (pcfgs (F := F)) adm) 3 winFacts₀3.arr_unscoped c (V3 m ρ c)]
  refine sep_mono ?_ .rfl
  unfold Pipeline.arrBufs Dat.arrays
  rw [show (Finset.image (Pipeline.arrRef (Pipeline.pin (pcfgs (F := F)) adm 3).spec) Finset.univ : Finset (Ref sig .tc)) = {main_v2, main_v3} from arrs3,
    BI.bigSep_insert (by decide), BI.bigSep_singleton]
  refine BIBase.Entails.trans ?_ (Entails.of_eq (bigSep_W3 _).symm)
  simp only []
  have e0 := (show ((cfgs 3).win 0).arr.IsWhole from arr_whole3 0).set_eq_univ
  have e1 := (show ((cfgs 3).win 1).arr.IsWhole from arr_whole3 1).set_eq_univ
  have e2 := (show ((cfgs 3).win 2).arr.IsWhole from arr_whole3 2).set_eq_univ
  rw [share3_0, share3_1, share3_2, e0, e1, e2]
  show iprop(((c : Thread nD τ).loc main_v2 ↦{fullShare} V3 m ρ c main_v2) ∗ ((c : Thread nD τ).loc main_v3 ↦{fullShare} V3 m ρ c main_v3)) ⊢ _
  iintro ⟨H2, H3⟩
  ihave H := (pointsTo_share (PosShare.mem_left_op_right fullShare)).1 $$ H2
  icases H with ⟨Hl, Hr⟩
  isplitl [Hl]; · iexact Hl
  isplitl [Hr]; · iexact Hr
  iexact H3

/-- EXIT: region 3's arrays after its write-backs — the two halves of `main_v2` still at the entry contents, `main_v3` at what
    the pipeline leaves — and the unscoped rest are the core's unscoped buffers at the exit contents. -/
theorem exit3 (c : Dev nD) :
    iprop((pdats m ρ 3 c).arrays ((pdats m ρ 3 c).arrAt · cfg3.N) ∗ Pipeline.unscopedRest (Ix := Unit) (Name := ℕ) (U := UR sig nD τ) (Lvl := ℕ) spec3 c (V3 m ρ c))
      ⊢ (unscopedBufs c (V4 m ρ c) : sProp 𝕄) := by
  rw [Pipeline.unscopedBufs_split₀ (Pipeline.pin (pcfgs (F := F)) adm) 3 winFacts₀3.arr_unscoped c (V4 m ρ c)]
  refine sep_mono ?_ (Entails.of_eq ?_)
  · unfold Pipeline.arrBufs Dat.arrays
    rw [show (Finset.image (Pipeline.arrRef (Pipeline.pin (pcfgs (F := F)) adm 3).spec) Finset.univ : Finset (Ref sig .tc)) = {main_v2, main_v3} from arrs3,
      BI.bigSep_insert (by decide), BI.bigSep_singleton]
    refine BIBase.Entails.trans (Entails.of_eq (bigSep_W3 _)) ?_
    simp only []
    have e0 := (show ((cfgs 3).win 0).arr.IsWhole from arr_whole3 0).set_eq_univ
    have e1 := (show ((cfgs 3).win 1).arr.IsWhole from arr_whole3 1).set_eq_univ
    have e2 := (show ((cfgs 3).win 2).arr.IsWhole from arr_whole3 2).set_eq_univ
    rw [share3_0, share3_1, share3_2, e0, e1, e2]
    have h0 : (pdats m ρ 3 c).arrAt 0 cfg3.N = V4 m ρ c main_v2 :=
      ((dat3 (V3 m ρ) c).arrAt_in 0 rfl _).trans ((A_eq3 (V3 m ρ) c 0).trans (W4_keep m ρ c main_v2 (by decide)).symm)
    have h1 : (pdats m ρ 3 c).arrAt 1 cfg3.N = V4 m ρ c main_v2 :=
      ((dat3 (V3 m ρ) c).arrAt_in 1 rfl _).trans ((A_eq3 (V3 m ρ) c 1).trans (W4_keep m ρ c main_v2 (by decide)).symm)
    have h2 : (pdats m ρ 3 c).arrAt 2 cfg3.N = V4 m ρ c main_v3 := (W4_out m ρ c).symm
    rw [h0, h1, h2]
    show _ ⊢ iprop(((c : Thread nD τ).loc main_v2 ↦{fullShare} V4 m ρ c main_v2) ∗ ((c : Thread nD τ).loc main_v3 ↦{fullShare} V4 m ρ c main_v3))
    iintro ⟨Hl, Hr, H3⟩
    isplitl [Hl Hr]
    · iapply (pointsTo_share (PosShare.mem_left_op_right fullShare)).2
      isplitl [Hl]; · iexact Hl
      iexact Hr
    iexact H3
  · unfold Pipeline.unscopedRest
    exact bigSep_congr fun b hb => by
      rw [show V4 m ρ c b = V3 m ρ c b from W4_keep m ρ c b (fun hm => (Finset.mem_sdiff.mp hb).2 (by
        rw [arrs3, List.mem_singleton.mp hm]; decide))]

set_option backward.isDefEq.respectTransparency.types false in
/-- Region 3 over the thread state: entered with every unscoped buffer at `W3`, left with them at `W4`; the array its two
    input windows share is dealt in halves at entry and joined at the exit. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := entry3 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W5`, left with them at `W6`. Its arrays
    are split out of the unscoped buffers at entry and put back at the exit contents; the generator register goes into
    the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W6`, left with them at `W7`. Its arrays
    are split out of the unscoped buffers at entry and put back at the exit contents; the generator register goes into
    the region's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V6 m ρ c) (V7 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `W7`, left with them at `W8`. Its arrays
    are split out of the unscoped buffers at entry and put back at the exit contents; the generator register goes into
    the region's invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V7 m ρ) c).loose
  hwaits := Pipeline.hwaits_of_owed_zero _ _ _ _ L lv 6 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V7 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V7 m ρ c) (V8 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as items, and the launch -/

/-- @main's eight items in order. -/
abbrev segs : List (Pipeline.Seg (pcfgs (F := F)) adm (pdats m ρ) () defs₀ 𝒱₀ L lv) :=
  [ .region (reg0 m ρ), .region (reg1 m ρ), .region (reg2 m ρ), .region (reg3 m ρ),
    .host (hseg hostOps4 hostOps4_sub hostOps4_fresh (W4 m ρ)),
    .region (reg4 m ρ), .region (reg5 m ρ), .region (reg6 m ρ) ]
/-- @main is the run of the items. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates, nothing
    faulting, and in every final state each unscoped buffer of core `c` holds the last boundary's contents `W8 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! # The frame: no item writes an argument -/

/-- `main_arg0` ends as launched: no region has it as an output, no host operation writes it. -/
theorem W8_main_arg0 (c : Dev nD) : W8 m ρ c (Proc.devRef .tc main_arg0) = m ((c : Thread nD τ).loc main_arg0) :=
  (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans rfl

/-- `main_arg1` ends as launched: no region has it as an output, no host operation writes it. -/
theorem W8_main_arg1 (c : Dev nD) : W8 m ρ c (Proc.devRef .tc main_arg1) = m ((c : Thread nD τ).loc main_arg1) :=
  (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans rfl

/-- `main_arg2` ends as launched: no region has it as an output, no host operation writes it. -/
theorem W8_main_arg2 (c : Dev nD) : W8 m ρ c (Proc.devRef .tc main_arg2) = m ((c : Thread nD τ).loc main_arg2) :=
  (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans rfl

/-- `main_arg3` ends as launched: no region has it as an output, no host operation writes it. -/
theorem W8_main_arg3 (c : Dev nD) : W8 m ρ c (Proc.devRef .tc main_arg3) = m ((c : Thread nD τ).loc main_arg3) :=
  (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans rfl

/-- `main_arg4` ends as launched: no region has it as an output, no host operation writes it. -/
theorem W8_main_arg4 (c : Dev nD) : W8 m ρ c (Proc.devRef .tc main_arg4) = m ((c : Thread nD τ).loc main_arg4) :=
  (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans rfl

/-- `main_arg5` ends as launched: no region has it as an output, no host operation writes it. -/
theorem W8_main_arg5 (c : Dev nD) : W8 m ρ c (Proc.devRef .tc main_arg5) = m ((c : Thread nD τ).loc main_arg5) :=
  (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans rfl

/-- `main_arg6` ends as launched: no region has it as an output, no host operation writes it. -/
theorem W8_main_arg6 (c : Dev nD) : W8 m ρ c (Proc.devRef .tc main_arg6) = m ((c : Thread nD τ).loc main_arg6) :=
  (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans rfl

/-- `main_arg7` ends as launched: no region has it as an output, no host operation writes it. -/
theorem W8_main_arg7 (c : Dev nD) : W8 m ρ c (Proc.devRef .tc main_arg7) = m ((c : Thread nD τ).loc main_arg7) :=
  (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans rfl

/-- `main_arg8` ends as launched: no region has it as an output, no host operation writes it. -/
theorem W8_main_arg8 (c : Dev nD) : W8 m ρ c (Proc.devRef .tc main_arg8) = m ((c : Thread nD τ).loc main_arg8) :=
  (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans rfl

/-- `main_arg9` ends as launched: no region has it as an output, no host operation writes it. -/
theorem W8_main_arg9 (c : Dev nD) : W8 m ρ c (Proc.devRef .tc main_arg9) = m ((c : Thread nD τ).loc main_arg9) :=
  (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans rfl

/-- THE FRAME, at any `F`: every weakly fair execution of @main terminates, nothing faulting, and every final state has the
    ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c)⟩) (run_all m ρ)

end Cert.Kernel.Hand

end
-- ==== Proof.HandKernelIdeal.Reg0.lean ====
/- The class-A half of region 0 of the kernel program (`cc0__mm_body`: the gridless product of two whole arrays), at a parameter `V` — the TensorCore's buffer
   contents when the region is entered —: each window's block at a point, what the body leaves in each output
   window's buffer as a function of the input windows' blocks, the body's triple, the pipeline's proof data and the
   body obligation at every point. Generic in the float interpretation `F`. -/
import proofs.«157920_g66340064854107_cont_9to1c4b_694_10_alg».proof.Proof.Gen.KernelIdeal.Launch
import proofs.«157920_g66340064854107_cont_9to1c4b_694_10_alg».proof.Proof.Gen.KernelIdeal.Skeleton
import proofs.«157920_g66340064854107_cont_9to1c4b_694_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x128 := Rect.unit (s := S10000x128) ![0, 0] S10000x128.size Gen.inb_S10000x128_S10000x128_0_0
abbrev r0_1 : Rect S128x64 := Rect.unit (s := S128x64) ![0, 0] S128x64.size Gen.inb_S128x64_S128x64_0_0
abbrev r0_2 : Rect S10000x64 := Rect.unit (s := S10000x64) ![0, 0] S10000x64.size Gen.inb_S10000x64_S10000x64_0_0

/-! ## What the body leaves in the output window's buffer -/

/-- Window 2's staging buffer after the body, from the input windows' blocks: its one store, of the whole buffer. -/
def out0_2 (x0 : Vec F S10000x128 .f32) (x1 : Vec F S128x64 .f32) : Vec F S10000x64 .f32 :=
  View.canon [⟨r0_2, k0_pay1 (View.ld x0 r0_0) (View.ld x1 r0_1)⟩]

/-- The store is of the whole buffer, so it covers it. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's triple -/

set_option maxHeartbeats 1000000 in
/-- The kernel body on whole staging memrefs, the inputs' at read contents `x0`, `x1` and the output's at anything
    (the body reads it once and drops the value), runs to the continuation holding the inputs' as they were and the
    output's at `out0_2` of the inputs'. -/
theorem sound_kernel0 (c : Dev nD) (E : Set ℕ) (arg0 : Memref sig .tc .vmem S10000x128 .f32) (harg0 : arg0.IsWhole) (arg1 : Memref sig .tc .vmem S128x64 .f32) (harg1 : arg1.IsWhole) (arg2 : Memref sig .tc .vmem S10000x64 .f32) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_body arg0 harg0 arg1 harg1 arg2 harg2) K := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.HandKernelIdeal.Reg1.lean ====
/- The class-A half of region 1 of the kernel program (`cc1__agg_first_body`: a block of rows times a whole matrix, rectified, times a second matrix; and the block itself narrowed to bf16), at a parameter `V` — the TensorCore's buffer
   contents when the region is entered —: each window's block at a point, what the body leaves in each output
   window's buffer as a function of the input windows' blocks, the body's triple, the pipeline's proof data and the
   body obligation at every point. Generic in the float interpretation `F`. -/
import proofs.«157920_g66340064854107_cont_9to1c4b_694_10_alg».proof.Proof.Gen.KernelIdeal.Launch
import proofs.«157920_g66340064854107_cont_9to1c4b_694_10_alg».proof.Proof.Gen.KernelIdeal.Skeleton
import proofs.«157920_g66340064854107_cont_9to1c4b_694_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S400x10000 := Rect.unit (s := S400x10000) ![0, 0] S400x10000.size Gen.inb_S400x10000_S400x10000_0_0
abbrev r1_1 : Rect S10000x64 := Rect.unit (s := S10000x64) ![0, 0] S10000x64.size Gen.inb_S10000x64_S10000x64_0_0
abbrev r1_2 : Rect S64x32 := Rect.unit (s := S64x32) ![0, 0] S64x32.size Gen.inb_S64x32_S64x32_0_0
abbrev r1_3 : Rect S400x32 := Rect.unit (s := S400x32) ![0, 0] S400x32.size Gen.inb_S400x32_S400x32_0_0

/-! ## What the body leaves in each output window's buffer -/

/-- Window 3's staging buffer after the body, from the input windows' blocks: its one store, of the whole buffer. -/
def out1_3 (x0 : Vec F S400x10000 .f32) (x1 : Vec F S10000x64 .f32) (x2 : Vec F S64x32 .f32) : Vec F S400x32 .f32 :=
  View.canon [⟨r1_3, k1_pay2 (View.ld x0 r1_0) (View.ld x1 r1_1) (View.ld x2 r1_2)⟩]

/-- Window 4's staging buffer after the body, from the input windows' blocks (it reads the first only): its one
    store, of the whole buffer. -/
def out1_4 (x0 : Vec F S400x10000 .f32) (x1 : Vec F S10000x64 .f32) (x2 : Vec F S64x32 .f32) : Vec F S400x10000 .bf16 :=
  View.canon [⟨r1_0, k1_pay1 (View.ld x0 r1_0)⟩]

/-- Each store is of the whole buffer, so it covers it. -/
theorem cover1_3 (p0 : Vec F S400x32 .f32) (y : S400x32.Idx) :
    ∃ pc ∈ ([⟨r1_3, p0⟩] : List (View.Piece (Elt F) S400x32 .f32)), y ∈ pc.1.set :=
  View.cover_of_tiled [⟨r1_3, p0⟩] S400x32.size (by rfl) y
theorem cover1_4 (p0 : Vec F S400x10000 .bf16) (y : S400x10000.Idx) :
    ∃ pc ∈ ([⟨r1_0, p0⟩] : List (View.Piece (Elt F) S400x10000 .bf16)), y ∈ pc.1.set :=
  View.cover_of_tiled [⟨r1_0, p0⟩] S400x10000.size (by rfl) y

/-! ## The body's triple -/

set_option maxHeartbeats 1000000 in
/-- The kernel body on whole staging memrefs, the inputs' at read contents `x0`, `x1`, `x2` and the outputs' at
    anything (the body reads each once and drops the value), runs to the continuation holding the inputs' as they were
    and each output's at `out1_W` of the inputs'. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S64x32 .f32) (harg3 : arg3.IsWhole) (arg4 : Memref sig .tc .vmem S400x32 .f32) (harg4 : arg4.IsWhole) (arg5 : Memref sig .tc .vmem S400x10000 .bf16) (harg5 : arg5.IsWhole)
    (x0 : Vec F S400x10000 .f32) (x1 : Vec F S10000x64 .f32) (x2 : Vec F S64x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__agg_first_body i arg1 harg1 arg2 harg2 arg3 harg3 arg4 harg4 arg5 harg5) K := by
  simp only [cc1__agg_first_body_eq_skeleton]; unfold cc1__agg_first_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.HandKernelIdeal.Reg2.lean ====
/- The class-A half of region 2 of the kernel program (`cc2__agg_body`: one bf16 block of rows times a whole f32 matrix, rectified), at a parameter `V` — the TensorCore's buffer
   contents when the region is entered —: each window's block at a point, what the body leaves in each output
   window's buffer as a function of the input windows' blocks, the body's triple, the pipeline's proof data and the
   body obligation at every point. Generic in the float interpretation `F`. -/
import proofs.«157920_g66340064854107_cont_9to1c4b_694_10_alg».proof.Proof.Gen.KernelIdeal.Launch
import proofs.«157920_g66340064854107_cont_9to1c4b_694_10_alg».proof.Proof.Gen.KernelIdeal.Skeleton
import proofs.«157920_g66340064854107_cont_9to1c4b_694_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S400x10000 := Rect.unit (s := S400x10000) ![0, 0] S400x10000.size Gen.inb_S400x10000_S400x10000_0_0
abbrev r2_1 : Rect S10000x32 := Rect.unit (s := S10000x32) ![0, 0] S10000x32.size Gen.inb_S10000x32_S10000x32_0_0
abbrev r2_2 : Rect S400x32 := Rect.unit (s := S400x32) ![0, 0] S400x32.size Gen.inb_S400x32_S400x32_0_0

/-! ## What the body leaves in the output window's buffer -/

/-- Window 2's staging buffer after the body, from the input windows' blocks: its one store, of the whole buffer. -/
def out2_2 (x0 : Vec F S400x10000 .bf16) (x1 : Vec F S10000x32 .f32) : Vec F S400x32 .f32 :=
  View.canon [⟨r2_2, k2_pay1 (View.ld x0 r2_0) (View.ld x1 r2_1)⟩]

/-- The store is of the whole buffer, so it covers it. -/
theorem cover2_2 (p0 : Vec F S400x32 .f32) (y : S400x32.Idx) :
    ∃ pc ∈ ([⟨r2_2, p0⟩] : List (View.Piece (Elt F) S400x32 .f32)), y ∈ pc.1.set :=
  View.cover_of_tiled [⟨r2_2, p0⟩] S400x32.size (by rfl) y

/-! ## The body's triple -/

set_option maxHeartbeats 1000000 in
/-- The kernel body on whole staging memrefs, the inputs' at read contents `x0`, `x1` and the output's at anything
    (the body reads it once and drops the value), runs to the continuation holding the inputs' as they were and the
    output's at `out2_2` of the inputs'. -/
theorem sound_kernel2 (c : Dev nD) (E : Set ℕ) (i : grid2.Coords) (arg1 : Memref sig .tc .vmem S400x10000 .bf16) (harg1 : arg1.IsWhole) (arg2 : Memref sig .tc .vmem S10000x32 .f32) (harg2 : arg2.IsWhole) (arg3 : Memref sig .tc .vmem S400x32 .f32) (harg3 : arg3.IsWhole)
    (x0 : Vec F S400x10000 .bf16) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__agg_body i arg1 harg1 arg2 harg2 arg3 harg3) K := by
  simp only [cc2__agg_body_eq_skeleton]; unfold cc2__agg_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.HandKernelIdeal.Reg3.lean ====
/- Region 3 of the kernel program, at a parameter `V` (the TensorCore's buffer contents when the region is
   entered): each window's block at a grid point, what the body leaves in the output window's buffer, the body's
   triple, the pipeline's proof data and its body obligation. Generic in the float interpretation `F`. -/
import proofs.«157920_g66340064854107_cont_9to1c4b_694_10_alg».proof.Proof.Gen.KernelIdeal.Launch
import proofs.«157920_g66340064854107_cont_9to1c4b_694_10_alg».proof.Proof.Gen.KernelIdeal.Skeleton
import proofs.«157920_g66340064854107_cont_9to1c4b_694_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of
-- the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3: `cc3__apred_body` (pipeline 3), at the entry contents `V`

Its two input windows read ONE array: window 0 a block of 400 rows of it, window 1 the whole of it. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved, so the block of the point before is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved, so the block of the point before is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S400x32 := Rect.unit (s := S400x32) ![0, 0] S400x32.size inb_S400x32_S400x32_0_0
abbrev r3_1 : Rect S10000x32 := Rect.unit (s := S10000x32) ![0, 0] S10000x32.size inb_S10000x32_S10000x32_0_0
abbrev r3_2 : Rect S400x10000 := Rect.unit (s := S400x10000) ![0, 0] S400x10000.size inb_S400x10000_S400x10000_0_0

/-! ## What the body leaves in the output window's buffer -/

/-- Window 2's staging buffer after the body, from the input windows' blocks: its one store, of the whole buffer,
    as a single piece. -/
def out3_2 (x0 : Vec F S400x32 .f32) (x1 : Vec F S10000x32 .f32) : Vec F S400x10000 .f32 :=
  View.canon [⟨r3_2, k3_pay1 (View.ld x0 r3_0) (View.ld x1 r3_1)⟩]

/-- The store is of the whole buffer, so it covers it. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

/-! ## The body's triple -/

set_option maxHeartbeats 1000000 in
/-- The kernel body on whole staging memrefs, the inputs' at read contents `x0`, `x1` and the output's at anything,
    runs to the continuation holding the inputs' as they were and the output's at `out3_2` of the inputs'. The body
    reads the output buffer before storing it whole; what it read there is not used. -/
theorem sound_kernel3 (c : Dev nD) (E : Set ℕ) (i : grid3.Coords) (arg1 : Memref sig .tc .vmem S400x32 .f32) (harg1 : arg1.IsWhole) (arg2 : Memref sig .tc .vmem S10000x32 .f32) (harg2 : arg2.IsWhole) (arg3 : Memref sig .tc .vmem S400x10000 .f32) (harg3 : arg3.IsWhole)
    (x0 : Vec F S400x32 .f32) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__apred_body i arg1 harg1 arg2 harg2 arg3 harg3) K := by
  simp only [cc3__apred_body_eq_skeleton]; unfold cc3__apred_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the input blocks; the invariant the scoped
    rest and the generator register, untouched; nothing owed. The two input windows read one array, so each holds
    one half of that array's share; the output window holds the whole share of its own. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The share held of each window's array. -/
theorem q3_0 (c : Dev nD) : (dat3 V c).q 0 = fullShare.left := by dsimp only [dat3]
theorem q3_1 (c : Dev nD) : (dat3 V c).q 1 = fullShare.right := by dsimp only [dat3]
theorem q3_2 (c : Dev nD) : (dat3 V c).q 2 = fullShare := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`), so `sound_kernel3`
    applies; the invariant and the core's owed counters pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.HandKernelIdeal.Reg4.lean ====
/- The class-A half of region 4 of the kernel program (the gridless call of the normalise-rectify-softmax body,
   eight windows, two outputs), at any float model `F` and at a parameter `V`: the buffer contents when the region is
   entered. Each window's block at the one point, what the body leaves in the two output buffers as one whole-buffer
   piece each over the skeleton's payloads, the body's triple, the proof data and the body obligation. -/
import proofs.«157920_g66340064854107_cont_9to1c4b_694_10_alg».proof.Proof.Gen.KernelIdeal.Launch
import proofs.«157920_g66340064854107_cont_9to1c4b_694_10_alg».proof.Proof.Gen.KernelIdeal.Skeleton
import proofs.«157920_g66340064854107_cont_9to1c4b_694_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, for any proof data whose array is `V`'s and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, for any proof data whose array is `V`'s and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, for any proof data whose array is `V`'s and whose
    body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, for any proof data whose array is `V`'s and whose
    body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, for any proof data whose array is `V`'s and whose
    body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S10000x32 := Rect.unit (s := S10000x32) ![0, 0] S10000x32.size inb_S10000x32_S10000x32_0_0
abbrev r4_1 : Rect S32x32 := Rect.unit (s := S32x32) ![0, 0] S32x32.size inb_S32x32_S32x32_0_0
abbrev r4_2 : Rect S1x32 := Rect.unit (s := S1x32) ![0, 0] S1x32.size inb_S1x32_S1x32_0_0
abbrev r4_3 : Rect S32x64 := Rect.unit (s := S32x64) ![0, 0] S32x64.size inb_S32x64_S32x64_0_0
abbrev r4_4 : Rect S10000x64 := Rect.unit (s := S10000x64) ![0, 0] S10000x64.size inb_S10000x64_S10000x64_0_0

/-! ## What the body leaves in each output window's buffer -/

/-- Window 6's staging buffer after the body, from the input windows' blocks: its one store, of the whole buffer, of
    the soft-max quotient over the rectified normalised rows and their row maxima. -/
def out4_6 (x0 : Vec F S10000x32 .f32) (x1 : Vec F S32x32 .f32) (x2 : Vec F S1x32 .f32) (x3 : Vec F S1x32 .f32) (x4 : Vec F S1x32 .f32) (x5 : Vec F S32x64 .f32) : Vec F S10000x32 .f32 :=
  View.canon [⟨r4_0, k4_pay1 (k4_pay3 (View.ld x0 r4_0) (View.ld x1 r4_1) (View.ld x2 r4_2) (View.ld x3 r4_2) (View.ld x4 r4_2)) (k4_pay4 (View.ld x0 r4_0) (View.ld x1 r4_1) (View.ld x2 r4_2) (View.ld x3 r4_2) (View.ld x4 r4_2))⟩]

/-- Window 7's staging buffer after the body: its one store, of the whole buffer, of the product of that quotient
    with window 5's matrix. -/
def out4_7 (x0 : Vec F S10000x32 .f32) (x1 : Vec F S32x32 .f32) (x2 : Vec F S1x32 .f32) (x3 : Vec F S1x32 .f32) (x4 : Vec F S1x32 .f32) (x5 : Vec F S32x64 .f32) : Vec F S10000x64 .f32 :=
  View.canon [⟨r4_4, k4_pay2 (k4_pay3 (View.ld x0 r4_0) (View.ld x1 r4_1) (View.ld x2 r4_2) (View.ld x3 r4_2) (View.ld x4 r4_2)) (k4_pay4 (View.ld x0 r4_0) (View.ld x1 r4_1) (View.ld x2 r4_2) (View.ld x3 r4_2) (View.ld x4 r4_2)) (View.ld x5 r4_3)⟩]

/-- The one store tiles the buffer, so it covers it. -/
theorem cover4_6 (p0 : Vec F S10000x32 .f32) (y : S10000x32.Idx) :
    ∃ pc ∈ ([⟨r4_0, p0⟩] : List (View.Piece (Elt F) S10000x32 .f32)), y ∈ pc.1.set :=
  View.cover_of_tiled [⟨r4_0, p0⟩] S10000x32.size (by rfl) y

theorem cover4_7 (p0 : Vec F S10000x64 .f32) (y : S10000x64.Idx) :
    ∃ pc ∈ ([⟨r4_4, p0⟩] : List (View.Piece (Elt F) S10000x64 .f32)), y ∈ pc.1.set :=
  View.cover_of_tiled [⟨r4_4, p0⟩] S10000x64.size (by rfl) y

/-! ## The body's triple -/

set_option maxHeartbeats 4000000 in
/-- The kernel body on whole staging memrefs, the inputs' at read contents `xW` and the outputs' at anything, runs to
    the continuation holding the inputs' as they were and each output's at `out4_W` of the inputs': the printed
    functions are their skeletons, run statement by statement through the call of the first part. -/
theorem sound_kernel4 (c : Dev nD) (E : Set ℕ) (arg0 : Memref sig .tc .vmem S10000x32 .f32) (harg0 : arg0.IsWhole) (arg1 : Memref sig .tc .vmem S32x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S10000x32 .f32) (harg6 : arg6.IsWhole) (arg7 : Memref sig .tc .vmem S10000x64 .f32) (harg7 : arg7.IsWhole)
    (x0 : Vec F S10000x32 .f32) (x1 : Vec F S32x32 .f32) (x2 : Vec F S1x32 .f32) (x3 : Vec F S1x32 .f32) (x4 : Vec F S1x32 .f32) (x5 : Vec F S32x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out4_6 x0 x1 x2 x3 x4 x5) ∗ owns (c : Thread nD τ) arg7 fullShare (out4_7 x0 x1 x2 x3 x4 x5)) -∗ K ⟨⟩))
      ⊢ wp frame (wpE (defs₀ (F := F)) Variants.none c none) E (cc4__mlp_body arg0 harg0 arg1 harg1 arg2 harg2 arg3 harg3 arg4 harg4 arg5 harg5 arg6 harg6 arg7 harg7) K := by
  simp only [cc4__mlp_body_eq_skeleton]; unfold cc4__mlp_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover4_6 _)
  iexists _; isplitr
  swap; · iexact H7
  ipureintro
  try dsimp only
  exact View.read_writes_eq_canon _ _ _ (cover4_7 _)

/-! ## The pipeline's proof data -/

/-- The proof data of pipeline 4 on core `c`: the arrays as the region finds them (`V`); after the body each input's
    buffer at its block and each output's at `out4_W` of the input blocks; the class's invariant (the scoped rest and
    the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => out4_7 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) := by dsimp only [dat4]

/-- Each input's staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so the triple applies; the invariant and the core's
    debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.HandKernelIdeal.Reg5.lean ====
/- Region 5 of the kernel program, at a parameter `V` (the TensorCore's buffer contents when the region is
   entered): each window's block at a grid point, what the body leaves in the output window's buffer, the body's
   triple, the pipeline's proof data and its body obligation. Generic in the float interpretation `F`. -/
import proofs.«157920_g66340064854107_cont_9to1c4b_694_10_alg».proof.Proof.Gen.KernelIdeal.Launch
import proofs.«157920_g66340064854107_cont_9to1c4b_694_10_alg».proof.Proof.Gen.KernelIdeal.Skeleton
import proofs.«157920_g66340064854107_cont_9to1c4b_694_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of
-- the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5: `cc5__agg_mm_body` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved, so the block of the point before is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved, so the block of the point before is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved, so the block of the point before is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S400x10000 := Rect.unit (s := S400x10000) ![0, 0] S400x10000.size inb_S400x10000_S400x10000_0_0
abbrev r5_1 : Rect S10000x64 := Rect.unit (s := S10000x64) ![0, 0] S10000x64.size inb_S10000x64_S10000x64_0_0
abbrev r5_2 : Rect S64x128 := Rect.unit (s := S64x128) ![0, 0] S64x128.size inb_S64x128_S64x128_0_0
abbrev r5_3 : Rect S400x128 := Rect.unit (s := S400x128) ![0, 0] S400x128.size inb_S400x128_S400x128_0_0

/-! ## What the body leaves in the output window's buffer -/

/-- Window 3's staging buffer after the body, from the input windows' blocks: its one store, of the whole buffer,
    as a single piece. -/
def out5_3 (x0 : Vec F S400x10000 .bf16) (x1 : Vec F S10000x64 .f32) (x2 : Vec F S64x128 .f32) : Vec F S400x128 .f32 :=
  View.canon [⟨r5_3, k5_pay1 (View.ld x0 r5_0) (View.ld x1 r5_1) (View.ld x2 r5_2)⟩]

/-- The store is of the whole buffer, so it covers it. -/
theorem cover5_3 (p0 : Vec F S400x128 .f32) (y : S400x128.Idx) :
    ∃ pc ∈ ([⟨r5_3, p0⟩] : List (View.Piece (Elt F) S400x128 .f32)), y ∈ pc.1.set :=
  View.cover_of_tiled [⟨r5_3, p0⟩] S400x128.size (by rfl) y

/-! ## The body's triple -/

set_option maxHeartbeats 1000000 in
/-- The kernel body on whole staging memrefs, the inputs' at read contents `x0`, `x1`, `x2` and the output's at
    anything, runs to the continuation holding the inputs' as they were and the output's at `out5_3` of the inputs'.
    The body reads the output buffer before storing it whole; what it read there is not used. -/
theorem sound_kernel5 (c : Dev nD) (E : Set ℕ) (i : grid5.Coords) (arg1 : Memref sig .tc .vmem S400x10000 .bf16) (harg1 : arg1.IsWhole) (arg2 : Memref sig .tc .vmem S10000x64 .f32) (harg2 : arg2.IsWhole) (arg3 : Memref sig .tc .vmem S64x128 .f32) (harg3 : arg3.IsWhole) (arg4 : Memref sig .tc .vmem S400x128 .f32) (harg4 : arg4.IsWhole)
    (x0 : Vec F S400x10000 .bf16) (x1 : Vec F S10000x64 .f32) (x2 : Vec F S64x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__agg_mm_body i arg1 harg1 arg2 harg2 arg3 harg3 arg4 harg4) K := by
  simp only [cc5__agg_mm_body_eq_skeleton]; unfold cc5__agg_mm_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point
    `t` each input's buffer at its block and the output's at `out5_3` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_0`, `before5_1`, `before5_2`), so
    `sound_kernel5` applies; the invariant and the core's owed counters pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.HandKernelIdeal.Reg6.lean ====
/- Region 6 of the kernel program, at a parameter `V` (the TensorCore's buffer contents when the region is
   entered): each window's block at a grid point, what the body leaves in the output window's buffer, the body's
   triple, the pipeline's proof data and its body obligation. Generic in the float interpretation `F`. -/
import proofs.«157920_g66340064854107_cont_9to1c4b_694_10_alg».proof.Proof.Gen.KernelIdeal.Launch
import proofs.«157920_g66340064854107_cont_9to1c4b_694_10_alg».proof.Proof.Gen.KernelIdeal.Skeleton
import proofs.«157920_g66340064854107_cont_9to1c4b_694_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of
-- the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6: `cc6__agg_body` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block
    index has not moved, so the block of the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block
    index has not moved, so the block of the point before is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S400x10000 := Rect.unit (s := S400x10000) ![0, 0] S400x10000.size inb_S400x10000_S400x10000_0_0
abbrev r6_1 : Rect S10000x128 := Rect.unit (s := S10000x128) ![0, 0] S10000x128.size inb_S10000x128_S10000x128_0_0
abbrev r6_2 : Rect S400x128 := Rect.unit (s := S400x128) ![0, 0] S400x128.size inb_S400x128_S400x128_0_0

/-! ## What the body leaves in the output window's buffer -/

/-- Window 2's staging buffer after the body, from the input windows' blocks: its one store, of the whole buffer,
    as a single piece. -/
def out6_2 (x0 : Vec F S400x10000 .bf16) (x1 : Vec F S10000x128 .f32) : Vec F S400x128 .f32 :=
  View.canon [⟨r6_2, k6_pay1 (View.ld x0 r6_0) (View.ld x1 r6_1)⟩]

/-- The store is of the whole buffer, so it covers it. -/
theorem cover6_2 (p0 : Vec F S400x128 .f32) (y : S400x128.Idx) :
    ∃ pc ∈ ([⟨r6_2, p0⟩] : List (View.Piece (Elt F) S400x128 .f32)), y ∈ pc.1.set :=
  View.cover_of_tiled [⟨r6_2, p0⟩] S400x128.size (by rfl) y

/-! ## The body's triple -/

set_option maxHeartbeats 1000000 in
/-- The kernel body on whole staging memrefs, the inputs' at read contents `x0`, `x1` and the output's at anything,
    runs to the continuation holding the inputs' as they were and the output's at `out6_2` of the inputs'. The body
    reads the output buffer before storing it whole; what it read there is not used. -/
theorem sound_kernel6 (c : Dev nD) (E : Set ℕ) (i : grid6.Coords) (arg1 : Memref sig .tc .vmem S400x10000 .bf16) (harg1 : arg1.IsWhole) (arg2 : Memref sig .tc .vmem S10000x128 .f32) (harg2 : arg2.IsWhole) (arg3 : Memref sig .tc .vmem S400x128 .f32) (harg3 : arg3.IsWhole)
    (x0 : Vec F S400x10000 .bf16) (x1 : Vec F S10000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__agg_body i arg1 harg1 arg2 harg2 arg3 harg3) K := by
  simp only [cc6__agg_body_eq_skeleton]; unfold cc6__agg_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point
    `t` each input's buffer at its block and the output's at `out6_2` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_0`, `before6_1`), so `sound_kernel6`
    applies; the invariant and the core's owed counters pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.HandKernelIdeal.Run.lean ====
/-
  The run of the kernel program: @main is seven kernel regions with three reshapes between the fourth and the fifth. Each
  region is entered with every unscoped buffer of the core at a known boundary content and left with its output arrays at
  what its write-backs leave and everything else untouched; the boundaries are a fold from the launch memory. From the
  run follow the frame (no argument array is ever written) and, read at the output arrays, what the program returns.
  Generic in the float instance.
-/
import proofs.«157920_g66340064854107_cont_9to1c4b_694_10_alg».proof.Proof.HandKernelIdeal.Reg0
import proofs.«157920_g66340064854107_cont_9to1c4b_694_10_alg».proof.Proof.HandKernelIdeal.Reg1
import proofs.«157920_g66340064854107_cont_9to1c4b_694_10_alg».proof.Proof.HandKernelIdeal.Reg2
import proofs.«157920_g66340064854107_cont_9to1c4b_694_10_alg».proof.Proof.HandKernelIdeal.Reg3
import proofs.«157920_g66340064854107_cont_9to1c4b_694_10_alg».proof.Proof.HandKernelIdeal.Reg4
import proofs.«157920_g66340064854107_cont_9to1c4b_694_10_alg».proof.Proof.HandKernelIdeal.Reg5
import proofs.«157920_g66340064854107_cont_9to1c4b_694_10_alg».proof.Proof.HandKernelIdeal.Reg6
import proofs.«157920_g66340064854107_cont_9to1c4b_694_10_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main: a fold from the launch memory

@main is: region 0, region 1, region 2, region 3, three reshapes (the bias, scale and shift rows), region 4, region 5,
region 6. `W j` is what core `c` holds in every buffer before item `j`; a region leaves each of its arrays at what
its write-backs leave (an input array as entered) and every other buffer alone. -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- Region 0 changes none but its output arrays. -/
theorem W1_keep (c : Dev nD) (b : Ref sig .tc) (hb : b ∉ ([main_v0] : List (Ref sig .tc))) :
    W1 m ρ c (Proc.devRef .tc b) = W0 m ρ c (Proc.devRef .tc b) := by
  by_cases h : ∀ w, Pipeline.arrRef spec0 w ≠ b
  · exact W1_of_ne m ρ c b h
  · obtain ⟨w, hw⟩ := not_forall.mp h; obtain rfl := not_not.mp hw
    match w with
    | ⟨0, _⟩ => exact (W1_arr m ρ c ⟨0, by decide⟩).trans (((dat0 (V0 m ρ) c).arrAt_in ⟨0, by decide⟩ rfl _).trans (A_eq0 (V0 m ρ) c ⟨0, by decide⟩))
    | ⟨1, _⟩ => exact (W1_arr m ρ c ⟨1, by decide⟩).trans (((dat0 (V0 m ρ) c).arrAt_in ⟨1, by decide⟩ rfl _).trans (A_eq0 (V0 m ρ) c ⟨1, by decide⟩))
    | ⟨2, _⟩ => exact absurd (List.Mem.head _) hb

/-- After region 1: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- Region 1 changes none but its output arrays. -/
theorem W2_keep (c : Dev nD) (b : Ref sig .tc) (hb : b ∉ ([main_v1_0, main_v1_1] : List (Ref sig .tc))) :
    W2 m ρ c (Proc.devRef .tc b) = W1 m ρ c (Proc.devRef .tc b) := by
  by_cases h : ∀ w, Pipeline.arrRef spec1 w ≠ b
  · exact W2_of_ne m ρ c b h
  · obtain ⟨w, hw⟩ := not_forall.mp h; obtain rfl := not_not.mp hw
    match w with
    | ⟨0, _⟩ => exact (W2_arr m ρ c ⟨0, by decide⟩).trans (((dat1 (V1 m ρ) c).arrAt_in ⟨0, by decide⟩ rfl _).trans (A_eq1 (V1 m ρ) c ⟨0, by decide⟩))
    | ⟨1, _⟩ => exact (W2_arr m ρ c ⟨1, by decide⟩).trans (((dat1 (V1 m ρ) c).arrAt_in ⟨1, by decide⟩ rfl _).trans (A_eq1 (V1 m ρ) c ⟨1, by decide⟩))
    | ⟨2, _⟩ => exact (W2_arr m ρ c ⟨2, by decide⟩).trans (((dat1 (V1 m ρ) c).arrAt_in ⟨2, by decide⟩ rfl _).trans (A_eq1 (V1 m ρ) c ⟨2, by decide⟩))
    | ⟨3, _⟩ => exact absurd (List.Mem.head _) hb
    | ⟨4, _⟩ => exact absurd (List.Mem.tail _ (List.Mem.head _)) hb

/-- After region 2: its arrays at what the pipeline leaves, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- Region 2 changes none but its output arrays. -/
theorem W3_keep (c : Dev nD) (b : Ref sig .tc) (hb : b ∉ ([main_v2] : List (Ref sig .tc))) :
    W3 m ρ c (Proc.devRef .tc b) = W2 m ρ c (Proc.devRef .tc b) := by
  by_cases h : ∀ w, Pipeline.arrRef spec2 w ≠ b
  · exact W3_of_ne m ρ c b h
  · obtain ⟨w, hw⟩ := not_forall.mp h; obtain rfl := not_not.mp hw
    match w with
    | ⟨0, _⟩ => exact (W3_arr m ρ c ⟨0, by decide⟩).trans (((dat2 (V2 m ρ) c).arrAt_in ⟨0, by decide⟩ rfl _).trans (A_eq2 (V2 m ρ) c ⟨0, by decide⟩))
    | ⟨1, _⟩ => exact (W3_arr m ρ c ⟨1, by decide⟩).trans (((dat2 (V2 m ρ) c).arrAt_in ⟨1, by decide⟩ rfl _).trans (A_eq2 (V2 m ρ) c ⟨1, by decide⟩))
    | ⟨2, _⟩ => exact absurd (List.Mem.head _) hb

/-- After region 3: its one output array `main_v3` at what the pipeline leaves; the array its two input windows read
    and every other buffer as entered. -/
def W4 (c : Dev nD) : Valuation τ sig (Elt F) :=
  Function.update (W3 m ρ c) (Proc.devRef .tc main_v3) ((dat3 (V3 m ρ) c).arrAt 2 cfg3.N)
abbrev V4 : (c : Dev nD) → (b : Ref sig .tc) → Buf (Elt F) ((c : Thread nD τ).loc b) := fun c b => W4 m ρ c b
theorem W4_out (c : Dev nD) : W4 m ρ c (Proc.devRef .tc main_v3) = (dat3 (V3 m ρ) c).arrAt 2 cfg3.N := by
  unfold W4; exact Function.update_self ..
theorem W4_keep (c : Dev nD) (b : Ref sig .tc) (hb : b ∉ ([main_v3] : List (Ref sig .tc))) :
    W4 m ρ c (Proc.devRef .tc b) = W3 m ρ c (Proc.devRef .tc b) := by
  unfold W4
  exact Function.update_of_ne (StableHlo.devRef_ne_of_ne (List.ne_of_not_mem_cons hb)) ..

/-- After the three reshapes. -/
abbrev W5 : Dev nD → Valuation τ sig (Elt F) := fun c => StableHlo.after hostOps4 (W4 m ρ c)
abbrev V5 : (c : Dev nD) → (b : Ref sig .tc) → Buf (Elt F) ((c : Thread nD τ).loc b) := fun c b => W5 m ρ c b
theorem W5_keep (c : Dev nD) (b : Ref sig .tc) (hb : b ∉ hostOps4_W) : W5 m ρ c (Proc.devRef .tc b) = W4 m ρ c (Proc.devRef .tc b) :=
  StableHlo.after_of_writes_sub hostOps4 _ hostOps4_writes hb

/-- After region 4: its arrays at what the pipeline leaves, every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)
/-- Region 4 changes none but its output arrays. -/
theorem W6_keep (c : Dev nD) (b : Ref sig .tc) (hb : b ∉ ([main_v7_0, main_v7_1] : List (Ref sig .tc))) :
    W6 m ρ c (Proc.devRef .tc b) = W5 m ρ c (Proc.devRef .tc b) := by
  by_cases h : ∀ w, Pipeline.arrRef spec4 w ≠ b
  · exact W6_of_ne m ρ c b h
  · obtain ⟨w, hw⟩ := not_forall.mp h; obtain rfl := not_not.mp hw
    match w with
    | ⟨0, _⟩ => exact (W6_arr m ρ c ⟨0, by decide⟩).trans (((dat4 (V5 m ρ) c).arrAt_in ⟨0, by decide⟩ rfl _).trans (A_eq4 (V5 m ρ) c ⟨0, by decide⟩))
    | ⟨1, _⟩ => exact (W6_arr m ρ c ⟨1, by decide⟩).trans (((dat4 (V5 m ρ) c).arrAt_in ⟨1, by decide⟩ rfl _).trans (A_eq4 (V5 m ρ) c ⟨1, by decide⟩))
    | ⟨2, _⟩ => exact (W6_arr m ρ c ⟨2, by decide⟩).trans (((dat4 (V5 m ρ) c).arrAt_in ⟨2, by decide⟩ rfl _).trans (A_eq4 (V5 m ρ) c ⟨2, by decide⟩))
    | ⟨3, _⟩ => exact (W6_arr m ρ c ⟨3, by decide⟩).trans (((dat4 (V5 m ρ) c).arrAt_in ⟨3, by decide⟩ rfl _).trans (A_eq4 (V5 m ρ) c ⟨3, by decide⟩))
    | ⟨4, _⟩ => exact (W6_arr m ρ c ⟨4, by decide⟩).trans (((dat4 (V5 m ρ) c).arrAt_in ⟨4, by decide⟩ rfl _).trans (A_eq4 (V5 m ρ) c ⟨4, by decide⟩))
    | ⟨5, _⟩ => exact (W6_arr m ρ c ⟨5, by decide⟩).trans (((dat4 (V5 m ρ) c).arrAt_in ⟨5, by decide⟩ rfl _).trans (A_eq4 (V5 m ρ) c ⟨5, by decide⟩))
    | ⟨6, _⟩ => exact absurd (List.Mem.head _) hb
    | ⟨7, _⟩ => exact absurd (List.Mem.tail _ (List.Mem.head _)) hb

/-- After region 5: its arrays at what the pipeline leaves, every other buffer as entered. -/
def W7 (c : Dev nD) : Valuation τ sig (Elt F) :=
  Pipeline.withArrays spec5 c (W6 m ρ c) fun w => (dat5 (V6 m ρ) c).arrAt w cfg5.N
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
abbrev V7 : (c : Dev nD) → (b : Ref sig .tc) → Buf (Elt F) ((c : Thread nD τ).loc b) := fun c b => W7 m ρ c b
theorem hF5 (c : Dev nD) (w : Fin cfg5.W) : (dat5 (V6 m ρ) c).arrAt w cfg5.N = V7 m ρ c (Pipeline.arrRef spec5 w) :=
  (W7_arr m ρ c w).symm
theorem hrest5 (c : Dev nD) : ∀ b, b ∉ Finset.univ.image (Pipeline.arrRef spec5) → V7 m ρ c b = V6 m ρ c b :=
  fun b hb => W7_of_ne m ρ c b fun w e => hb (Finset.mem_image.mpr ⟨w, Finset.mem_univ _, e⟩)
/-- Region 5 changes none but its output arrays. -/
theorem W7_keep (c : Dev nD) (b : Ref sig .tc) (hb : b ∉ ([main_v8] : List (Ref sig .tc))) :
    W7 m ρ c (Proc.devRef .tc b) = W6 m ρ c (Proc.devRef .tc b) := by
  by_cases h : ∀ w, Pipeline.arrRef spec5 w ≠ b
  · exact W7_of_ne m ρ c b h
  · obtain ⟨w, hw⟩ := not_forall.mp h; obtain rfl := not_not.mp hw
    match w with
    | ⟨0, _⟩ => exact (W7_arr m ρ c ⟨0, by decide⟩).trans (((dat5 (V6 m ρ) c).arrAt_in ⟨0, by decide⟩ rfl _).trans (A_eq5 (V6 m ρ) c ⟨0, by decide⟩))
    | ⟨1, _⟩ => exact (W7_arr m ρ c ⟨1, by decide⟩).trans (((dat5 (V6 m ρ) c).arrAt_in ⟨1, by decide⟩ rfl _).trans (A_eq5 (V6 m ρ) c ⟨1, by decide⟩))
    | ⟨2, _⟩ => exact (W7_arr m ρ c ⟨2, by decide⟩).trans (((dat5 (V6 m ρ) c).arrAt_in ⟨2, by decide⟩ rfl _).trans (A_eq5 (V6 m ρ) c ⟨2, by decide⟩))
    | ⟨3, _⟩ => exact absurd (List.Mem.head _) hb

/-- After region 6: its arrays at what the pipeline leaves, every other buffer as entered. -/
def W8 (c : Dev nD) : Valuation τ sig (Elt F) :=
  Pipeline.withArrays spec6 c (W7 m ρ c) fun w => (dat6 (V7 m ρ) c).arrAt w cfg6.N
theorem W8_arr (c : Dev nD) (w : Fin cfg6.W) :
    W8 m ρ c (Proc.devRef .tc (Pipeline.arrRef spec6 w)) = (dat6 (V7 m ρ) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m ρ c (Proc.devRef .tc b) = W7 m ρ c (Proc.devRef .tc b) := by
  unfold W8; exact Pipeline.withArrays_of_ne spec6 c _ _ b hb
abbrev V8 : (c : Dev nD) → (b : Ref sig .tc) → Buf (Elt F) ((c : Thread nD τ).loc b) := fun c b => W8 m ρ c b
theorem hF6 (c : Dev nD) (w : Fin cfg6.W) : (dat6 (V7 m ρ) c).arrAt w cfg6.N = V8 m ρ c (Pipeline.arrRef spec6 w) :=
  (W8_arr m ρ c w).symm
theorem hrest6 (c : Dev nD) : ∀ b, b ∉ Finset.univ.image (Pipeline.arrRef spec6) → V8 m ρ c b = V7 m ρ c b :=
  fun b hb => W8_of_ne m ρ c b fun w e => hb (Finset.mem_image.mpr ⟨w, Finset.mem_univ _, e⟩)
/-- Region 6 changes none but its output arrays. -/
theorem W8_keep (c : Dev nD) (b : Ref sig .tc) (hb : b ∉ ([main_v9] : List (Ref sig .tc))) :
    W8 m ρ c (Proc.devRef .tc b) = W7 m ρ c (Proc.devRef .tc b) := by
  by_cases h : ∀ w, Pipeline.arrRef spec6 w ≠ b
  · exact W8_of_ne m ρ c b h
  · obtain ⟨w, hw⟩ := not_forall.mp h; obtain rfl := not_not.mp hw
    match w with
    | ⟨0, _⟩ => exact (W8_arr m ρ c ⟨0, by decide⟩).trans (((dat6 (V7 m ρ) c).arrAt_in ⟨0, by decide⟩ rfl _).trans (A_eq6 (V7 m ρ) c ⟨0, by decide⟩))
    | ⟨1, _⟩ => exact (W8_arr m ρ c ⟨1, by decide⟩).trans (((dat6 (V7 m ρ) c).arrAt_in ⟨1, by decide⟩ rfl _).trans (A_eq6 (V7 m ρ) c ⟨1, by decide⟩))
    | ⟨2, _⟩ => exact absurd (List.Mem.head _) hb

/-! # The proof data family and the thread state -/

/-- No pipeline has a prefetched table. -/
abbrev adm : (p : Fin 7) → (pcfgs (F := F) p).Adm := fun p => (cfgs p).toPCfg_adm
/-- Every pipeline's proof data, each at its region's entry contents: a literal match on the pipeline's number. -/
def pdats : (p : Fin 7) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V5 m ρ) c
  | ⟨5, _⟩ => fun c => dat5 (V6 m ρ) c
  | ⟨6, _⟩ => fun c => dat6 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W8 m ρ c) ∗ ∃ r, prngReg c r)

/-! # The regions as items -/

set_option backward.isDefEq.respectTransparency.types false in
/-- Region 0 over the thread state: entered with every unscoped buffer at `W0`, left with them at `W1`. Its arrays
    are split out of the unscoped buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its arrays
    are split out of the unscoped buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. Its arrays
    are split out of the unscoped buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3: two input windows on one array

Its windows 0 and 1 both read `main_v2`: at entry the array's full share is dealt in halves, one per window, and at
the exit the halves (both still at the entry contents: an input array is never written) are joined again. -/

/-- The arrays behind region 3's windows are `main_v2` and `main_v3`. -/
theorem arrs3 : (Finset.univ.image (Pipeline.arrRef spec3) : Finset (Ref sig .tc)) = {main_v2, main_v3} := by decide

theorem share3_0 (c : Dev nD) : (pdats m ρ 3 c).share 0 = fullShare.left := rfl
theorem share3_1 (c : Dev nD) : (pdats m ρ 3 c).share 1 = fullShare.right := rfl
theorem share3_2 (c : Dev nD) : (pdats m ρ 3 c).share 2 = fullShare := rfl

/-- ENTRY: the core's unscoped buffers at `V3` are region 3's arrays at their entry contents, `main_v2` dealt in two halves,
    and the unscoped rest. -/
theorem entry3 (c : Dev nD) :
    (unscopedBufs c (V3 m ρ c) : sProp 𝕄)
      ⊢ iprop((pdats m ρ 3 c).arrays ((pdats m ρ 3 c).arrAt · 0) ∗ Pipeline.unscopedRest (Ix := Unit) (Name := ℕ) (U := UR sig nD τ) (Lvl := ℕ) spec3 c (V3 m ρ c)) := by
  rw [Pipeline.unscopedBufs_split₀ (Pipeline.pin (pcfgs (F := F)) adm) 3 winFacts₀3.arr_unscoped c (V3 m ρ c)]
  refine sep_mono ?_ .rfl
  unfold Pipeline.arrBufs Dat.arrays
  rw [show (Finset.image (Pipeline.arrRef (Pipeline.pin (pcfgs (F := F)) adm 3).spec) Finset.univ : Finset (Ref sig .tc)) = {main_v2, main_v3} from arrs3,
    BI.bigSep_insert (by decide), BI.bigSep_singleton]
  refine BIBase.Entails.trans ?_ (Entails.of_eq (bigSep_W3 _).symm)
  simp only []
  have e0 := (show ((cfgs 3).win 0).arr.IsWhole from arr_whole3 0).set_eq_univ
  have e1 := (show ((cfgs 3).win 1).arr.IsWhole from arr_whole3 1).set_eq_univ
  have e2 := (show ((cfgs 3).win 2).arr.IsWhole from arr_whole3 2).set_eq_univ
  rw [share3_0, share3_1, share3_2, e0, e1, e2]
  show iprop(((c : Thread nD τ).loc main_v2 ↦{fullShare} V3 m ρ c main_v2) ∗ ((c : Thread nD τ).loc main_v3 ↦{fullShare} V3 m ρ c main_v3)) ⊢ _
  iintro ⟨H2, H3⟩
  ihave H := (pointsTo_share (PosShare.mem_left_op_right fullShare)).1 $$ H2
  icases H with ⟨Hl, Hr⟩
  isplitl [Hl]; · iexact Hl
  isplitl [Hr]; · iexact Hr
  iexact H3

/-- EXIT: region 3's arrays after its write-backs — the two halves of `main_v2` still at the entry contents, `main_v3` at what
    the pipeline leaves — and the unscoped rest are the core's unscoped buffers at the exit contents. -/
theorem exit3 (c : Dev nD) :
    iprop((pdats m ρ 3 c).arrays ((pdats m ρ 3 c).arrAt · cfg3.N) ∗ Pipeline.unscopedRest (Ix := Unit) (Name := ℕ) (U := UR sig nD τ) (Lvl := ℕ) spec3 c (V3 m ρ c))
      ⊢ (unscopedBufs c (V4 m ρ c) : sProp 𝕄) := by
  rw [Pipeline.unscopedBufs_split₀ (Pipeline.pin (pcfgs (F := F)) adm) 3 winFacts₀3.arr_unscoped c (V4 m ρ c)]
  refine sep_mono ?_ (Entails.of_eq ?_)
  · unfold Pipeline.arrBufs Dat.arrays
    rw [show (Finset.image (Pipeline.arrRef (Pipeline.pin (pcfgs (F := F)) adm 3).spec) Finset.univ : Finset (Ref sig .tc)) = {main_v2, main_v3} from arrs3,
      BI.bigSep_insert (by decide), BI.bigSep_singleton]
    refine BIBase.Entails.trans (Entails.of_eq (bigSep_W3 _)) ?_
    simp only []
    have e0 := (show ((cfgs 3).win 0).arr.IsWhole from arr_whole3 0).set_eq_univ
    have e1 := (show ((cfgs 3).win 1).arr.IsWhole from arr_whole3 1).set_eq_univ
    have e2 := (show ((cfgs 3).win 2).arr.IsWhole from arr_whole3 2).set_eq_univ
    rw [share3_0, share3_1, share3_2, e0, e1, e2]
    have h0 : (pdats m ρ 3 c).arrAt 0 cfg3.N = V4 m ρ c main_v2 :=
      ((dat3 (V3 m ρ) c).arrAt_in 0 rfl _).trans ((A_eq3 (V3 m ρ) c 0).trans (W4_keep m ρ c main_v2 (by decide)).symm)
    have h1 : (pdats m ρ 3 c).arrAt 1 cfg3.N = V4 m ρ c main_v2 :=
      ((dat3 (V3 m ρ) c).arrAt_in 1 rfl _).trans ((A_eq3 (V3 m ρ) c 1).trans (W4_keep m ρ c main_v2 (by decide)).symm)
    have h2 : (pdats m ρ 3 c).arrAt 2 cfg3.N = V4 m ρ c main_v3 := (W4_out m ρ c).symm
    rw [h0, h1, h2]
    show _ ⊢ iprop(((c : Thread nD τ).loc main_v2 ↦{fullShare} V4 m ρ c main_v2) ∗ ((c : Thread nD τ).loc main_v3 ↦{fullShare} V4 m ρ c main_v3))
    iintro ⟨Hl, Hr, H3⟩
    isplitl [Hl Hr]
    · iapply (pointsTo_share (PosShare.mem_left_op_right fullShare)).2
      isplitl [Hl]; · iexact Hl
      iexact Hr
    iexact H3
  · unfold Pipeline.unscopedRest
    exact bigSep_congr fun b hb => by
      rw [show V4 m ρ c b = V3 m ρ c b from W4_keep m ρ c b (fun hm => (Finset.mem_sdiff.mp hb).2 (by
        rw [arrs3, List.mem_singleton.mp hm]; decide))]

set_option backward.isDefEq.respectTransparency.types false in
/-- Region 3 over the thread state: entered with every unscoped buffer at `W3`, left with them at `W4`; the array its two
    input windows share is dealt in halves at entry and joined at the exit. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := entry3 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W5`, left with them at `W6`. Its arrays
    are split out of the unscoped buffers at entry and put back at the exit contents; the generator register goes into
    the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W6`, left with them at `W7`. Its arrays
    are split out of the unscoped buffers at entry and put back at the exit contents; the generator register goes into
    the region's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V6 m ρ c) (V7 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `W7`, left with them at `W8`. Its arrays
    are split out of the unscoped buffers at entry and put back at the exit contents; the generator register goes into
    the region's invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V7 m ρ) c).loose
  hwaits := Pipeline.hwaits_of_owed_zero _ _ _ _ L lv 6 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V7 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V7 m ρ c) (V8 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as items, and the launch -/

/-- @main's eight items in order. -/
abbrev segs : List (Pipeline.Seg (pcfgs (F := F)) adm (pdats m ρ) () defs₀ 𝒱₀ L lv) :=
  [ .region (reg0 m ρ), .region (reg1 m ρ), .region (reg2 m ρ), .region (reg3 m ρ),
    .host (hseg hostOps4 hostOps4_sub hostOps4_fresh (W4 m ρ)),
    .region (reg4 m ρ), .region (reg5 m ρ), .region (reg6 m ρ) ]
/-- @main is the run of the items. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates, nothing
    faulting, and in every final state each unscoped buffer of core `c` holds the last boundary's contents `W8 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! # The frame: no item writes an argument -/

/-- `main_arg0` ends as launched: no region has it as an output, no host operation writes it. -/
theorem W8_main_arg0 (c : Dev nD) : W8 m ρ c (Proc.devRef .tc main_arg0) = m ((c : Thread nD τ).loc main_arg0) :=
  (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans rfl

/-- `main_arg1` ends as launched: no region has it as an output, no host operation writes it. -/
theorem W8_main_arg1 (c : Dev nD) : W8 m ρ c (Proc.devRef .tc main_arg1) = m ((c : Thread nD τ).loc main_arg1) :=
  (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans rfl

/-- `main_arg2` ends as launched: no region has it as an output, no host operation writes it. -/
theorem W8_main_arg2 (c : Dev nD) : W8 m ρ c (Proc.devRef .tc main_arg2) = m ((c : Thread nD τ).loc main_arg2) :=
  (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans rfl

/-- `main_arg3` ends as launched: no region has it as an output, no host operation writes it. -/
theorem W8_main_arg3 (c : Dev nD) : W8 m ρ c (Proc.devRef .tc main_arg3) = m ((c : Thread nD τ).loc main_arg3) :=
  (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans rfl

/-- `main_arg4` ends as launched: no region has it as an output, no host operation writes it. -/
theorem W8_main_arg4 (c : Dev nD) : W8 m ρ c (Proc.devRef .tc main_arg4) = m ((c : Thread nD τ).loc main_arg4) :=
  (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans rfl

/-- `main_arg5` ends as launched: no region has it as an output, no host operation writes it. -/
theorem W8_main_arg5 (c : Dev nD) : W8 m ρ c (Proc.devRef .tc main_arg5) = m ((c : Thread nD τ).loc main_arg5) :=
  (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans rfl

/-- `main_arg6` ends as launched: no region has it as an output, no host operation writes it. -/
theorem W8_main_arg6 (c : Dev nD) : W8 m ρ c (Proc.devRef .tc main_arg6) = m ((c : Thread nD τ).loc main_arg6) :=
  (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans rfl

/-- `main_arg7` ends as launched: no region has it as an output, no host operation writes it. -/
theorem W8_main_arg7 (c : Dev nD) : W8 m ρ c (Proc.devRef .tc main_arg7) = m ((c : Thread nD τ).loc main_arg7) :=
  (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans rfl

/-- `main_arg8` ends as launched: no region has it as an output, no host operation writes it. -/
theorem W8_main_arg8 (c : Dev nD) : W8 m ρ c (Proc.devRef .tc main_arg8) = m ((c : Thread nD τ).loc main_arg8) :=
  (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans rfl

/-- `main_arg9` ends as launched: no region has it as an output, no host operation writes it. -/
theorem W8_main_arg9 (c : Dev nD) : W8 m ρ c (Proc.devRef .tc main_arg9) = m ((c : Thread nD τ).loc main_arg9) :=
  (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans rfl

/-- THE FRAME, at any `F`: every weakly fair execution of @main terminates, nothing faulting, and every final state has the
    ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c)⟩) (run_all m ρ)

end Cert.KernelIdeal.Hand

end
-- ==== Proof.LibHostLine.lean ====
/-
  A straight line of host operations each of which writes one buffer of its own.

  When the operations of a line write pairwise different buffers, what a buffer holds after the line (or after a
  prefix of it) is decided locally: a buffer nobody writes keeps its contents (`after_take_unwritten`), and the
  buffer written at position `n` holds the result of operation `n` over the contents just before it, whatever
  follows (`after_take_at`). The corollaries name the four builders a printed reference uses, so that the
  operation at a literal position is recovered by unification (`hop` by `rfl`) and the statement speaks of its
  function and operand buffers directly.
-/
import Idealize.ShloMosaic.Lib.StableHlo.Run

noncomputable section

namespace Idealize.ShloMosaic.StableHlo

open Idealize.ShloMosaic.TcCoe

variable {τ : Topo} {sig : RefSig} {Val : EltTy → Type}

/-- Running two lines one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The operations `ops` write the buffers `W`, one each, in order. -/
def WritesOne (ops : List (HloOp τ sig Val)) (W : List (Ref sig .tc)) : Prop :=
  List.Forall₂ (fun op y => op.writes = {Proc.devRef (τ := τ) .tc y}) ops W

theorem WritesOne.append {l₁ l₂ : List (HloOp τ sig Val)} {W₁ W₂ : List (Ref sig .tc)} (h₁ : WritesOne l₁ W₁)
    (h₂ : WritesOne l₂ W₂) : WritesOne (l₁ ++ l₂) (W₁ ++ W₂) := by
  induction h₁ with
  | nil => exact h₂
  | cons hw _ ih => exact List.Forall₂.cons hw ih

theorem WritesOne.take {ops : List (HloOp τ sig Val)} {W : List (Ref sig .tc)} (h : WritesOne ops W) (N : Nat) :
    WritesOne (ops.take N) (W.take N) := by
  induction h generalizing N with
  | nil => simp only [List.take_nil]; exact List.Forall₂.nil
  | cons hw _ ih =>
    cases N with
    | zero => exact List.Forall₂.nil
    | succ N => exact List.Forall₂.cons hw (ih N)

theorem WritesOne.length_eq {ops : List (HloOp τ sig Val)} {W : List (Ref sig .tc)} (h : WritesOne ops W) :
    ops.length = W.length := List.Forall₂.length_eq h

/-- A buffer that is none of the written ones keeps its contents through the line. -/
theorem after_unwritten {ops : List (HloOp τ sig Val)} {W : List (Ref sig .tc)} (h : WritesOne ops W) {b : Ref sig .tc}
    (hb : b ∉ W) (V : Valuation τ sig Val) : after ops V (Proc.devRef .tc b) = V (Proc.devRef .tc b) := by
  induction h generalizing V with
  | nil => rfl
  | @cons op y ops W hw _ ih =>
    have hby : b ≠ y := fun e => hb (e ▸ List.mem_cons_self)
    rw [after_cons, ih (fun hm => hb (List.mem_cons_of_mem _ hm)),
      op.result_of_not_mem V (by rw [hw, Finset.mem_singleton]; exact fun e => hby (Proc.devRef_injective _ e))]

/-- And through any prefix of it. -/
theorem after_take_unwritten {ops : List (HloOp τ sig Val)} {W : List (Ref sig .tc)} (h : WritesOne ops W) {b : Ref sig .tc}
    (hb : b ∉ W) (V : Valuation τ sig Val) (N : Nat) :
    after (ops.take N) V (Proc.devRef .tc b) = V (Proc.devRef .tc b) :=
  after_unwritten (h.take N) (fun hm => hb (List.mem_of_mem_take hm)) V

/-- **The buffer written at position `n`**, after any prefix that includes that position, holds operation `n`'s
    result over the contents just before it: no later operation writes it again. -/
theorem after_take_at {ops : List (HloOp τ sig Val)} {W : List (Ref sig .tc)} (h : WritesOne ops W) (hnd : W.Nodup)
    (V : Valuation τ sig Val) (n N : Nat) (hnN : n < N) (hn : n < ops.length) (hn' : n < W.length) :
    after (ops.take N) V (Proc.devRef .tc W[n]) = (ops[n]).result (after (ops.take n) V) (Proc.devRef .tc W[n]) := by
  induction h generalizing V n N with
  | nil => exact absurd hn (Nat.not_lt_zero _)
  | @cons op y ops W hw hrest ih =>
    obtain ⟨N, rfl⟩ : ∃ N', N = N' + 1 := ⟨N - 1, by omega⟩
    have hy : y ∉ W := (List.nodup_cons.1 hnd).1
    cases n with
    | zero =>
      show after (ops.take N) (op.result V) (Proc.devRef .tc y) = op.result V (Proc.devRef .tc y)
      exact after_take_unwritten hrest hy _ N
    | succ n =>
      have hn0 : n < ops.length := by simpa using hn
      have hn0' : n < W.length := by simpa using hn'
      show after (ops.take N) (op.result V) (Proc.devRef .tc W[n]) = (ops[n]).result (after (ops.take n) (op.result V)) (Proc.devRef .tc W[n])
      exact ih (List.nodup_cons.1 hnd).2 (op.result V) n N (by omega) hn0 hn0'

section Builders

variable {ops : List (HloOp τ sig Val)} {W : List (Ref sig .tc)}

/-- Position `n` is a constant: its buffer holds the constant. -/
theorem after_take_nullary (h : WritesOne ops W) (hnd : W.Nodup) (V : Valuation τ sig Val) (n N : Nat) (hnN : n < N)
    (hn : n < ops.length) (hn' : n < W.length) (y : Ref sig .tc) (v : y.ty.Contents Val) (hy)
    (hop : ops[n] = nullary y v hy) (hW : W[n] = y) :
    after (ops.take N) V (Proc.devRef .tc y) = v := by
  have e := after_take_at h hnd V n N hnN hn hn'
  rw [hop, hW] at e
  exact e.trans (nullary_result y v hy _)

/-- Position `n` applies `f` to the buffer `x`: its buffer holds `f` of what `x` held just before. -/
theorem after_take_unary (h : WritesOne ops W) (hnd : W.Nodup) (V : Valuation τ sig Val) (n N : Nat) (hnN : n < N)
    (hn : n < ops.length) (hn' : n < W.length) (x y : Ref sig .tc) (f : x.ty.Contents Val → y.ty.Contents Val) (hx hy)
    (hop : ops[n] = unary x y f hx hy) (hW : W[n] = y) :
    after (ops.take N) V (Proc.devRef .tc y) = f (after (ops.take n) V (Proc.devRef .tc x)) := by
  have e := after_take_at h hnd V n N hnN hn hn'
  rw [hop, hW] at e
  exact e.trans (unary_result x y f hx hy _)

/-- Position `n` applies `f` to the buffers `a` and `b`. -/
theorem after_take_binary (h : WritesOne ops W) (hnd : W.Nodup) (V : Valuation τ sig Val) (n N : Nat) (hnN : n < N)
    (hn : n < ops.length) (hn' : n < W.length) (a b y : Ref sig .tc)
    (f : a.ty.Contents Val → b.ty.Contents Val → y.ty.Contents Val) (ha hb hy)
    (hop : ops[n] = binary a b y f ha hb hy) (hW : W[n] = y) :
    after (ops.take N) V (Proc.devRef .tc y)
      = f (after (ops.take n) V (Proc.devRef .tc a)) (after (ops.take n) V (Proc.devRef .tc b)) := by
  have e := after_take_at h hnd V n N hnN hn hn'
  rw [hop, hW] at e
  exact e.trans (binary_result a b y f ha hb hy _)

/-- Position `n` applies `f` to a family of buffers. -/
theorem after_take_nary (h : WritesOne ops W) (hnd : W.Nodup) (V : Valuation τ sig Val) (n N : Nat) (hnN : n < N)
    (hn : n < ops.length) (hn' : n < W.length) {k : Nat} (xs : Fin k → Ref sig .tc) (y : Ref sig .tc)
    (f : ((i : Fin k) → (xs i).ty.Contents Val) → y.ty.Contents Val) (hxs hy)
    (hop : ops[n] = nary xs y f hxs hy) (hW : W[n] = y) :
    after (ops.take N) V (Proc.devRef .tc y) = f (fun i => after (ops.take n) V (Proc.devRef .tc (xs i))) := by
  have e := after_take_at h hnd V n N hnN hn hn'
  rw [hop, hW] at e
  exact e.trans (nary_result xs y f hxs hy _)

end Builders

end Idealize.ShloMosaic.StableHlo

end
-- ==== Proof.RefRun.Ops.lean ====
/-
  The reference program's host operations as one straight line, cut into consecutive pieces.

  The program's entry function calls its rectifiers and its variance function; a call executes the callee's body over
  the call's own buffers, so the line lists each callee's operations at the call site, over that call's record of
  buffers. Every operation writes one buffer that no other operation writes: ninety-five operations, ninety-five
  buffers, the ten argument arrays written by none. The pieces follow the computation (encoder, predicted
  adjacency, affine layer, column means, column variances, normalisation, rectifier, soft-max, decoder); each comes
  with the list of buffers it writes, in order, and the three facts the run of a line asks of its operations.
-/
import proofs.«157920_g66340064854107_cont_9to1c4b_694_10_alg».proof.Proof.Gen.ReferenceIdeal
import proofs.«157920_g66340064854107_cont_9to1c4b_694_10_alg».proof.Proof.LibHostLine
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 10: the encoder: two rounds of weights, aggregation and rectifier, ending at the hidden rows. -/
def cA : List (HloOp τ sig (Elt F)) :=
  [ StableHlo.binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    StableHlo.binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    StableHlo.TRef.nullary main_call0.cst (constant S_ .f32 0x00000000#32),
    StableHlo.TRef.unary main_call0.cst main_call0.v0 (broadcastInDim S10000x64 ![] bcast_S_S10000x64),
    StableHlo.TRef.binary (.of main_v1) main_call0.v0 main_call0.v1 maximumf,
    StableHlo.binary main_v2 main_arg3 main_v3 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    StableHlo.binary main_arg1 main_v3 main_v4 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    StableHlo.TRef.nullary main_call1.cst (constant S_ .f32 0x00000000#32),
    StableHlo.TRef.unary main_call1.cst main_call1.v0 (broadcastInDim S10000x32 ![] bcast_S_S10000x32),
    StableHlo.TRef.binary (.of main_v4) main_call1.v0 main_call1.v1 maximumf ]

/-- The buffers operations 1 … 10 write, in order. -/
def wA : List (Ref sig .tc) :=
  [main_v0, main_v1, main_call0_cst, main_call0_v0, main_v2, main_v3, main_v4, main_call1_cst, main_call1_v0, main_v5]

theorem cA_writes : WritesOne (cA (F := F)) wA := by
  unfold cA wA
  exact .cons (binary_writes ..) <| .cons (binary_writes ..) <| .cons (nullary_writes ..) <| .cons (unary_writes ..) <| .cons (binary_writes ..) <| .cons (binary_writes ..) <| .cons (binary_writes ..) <| .cons (nullary_writes ..) <| .cons (unary_writes ..) <| .cons (binary_writes ..) <| .nil

theorem cA_sub : (cA (F := F)).Forall fun op => op.bufs ⊆ tcRefs τ sig := by
  unfold cA
  exact ⟨binary_bufs_sub .., binary_bufs_sub .., nullary_bufs_sub .., unary_bufs_sub .., binary_bufs_sub .., binary_bufs_sub .., binary_bufs_sub .., nullary_bufs_sub .., unary_bufs_sub .., binary_bufs_sub ..⟩

theorem cA_fresh : ∀ op ∈ cA (F := F), op.fresh = ∅ := by
  unfold cA
  intro _ h
  (repeat (cases h with | head => rfl | tail _ h => ?_))
  exact nomatch h

/-- Operations 11 … 20: the predicted adjacency: the Gram matrix of the hidden rows through the sigmoid. -/
def cB : List (HloOp τ sig (Elt F)) :=
  [ StableHlo.unary main_v5 main_v6 ((transpose S32x10000 [1, 0] · transposes_S10000x32_S32x10000_1_0) : (⟨S10000x32, .f32⟩ : BufTy).Contents (Elt F) → (⟨S32x10000, .f32⟩ : BufTy).Contents (Elt F)),
    StableHlo.binary main_v5 main_v6 main_v7 ((fun l r => Host.dotGeneral dot_S10000x32_S32x10000_S10000x10000_1_0_0_1_n_n none l r) : (⟨S10000x32, .f32⟩ : BufTy).Contents (Elt F) → (⟨S32x10000, .f32⟩ : BufTy).Contents (Elt F) → (⟨S10000x10000, .f32⟩ : BufTy).Contents (Elt F)),
    StableHlo.unary main_v7 main_v8 (Host.negf : (⟨S10000x10000, .f32⟩ : BufTy).Contents (Elt F) → (⟨S10000x10000, .f32⟩ : BufTy).Contents (Elt F)),
    StableHlo.unary main_v8 main_v9 (Host.exp : (⟨S10000x10000, .f32⟩ : BufTy).Contents (Elt F) → (⟨S10000x10000, .f32⟩ : BufTy).Contents (Elt F)),
    StableHlo.nullary main_cst (constant S_ .f32 0x3F800000#32),
    StableHlo.unary main_cst main_v10 (broadcastInDim S10000x10000 ![] bcast_S_S10000x10000 : (⟨S_, .f32⟩ : BufTy).Contents (Elt F) → (⟨S10000x10000, .f32⟩ : BufTy).Contents (Elt F)),
    StableHlo.binary main_v10 main_v9 main_v11 (addf : (⟨S10000x10000, .f32⟩ : BufTy).Contents (Elt F) → (⟨S10000x10000, .f32⟩ : BufTy).Contents (Elt F) → (⟨S10000x10000, .f32⟩ : BufTy).Contents (Elt F)),
    StableHlo.nullary main_cst_0 (constant S_ .f32 0x3F800000#32),
    StableHlo.unary main_cst_0 main_v12 (broadcastInDim S10000x10000 ![] bcast_S_S10000x10000 : (⟨S_, .f32⟩ : BufTy).Contents (Elt F) → (⟨S10000x10000, .f32⟩ : BufTy).Contents (Elt F)),
    StableHlo.binary main_v12 main_v11 main_v13 (Host.divf : (⟨S10000x10000, .f32⟩ : BufTy).Contents (Elt F) → (⟨S10000x10000, .f32⟩ : BufTy).Contents (Elt F) → (⟨S10000x10000, .f32⟩ : BufTy).Contents (Elt F)) ]

/-- The buffers operations 11 … 20 write, in order. -/
def wB : List (Ref sig .tc) :=
  [main_v6, main_v7, main_v8, main_v9, main_cst, main_v10, main_v11, main_cst_0, main_v12, main_v13]

theorem cB_writes : WritesOne (cB (F := F)) wB := by
  unfold cB wB
  exact .cons (unary_writes ..) <| .cons (binary_writes ..) <| .cons (unary_writes ..) <| .cons (unary_writes ..) <| .cons (nullary_writes ..) <| .cons (unary_writes ..) <| .cons (binary_writes ..) <| .cons (nullary_writes ..) <| .cons (unary_writes ..) <| .cons (binary_writes ..) <| .nil

theorem cB_sub : (cB (F := F)).Forall fun op => op.bufs ⊆ tcRefs τ sig := by
  unfold cB
  exact ⟨unary_bufs_sub .., binary_bufs_sub .., unary_bufs_sub .., unary_bufs_sub .., nullary_bufs_sub .., unary_bufs_sub .., binary_bufs_sub .., nullary_bufs_sub .., unary_bufs_sub .., binary_bufs_sub ..⟩

theorem cB_fresh : ∀ op ∈ cB (F := F), op.fresh = ∅ := by
  unfold cB
  intro _ h
  (repeat (cases h with | head => rfl | tail _ h => ?_))
  exact nomatch h

/-- Operations 21 … 24: the affine layer: hidden times the weights plus the bias on every row. -/
def cC : List (HloOp τ sig (Elt F)) :=
  [ StableHlo.binary main_v5 main_arg4 main_v14 ((fun l r => Host.dotGeneral dot_S10000x32_S32x32_S10000x32_1_0_0_1_n_n none l r) : (⟨S10000x32, .f32⟩ : BufTy).Contents (Elt F) → (⟨S32x32, .f32⟩ : BufTy).Contents (Elt F) → (⟨S10000x32, .f32⟩ : BufTy).Contents (Elt F)),
    StableHlo.unary main_arg5 main_v15 (broadcastInDim S1x32 ![1] bcast_S32_S1x32_1 : (⟨S32, .f32⟩ : BufTy).Contents (Elt F) → (⟨S1x32, .f32⟩ : BufTy).Contents (Elt F)),
    StableHlo.unary main_v15 main_v16 (broadcastInDim S10000x32 ![0, 1] bcast_S1x32_S10000x32_0_1 : (⟨S1x32, .f32⟩ : BufTy).Contents (Elt F) → (⟨S10000x32, .f32⟩ : BufTy).Contents (Elt F)),
    StableHlo.binary main_v14 main_v16 main_v17 (addf : (⟨S10000x32, .f32⟩ : BufTy).Contents (Elt F) → (⟨S10000x32, .f32⟩ : BufTy).Contents (Elt F) → (⟨S10000x32, .f32⟩ : BufTy).Contents (Elt F)) ]

/-- The buffers operations 21 … 24 write, in order. -/
def wC : List (Ref sig .tc) :=
  [main_v14, main_v15, main_v16, main_v17]

theorem cC_writes : WritesOne (cC (F := F)) wC := by
  unfold cC wC
  exact .cons (binary_writes ..) <| .cons (unary_writes ..) <| .cons (unary_writes ..) <| .cons (binary_writes ..) <| .nil

theorem cC_sub : (cC (F := F)).Forall fun op => op.bufs ⊆ tcRefs τ sig := by
  unfold cC
  exact ⟨binary_bufs_sub .., unary_bufs_sub .., unary_bufs_sub .., binary_bufs_sub ..⟩

theorem cC_fresh : ∀ op ∈ cC (F := F), op.fresh = ∅ := by
  unfold cC
  intro _ h
  (repeat (cases h with | head => rfl | tail _ h => ?_))
  exact nomatch h

/-- Operations 25 … 29: the column means of the affine layer's output. -/
def cD : List (HloOp τ sig (Elt F)) :=
  [ StableHlo.nullary main_cst_1 (constant S_ .f32 0x00000000#32),
    StableHlo.binary main_v17 main_cst_1 main_v18 ((fun x v => Host.reduceAdd x v reducesTo_S10000x32_S32_d0 h_S_) : (⟨S10000x32, .f32⟩ : BufTy).Contents (Elt F) → (⟨S_, .f32⟩ : BufTy).Contents (Elt F) → (⟨S32, .f32⟩ : BufTy).Contents (Elt F)),
    StableHlo.nullary main_cst_2 (constant S_ .f32 0x461C4000#32),
    StableHlo.unary main_cst_2 main_v19 (broadcastInDim S32 ![] bcast_S_S32 : (⟨S_, .f32⟩ : BufTy).Contents (Elt F) → (⟨S32, .f32⟩ : BufTy).Contents (Elt F)),
    StableHlo.binary main_v18 main_v19 main_v20 (Host.divf : (⟨S32, .f32⟩ : BufTy).Contents (Elt F) → (⟨S32, .f32⟩ : BufTy).Contents (Elt F) → (⟨S32, .f32⟩ : BufTy).Contents (Elt F)) ]

/-- The buffers operations 25 … 29 write, in order. -/
def wD : List (Ref sig .tc) :=
  [main_cst_1, main_v18, main_cst_2, main_v19, main_v20]

theorem cD_writes : WritesOne (cD (F := F)) wD := by
  unfold cD wD
  exact .cons (nullary_writes ..) <| .cons (binary_writes ..) <| .cons (nullary_writes ..) <| .cons (unary_writes ..) <| .cons (binary_writes ..) <| .nil

theorem cD_sub : (cD (F := F)).Forall fun op => op.bufs ⊆ tcRefs τ sig := by
  unfold cD
  exact ⟨nullary_bufs_sub .., binary_bufs_sub .., nullary_bufs_sub .., unary_bufs_sub .., binary_bufs_sub ..⟩

theorem cD_fresh : ∀ op ∈ cD (F := F), op.fresh = ∅ := by
  unfold cD
  intro _ h
  (repeat (cases h with | head => rfl | tail _ h => ?_))
  exact nomatch h

/-- Operations 30 … 52: the column variances: the centred squares' column sums over the divisor, guarded by the divisor's sign. -/
def cE : List (HloOp τ sig (Elt F)) :=
  [ StableHlo.nullary main_c (constantI S_ 32 0#32),
    StableHlo.TRef.nullary main_call2.cst (constant S_ .f32 0x00000000#32),
    StableHlo.TRef.binary (.of main_v17) main_call2.cst main_call2.v0 (fun x v => Host.reduceAdd x v reducesTo_S10000x32_S32_d0 h_S_),
    StableHlo.TRef.unary main_call2.v0 main_call2.v1 (broadcastInDim S1x32 ![1] bcast_S32_S1x32_1),
    StableHlo.TRef.nullary main_call2.cst_0 (constant S_ .f32 0x461C4000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S10000x32 ![0, 1] bcast_S1x32_S10000x32_0_1),
    StableHlo.TRef.binary (.of main_v17) main_call2.v4 main_call2.v5 subf,
    StableHlo.TRef.binary main_call2.v5 main_call2.v5 main_call2.v6 mulf,
    StableHlo.TRef.unary (.of main_c) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b) ]

/-- The buffers operations 30 … 52 write, in order. -/
def wE : List (Ref sig .tc) :=
  [main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v21]

theorem cE_writes : WritesOne (cE (F := F)) wE := by
  unfold cE wE
  exact .cons (nullary_writes ..) <| .cons (nullary_writes ..) <| .cons (binary_writes ..) <| .cons (unary_writes ..) <| .cons (nullary_writes ..) <| .cons (unary_writes ..) <| .cons (binary_writes ..) <| .cons (unary_writes ..) <| .cons (binary_writes ..) <| .cons (binary_writes ..) <| .cons (unary_writes ..) <| .cons (nullary_writes ..) <| .cons (binary_writes ..) <| .cons (nullary_writes ..) <| .cons (binary_writes ..) <| .cons (unary_writes ..) <| .cons (binary_writes ..) <| .cons (nullary_writes ..) <| .cons (binary_writes ..) <| .cons (nullary_writes ..) <| .cons (unary_writes ..) <| .cons (unary_writes ..) <| .cons (ternary_writes ..) <| .nil

theorem cE_sub : (cE (F := F)).Forall fun op => op.bufs ⊆ tcRefs τ sig := by
  unfold cE
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem cE_fresh : ∀ op ∈ cE (F := F), op.fresh = ∅ := by
  unfold cE
  intro _ h
  (repeat (cases h with | head => rfl | tail _ h => ?_))
  exact nomatch h

/-- Operations 53 … 68: the normalisation, scale and shift. -/
def cF : List (HloOp τ sig (Elt F)) :=
  [ StableHlo.unary main_v20 main_v22 (broadcastInDim S1x32 ![1] bcast_S32_S1x32_1 : (⟨S32, .f32⟩ : BufTy).Contents (Elt F) → (⟨S1x32, .f32⟩ : BufTy).Contents (Elt F)),
    StableHlo.unary main_v22 main_v23 (broadcastInDim S10000x32 ![0, 1] bcast_S1x32_S10000x32_0_1 : (⟨S1x32, .f32⟩ : BufTy).Contents (Elt F) → (⟨S10000x32, .f32⟩ : BufTy).Contents (Elt F)),
    StableHlo.binary main_v17 main_v23 main_v24 (subf : (⟨S10000x32, .f32⟩ : BufTy).Contents (Elt F) → (⟨S10000x32, .f32⟩ : BufTy).Contents (Elt F) → (⟨S10000x32, .f32⟩ : BufTy).Contents (Elt F)),
    StableHlo.nullary main_cst_3 (constant S_ .f32 0x3727C5AC#32),
    StableHlo.unary main_cst_3 main_v25 (broadcastInDim S32 ![] bcast_S_S32 : (⟨S_, .f32⟩ : BufTy).Contents (Elt F) → (⟨S32, .f32⟩ : BufTy).Contents (Elt F)),
    StableHlo.binary main_v21 main_v25 main_v26 (addf : (⟨S32, .f32⟩ : BufTy).Contents (Elt F) → (⟨S32, .f32⟩ : BufTy).Contents (Elt F) → (⟨S32, .f32⟩ : BufTy).Contents (Elt F)),
    StableHlo.unary main_v26 main_v27 (Host.sqrt : (⟨S32, .f32⟩ : BufTy).Contents (Elt F) → (⟨S32, .f32⟩ : BufTy).Contents (Elt F)),
    StableHlo.unary main_v27 main_v28 (broadcastInDim S1x32 ![1] bcast_S32_S1x32_1 : (⟨S32, .f32⟩ : BufTy).Contents (Elt F) → (⟨S1x32, .f32⟩ : BufTy).Contents (Elt F)),
    StableHlo.unary main_v28 main_v29 (broadcastInDim S10000x32 ![0, 1] bcast_S1x32_S10000x32_0_1 : (⟨S1x32, .f32⟩ : BufTy).Contents (Elt F) → (⟨S10000x32, .f32⟩ : BufTy).Contents (Elt F)),
    StableHlo.binary main_v24 main_v29 main_v30 (Host.divf : (⟨S10000x32, .f32⟩ : BufTy).Contents (Elt F) → (⟨S10000x32, .f32⟩ : BufTy).Contents (Elt F) → (⟨S10000x32, .f32⟩ : BufTy).Contents (Elt F)),
    StableHlo.unary main_arg6 main_v31 (broadcastInDim S1x32 ![1] bcast_S32_S1x32_1 : (⟨S32, .f32⟩ : BufTy).Contents (Elt F) → (⟨S1x32, .f32⟩ : BufTy).Contents (Elt F)),
    StableHlo.unary main_v31 main_v32 (broadcastInDim S10000x32 ![0, 1] bcast_S1x32_S10000x32_0_1 : (⟨S1x32, .f32⟩ : BufTy).Contents (Elt F) → (⟨S10000x32, .f32⟩ : BufTy).Contents (Elt F)),
    StableHlo.binary main_v30 main_v32 main_v33 (mulf : (⟨S10000x32, .f32⟩ : BufTy).Contents (Elt F) → (⟨S10000x32, .f32⟩ : BufTy).Contents (Elt F) → (⟨S10000x32, .f32⟩ : BufTy).Contents (Elt F)),
    StableHlo.unary main_arg7 main_v34 (broadcastInDim S1x32 ![1] bcast_S32_S1x32_1 : (⟨S32, .f32⟩ : BufTy).Contents (Elt F) → (⟨S1x32, .f32⟩ : BufTy).Contents (Elt F)),
    StableHlo.unary main_v34 main_v35 (broadcastInDim S10000x32 ![0, 1] bcast_S1x32_S10000x32_0_1 : (⟨S1x32, .f32⟩ : BufTy).Contents (Elt F) → (⟨S10000x32, .f32⟩ : BufTy).Contents (Elt F)),
    StableHlo.binary main_v33 main_v35 main_v36 (addf : (⟨S10000x32, .f32⟩ : BufTy).Contents (Elt F) → (⟨S10000x32, .f32⟩ : BufTy).Contents (Elt F) → (⟨S10000x32, .f32⟩ : BufTy).Contents (Elt F)) ]

/-- The buffers operations 53 … 68 write, in order. -/
def wF : List (Ref sig .tc) :=
  [main_v22, main_v23, main_v24, main_cst_3, main_v25, main_v26, main_v27, main_v28, main_v29, main_v30, main_v31, main_v32, main_v33, main_v34, main_v35, main_v36]

theorem cF_writes : WritesOne (cF (F := F)) wF := by
  unfold cF wF
  exact .cons (unary_writes ..) <| .cons (unary_writes ..) <| .cons (binary_writes ..) <| .cons (nullary_writes ..) <| .cons (unary_writes ..) <| .cons (binary_writes ..) <| .cons (unary_writes ..) <| .cons (unary_writes ..) <| .cons (unary_writes ..) <| .cons (binary_writes ..) <| .cons (unary_writes ..) <| .cons (unary_writes ..) <| .cons (binary_writes ..) <| .cons (unary_writes ..) <| .cons (unary_writes ..) <| .cons (binary_writes ..) <| .nil

theorem cF_sub : (cF (F := F)).Forall fun op => op.bufs ⊆ tcRefs τ sig := by
  unfold cF
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem cF_fresh : ∀ op ∈ cF (F := F), op.fresh = ∅ := by
  unfold cF
  intro _ h
  (repeat (cases h with | head => rfl | tail _ h => ?_))
  exact nomatch h

/-- Operations 69 … 71: the rectifier after the normalisation. -/
def cG : List (HloOp τ sig (Elt F)) :=
  [ StableHlo.TRef.nullary main_call3.cst (constant S_ .f32 0x00000000#32),
    StableHlo.TRef.unary main_call3.cst main_call3.v0 (broadcastInDim S10000x32 ![] bcast_S_S10000x32),
    StableHlo.TRef.binary (.of main_v36) main_call3.v0 main_call3.v1 maximumf ]

/-- The buffers operations 69 … 71 write, in order. -/
def wG : List (Ref sig .tc) :=
  [main_call3_cst, main_call3_v0, main_v37]

theorem cG_writes : WritesOne (cG (F := F)) wG := by
  unfold cG wG
  exact .cons (nullary_writes ..) <| .cons (unary_writes ..) <| .cons (binary_writes ..) <| .nil

theorem cG_sub : (cG (F := F)).Forall fun op => op.bufs ⊆ tcRefs τ sig := by
  unfold cG
  exact ⟨nullary_bufs_sub .., unary_bufs_sub .., binary_bufs_sub ..⟩

theorem cG_fresh : ∀ op ∈ cG (F := F), op.fresh = ∅ := by
  unfold cG
  intro _ h
  (repeat (cases h with | head => rfl | tail _ h => ?_))
  exact nomatch h

/-- Operations 72 … 85: the soft-max along each row. -/
def cH : List (HloOp τ sig (Elt F)) :=
  [ StableHlo.nullary main_cst_4 (constant S_ .f32 0xFF800000#32),
    StableHlo.binary main_v37 main_cst_4 main_v38 ((fun x v => Host.reduce FloatOps.maximumf x v reducesTo_S10000x32_S10000_d1 h_S_) : (⟨S10000x32, .f32⟩ : BufTy).Contents (Elt F) → (⟨S_, .f32⟩ : BufTy).Contents (Elt F) → (⟨S10000, .f32⟩ : BufTy).Contents (Elt F)),
    StableHlo.nullary main_cst_5 (constant S_ .f32 0xFF800000#32),
    StableHlo.unary main_cst_5 main_v39 (broadcastInDim S10000 ![] bcast_S_S10000 : (⟨S_, .f32⟩ : BufTy).Contents (Elt F) → (⟨S10000, .f32⟩ : BufTy).Contents (Elt F)),
    StableHlo.binary main_v39 main_v38 main_v40 (maximumf : (⟨S10000, .f32⟩ : BufTy).Contents (Elt F) → (⟨S10000, .f32⟩ : BufTy).Contents (Elt F) → (⟨S10000, .f32⟩ : BufTy).Contents (Elt F)),
    StableHlo.unary main_v40 main_v41 (broadcastInDim S10000x1 ![0] bcast_S10000_S10000x1_0 : (⟨S10000, .f32⟩ : BufTy).Contents (Elt F) → (⟨S10000x1, .f32⟩ : BufTy).Contents (Elt F)),
    StableHlo.unary main_v41 main_v42 (broadcastInDim S10000x32 ![0, 1] bcast_S10000x1_S10000x32_0_1 : (⟨S10000x1, .f32⟩ : BufTy).Contents (Elt F) → (⟨S10000x32, .f32⟩ : BufTy).Contents (Elt F)),
    StableHlo.binary main_v37 main_v42 main_v43 (subf : (⟨S10000x32, .f32⟩ : BufTy).Contents (Elt F) → (⟨S10000x32, .f32⟩ : BufTy).Contents (Elt F) → (⟨S10000x32, .f32⟩ : BufTy).Contents (Elt F)),
    StableHlo.unary main_v43 main_v44 (Host.exp : (⟨S10000x32, .f32⟩ : BufTy).Contents (Elt F) → (⟨S10000x32, .f32⟩ : BufTy).Contents (Elt F)),
    StableHlo.nullary main_cst_6 (constant S_ .f32 0x00000000#32),
    StableHlo.binary main_v44 main_cst_6 main_v45 ((fun x v => Host.reduceAdd x v reducesTo_S10000x32_S10000_d1 h_S_) : (⟨S10000x32, .f32⟩ : BufTy).Contents (Elt F) → (⟨S_, .f32⟩ : BufTy).Contents (Elt F) → (⟨S10000, .f32⟩ : BufTy).Contents (Elt F)),
    StableHlo.unary main_v45 main_v46 (broadcastInDim S10000x1 ![0] bcast_S10000_S10000x1_0 : (⟨S10000, .f32⟩ : BufTy).Contents (Elt F) → (⟨S10000x1, .f32⟩ : BufTy).Contents (Elt F)),
    StableHlo.unary main_v46 main_v47 (broadcastInDim S10000x32 ![0, 1] bcast_S10000x1_S10000x32_0_1 : (⟨S10000x1, .f32⟩ : BufTy).Contents (Elt F) → (⟨S10000x32, .f32⟩ : BufTy).Contents (Elt F)),
    StableHlo.binary main_v44 main_v47 main_v48 (Host.divf : (⟨S10000x32, .f32⟩ : BufTy).Contents (Elt F) → (⟨S10000x32, .f32⟩ : BufTy).Contents (Elt F) → (⟨S10000x32, .f32⟩ : BufTy).Contents (Elt F)) ]

/-- The buffers operations 72 … 85 write, in order. -/
def wH : List (Ref sig .tc) :=
  [main_cst_4, main_v38, main_cst_5, main_v39, main_v40, main_v41, main_v42, main_v43, main_v44, main_cst_6, main_v45, main_v46, main_v47, main_v48]

theorem cH_writes : WritesOne (cH (F := F)) wH := by
  unfold cH wH
  exact .cons (nullary_writes ..) <| .cons (binary_writes ..) <| .cons (nullary_writes ..) <| .cons (unary_writes ..) <| .cons (binary_writes ..) <| .cons (unary_writes ..) <| .cons (unary_writes ..) <| .cons (binary_writes ..) <| .cons (unary_writes ..) <| .cons (nullary_writes ..) <| .cons (binary_writes ..) <| .cons (unary_writes ..) <| .cons (unary_writes ..) <| .cons (binary_writes ..) <| .nil

theorem cH_sub : (cH (F := F)).Forall fun op => op.bufs ⊆ tcRefs τ sig := by
  unfold cH
  exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem cH_fresh : ∀ op ∈ cH (F := F), op.fresh = ∅ := by
  unfold cH
  intro _ h
  (repeat (cases h with | head => rfl | tail _ h => ?_))
  exact nomatch h

/-- Operations 86 … 87: the decoder's first product and aggregation. -/
def cI : List (HloOp τ sig (Elt F)) :=
  [ StableHlo.binary main_v48 main_arg8 main_v49 ((fun l r => Host.dotGeneral dot_S10000x32_S32x64_S10000x64_1_0_0_1_n_n none l r) : (⟨S10000x32, .f32⟩ : BufTy).Contents (Elt F) → (⟨S32x64, .f32⟩ : BufTy).Contents (Elt F) → (⟨S10000x64, .f32⟩ : BufTy).Contents (Elt F)),
    StableHlo.binary main_arg1 main_v49 main_v50 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)) ]

/-- The buffers operations 86 … 87 write, in order. -/
def wI : List (Ref sig .tc) :=
  [main_v49, main_v50]

theorem cI_writes : WritesOne (cI (F := F)) wI := by
  unfold cI wI
  exact .cons (binary_writes ..) <| .cons (binary_writes ..) <| .nil

theorem cI_sub : (cI (F := F)).Forall fun op => op.bufs ⊆ tcRefs τ sig := by
  unfold cI
  exact ⟨binary_bufs_sub .., binary_bufs_sub ..⟩

theorem cI_fresh : ∀ op ∈ cI (F := F), op.fresh = ∅ := by
  unfold cI
  intro _ h
  (repeat (cases h with | head => rfl | tail _ h => ?_))
  exact nomatch h

/-- Operations 88 … 95: the decoder's rectifier, second product, aggregation and last rectifier. -/
def cJ : List (HloOp τ sig (Elt F)) :=
  [ StableHlo.TRef.nullary main_call4.cst (constant S_ .f32 0x00000000#32),
    StableHlo.TRef.unary main_call4.cst main_call4.v0 (broadcastInDim S10000x64 ![] bcast_S_S10000x64),
    StableHlo.TRef.binary (.of main_v50) main_call4.v0 main_call4.v1 maximumf,
    StableHlo.binary main_v51 main_arg9 main_v52 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_arg1 main_v52 main_v53 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.TRef.nullary main_call5.cst (constant S_ .f32 0x00000000#32),
    StableHlo.TRef.unary main_call5.cst main_call5.v0 (broadcastInDim S10000x128 ![] bcast_S_S10000x128),
    StableHlo.TRef.binary (.of main_v53) main_call5.v0 main_call5.v1 maximumf ]

/-- The buffers operations 88 … 95 write, in order. -/
def wJ : List (Ref sig .tc) :=
  [main_call4_cst, main_call4_v0, main_v51, main_v52, main_v53, main_call5_cst, main_call5_v0, main_v54]

theorem cJ_writes : WritesOne (cJ (F := F)) wJ := by
  unfold cJ wJ
  exact .cons (nullary_writes ..) <| .cons (unary_writes ..) <| .cons (binary_writes ..) <| .cons (binary_writes ..) <| .cons (binary_writes ..) <| .cons (nullary_writes ..) <| .cons (unary_writes ..) <| .cons (binary_writes ..) <| .nil

theorem cJ_sub : (cJ (F := F)).Forall fun op => op.bufs ⊆ tcRefs τ sig := by
  unfold cJ
  exact ⟨nullary_bufs_sub .., unary_bufs_sub .., binary_bufs_sub .., binary_bufs_sub .., binary_bufs_sub .., nullary_bufs_sub .., unary_bufs_sub .., binary_bufs_sub ..⟩

theorem cJ_fresh : ∀ op ∈ cJ (F := F), op.fresh = ∅ := by
  unfold cJ
  intro _ h
  (repeat (cases h with | head => rfl | tail _ h => ?_))
  exact nomatch h

end Cert.ReferenceIdeal.Hand

end
-- ==== Proof.RefRun.MainEq.lean ====
/-
  The reference program's entry function is the straight line of its ninety-five host operations.

  The entry function is printed as two consecutive windows of statements. In each, a call is the callee's body
  applied to the call's buffers; unfolding the bodies and re-associating the sequencing leaves one chain of host
  steps, which is the line of the pieces' operations in order. The two windows run one after the other, and two
  lines run one after the other are their concatenation.
-/
import proofs.«157920_g66340064854107_cont_9to1c4b_694_10_alg».proof.Proof.RefRun.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window's operations: pieces one to nine. -/
def ops0 : List (HloOp τ sig (Elt F)) := cA ++ (cB ++ (cC ++ (cD ++ (cE ++ (cF ++ (cG ++ (cH ++ cI)))))))

/-- The whole line. -/
def ops : List (HloOp τ sig (Elt F)) := ops0 ++ cJ

set_option maxRecDepth 8192 in
set_option maxHeartbeats 4000000 in
/-- The first window of statements is pieces one to nine. -/
theorem part0_eq (c : Dev nD) : main_part0 (F := F) c = seq ops0 := by
  simp only [main_part0, fn_relu.body, fn_relu_0.body, fn_var.body, fn_where.body, ops0, cA, cB, cC, cD, cE, cF, cG, cH, cI,
    List.cons_append, List.nil_append, seq, bind_assoc, pure_bind]
  rfl

set_option maxRecDepth 2048 in
/-- The second window of statements is the last piece. -/
theorem part1_eq (c : Dev nD) : main_part1 (F := F) c = seq cJ := by
  simp only [main_part1, fn_relu.body, fn_relu_1.body, cJ, seq, bind_assoc, pure_bind]

/-- The entry function is the whole line. -/
theorem main_eq (c : Dev nD) : main (F := F) c = seq ops := by
  unfold main ops
  rw [seq_append, part0_eq, part1_eq]

theorem ops_sub : (ops (F := F)).Forall fun op => op.bufs ⊆ tcRefs τ sig := by
  unfold ops ops0
  exact List.forall_append.2 ⟨List.forall_append.2 ⟨cA_sub, List.forall_append.2 ⟨cB_sub, List.forall_append.2 ⟨cC_sub,
    List.forall_append.2 ⟨cD_sub, List.forall_append.2 ⟨cE_sub, List.forall_append.2 ⟨cF_sub, List.forall_append.2 ⟨cG_sub,
    List.forall_append.2 ⟨cH_sub, cI_sub⟩⟩⟩⟩⟩⟩⟩⟩, cJ_sub⟩

theorem ops_fresh : ∀ op ∈ ops (F := F), op.fresh = ∅ := by
  unfold ops ops0
  intro op h
  simp only [List.mem_append] at h
  rcases h with ((h | h | h | h | h | h | h | h | h) | h)
  · exact cA_fresh op h
  · exact cB_fresh op h
  · exact cC_fresh op h
  · exact cD_fresh op h
  · exact cE_fresh op h
  · exact cF_fresh op h
  · exact cG_fresh op h
  · exact cH_fresh op h
  · exact cI_fresh op h
  · exact cJ_fresh op h

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefTerms.lean ====
/-
  The reference network's four results as whole-array terms of its ten argument arrays.

  Each definition composes the host operations in the order, and with the operands, in which the reference
  program and the functions it calls spell them: a rectifier is the maximum with a broadcast zero, the sigmoid is
  one over one plus the exponential of the negated Gram matrix, the normalisation subtracts the column mean and
  divides by the square root of the column variance plus a floor, and the soft-max subtracts the row maximum
  before exponentiating and divides by the row sum. A value used more than once (the affine layer's output, the
  rectified normalised rows, the exponentials) is named by a definition of its own, so that the whole term stays
  the size of the program.
-/
import proofs.«157920_g66340064854107_cont_9to1c4b_694_10_alg».proof.Proof.Gen.ReferenceIdeal
import Idealize.ShloMosaic.PureOps.Ideal

noncomputable section

namespace Cert.ReferenceIdeal.Hand

open Cert.ReferenceIdeal Cert.ReferenceIdeal.Gen Idealize.ShloMosaic

/-- The rectifier on a 10000×64 array: the maximum with zero broadcast to the array's shape. -/
def tRelu64 (y : FVec Ideal S10000x64 .f32) : FVec Ideal S10000x64 .f32 :=
  maximumf y (broadcastInDim S10000x64 ![] bcast_S_S10000x64 (constant (F := Ideal) S_ .f32 0x00000000#32))

/-- The rectifier on a 10000×32 array. -/
def tRelu32 (y : FVec Ideal S10000x32 .f32) : FVec Ideal S10000x32 .f32 :=
  maximumf y (broadcastInDim S10000x32 ![] bcast_S_S10000x32 (constant (F := Ideal) S_ .f32 0x00000000#32))

/-- The rectifier on a 10000×128 array. -/
def tRelu128 (y : FVec Ideal S10000x128 .f32) : FVec Ideal S10000x128 .f32 :=
  maximumf y (broadcastInDim S10000x128 ![] bcast_S_S10000x128 (constant (F := Ideal) S_ .f32 0x00000000#32))

/-- The encoder: two rounds of "multiply by the weights, aggregate with the adjacency matrix, rectify". -/
def tHidden (x0 : FVec Ideal S10000x128 .f32) (x1 : FVec Ideal S10000x10000 .f32) (x2 : FVec Ideal S128x64 .f32)
    (x3 : FVec Ideal S64x32 .f32) : FVec Ideal S10000x32 .f32 :=
  tRelu32 (Host.dotGeneral (F := Ideal) dot_S10000x10000_S10000x32_S10000x32_1_0_0_1_n_n none x1
    (Host.dotGeneral (F := Ideal) dot_S10000x64_S64x32_S10000x32_1_0_0_1_n_n none
      (tRelu64 (Host.dotGeneral (F := Ideal) dot_S10000x10000_S10000x64_S10000x64_1_0_0_1_n_n none x1
        (Host.dotGeneral (F := Ideal) dot_S10000x128_S128x64_S10000x64_1_0_0_1_n_n none x0 x2)))
      x3))

/-- The predicted adjacency: one over (one plus the exponential of minus the Gram matrix of the hidden rows). -/
def tApred (h : FVec Ideal S10000x32 .f32) : FVec Ideal S10000x10000 .f32 :=
  Host.divf (F := Ideal)
    (broadcastInDim S10000x10000 ![] bcast_S_S10000x10000 (constant (F := Ideal) S_ .f32 0x3F800000#32))
    (addf
      (broadcastInDim S10000x10000 ![] bcast_S_S10000x10000 (constant (F := Ideal) S_ .f32 0x3F800000#32))
      (Host.exp (F := Ideal) (Host.negf (F := Ideal)
        (Host.dotGeneral (F := Ideal) dot_S10000x32_S32x10000_S10000x10000_1_0_0_1_n_n none h
          (transpose S32x10000 [1, 0] h transposes_S10000x32_S32x10000_1_0)))))

/-- A length-32 vector as a 1×32 row repeated down 10000 rows. -/
def tRows (v : FVec Ideal S32 .f32) : FVec Ideal S10000x32 .f32 :=
  broadcastInDim S10000x32 ![0, 1] bcast_S1x32_S10000x32_0_1 (broadcastInDim S1x32 ![1] bcast_S32_S1x32_1 v)

/-- A length-10000 vector as a 10000×1 column repeated across 32 columns. -/
def tCols (v : FVec Ideal S10000 .f32) : FVec Ideal S10000x32 .f32 :=
  broadcastInDim S10000x32 ![0, 1] bcast_S10000x1_S10000x32_0_1 (broadcastInDim S10000x1 ![0] bcast_S10000_S10000x1_0 v)

/-- The affine layer: hidden times the weights, plus the bias on every row. -/
def tZ (h : FVec Ideal S10000x32 .f32) (x4 : FVec Ideal S32x32 .f32) (x5 : FVec Ideal S32 .f32) :
    FVec Ideal S10000x32 .f32 :=
  addf (Host.dotGeneral (F := Ideal) dot_S10000x32_S32x32_S10000x32_1_0_0_1_n_n none h x4) (tRows x5)

/-- The column means: each column's sum divided by the number of rows. -/
def tMu (z : FVec Ideal S10000x32 .f32) : FVec Ideal S32 .f32 :=
  Host.divf (F := Ideal)
    (Host.reduceAdd (F := Ideal) z (constant (F := Ideal) S_ .f32 0x00000000#32) reducesTo_S10000x32_S32_d0 h_S_)
    (broadcastInDim S32 ![] bcast_S_S32 (constant (F := Ideal) S_ .f32 0x461C4000#32))

/-- The centred array the variance squares: each entry minus its column's mean, the mean computed as a 1×32 row. -/
def tCentred (z : FVec Ideal S10000x32 .f32) : FVec Ideal S10000x32 .f32 :=
  subf z (broadcastInDim S10000x32 ![0, 1] bcast_S1x32_S10000x32_0_1
    (Host.divf (F := Ideal)
      (broadcastInDim S1x32 ![1] bcast_S32_S1x32_1
        (Host.reduceAdd (F := Ideal) z (constant (F := Ideal) S_ .f32 0x00000000#32) reducesTo_S10000x32_S32_d0 h_S_))
      (broadcastInDim S1x32 ![] bcast_S_S1x32 (constant (F := Ideal) S_ .f32 0x461C4000#32))))

/-- The divisor of the variance: the number of rows minus the (zero) degrees-of-freedom correction. -/
def tDof : FVec Ideal S_ .f32 :=
  subf (constant (F := Ideal) S_ .f32 0x461C4000#32) (sitofp (F := Ideal) .f32 (constantI S_ 32 0#32))

/-- The column variances: the column sums of the squared centred entries over the divisor, kept where the divisor
    is positive and replaced by the not-a-number word elsewhere. -/
def tVar (z : FVec Ideal S10000x32 .f32) : FVec Ideal S32 .f32 :=
  select
    (broadcastInDim S32 ![] bcast_S_S32 (cmpf (F := Ideal) .ogt tDof (constant (F := Ideal) S_ .f32 0x00000000#32)))
    (Host.divf (F := Ideal)
      (Host.reduceAdd (F := Ideal) (mulf (tCentred z) (tCentred z)) (constant (F := Ideal) S_ .f32 0x00000000#32)
        reducesTo_S10000x32_S32_d0 h_S_)
      (broadcastInDim S32 ![] bcast_S_S32 tDof))
    (broadcastInDim S32 ![] bcast_S_S32 (id (constant (F := Ideal) S_ .f32 0x7FC00000#32)))

/-- The normalisation: centred by the column mean, divided by the square root of the column variance plus the
    floor, scaled by the first vector and shifted by the second. -/
def tNorm (z : FVec Ideal S10000x32 .f32) (x6 x7 : FVec Ideal S32 .f32) : FVec Ideal S10000x32 .f32 :=
  addf
    (mulf
      (Host.divf (F := Ideal)
        (subf z (tRows (tMu z)))
        (tRows (Host.sqrt (F := Ideal)
          (addf (tVar z) (broadcastInDim S32 ![] bcast_S_S32 (constant (F := Ideal) S_ .f32 0x3727C5AC#32))))))
      (tRows x6))
    (tRows x7)

/-- The row maxima: each row's maximum from minus infinity, and once more against minus infinity. -/
def tRowMax (r : FVec Ideal S10000x32 .f32) : FVec Ideal S10000 .f32 :=
  maximumf
    (broadcastInDim S10000 ![] bcast_S_S10000 (constant (F := Ideal) S_ .f32 0xFF800000#32))
    (Host.reduce (FloatOps.maximumf (F := Ideal) (φ := .f32)) r (constant (F := Ideal) S_ .f32 0xFF800000#32)
      reducesTo_S10000x32_S10000_d1 h_S_)

/-- The exponentials of the entries minus their row's maximum. -/
def tExps (r : FVec Ideal S10000x32 .f32) : FVec Ideal S10000x32 .f32 :=
  Host.exp (F := Ideal) (subf r (tCols (tRowMax r)))

/-- The soft-max along each row: the exponentials over their row sums. -/
def tSoftmax (r : FVec Ideal S10000x32 .f32) : FVec Ideal S10000x32 .f32 :=
  Host.divf (F := Ideal) (tExps r)
    (tCols (Host.reduceAdd (F := Ideal) (tExps r) (constant (F := Ideal) S_ .f32 0x00000000#32)
      reducesTo_S10000x32_S10000_d1 h_S_))

/-- The projection head: affine layer, normalisation, rectifier, soft-max. -/
def tProj (h : FVec Ideal S10000x32 .f32) (x4 : FVec Ideal S32x32 .f32) (x5 x6 x7 : FVec Ideal S32 .f32) :
    FVec Ideal S10000x32 .f32 :=
  tSoftmax (tRelu32 (tNorm (tZ h x4 x5) x6 x7))

/-- The decoder: two rounds of "multiply by the weights, aggregate with the adjacency matrix, rectify". -/
def tXbar (x1 : FVec Ideal S10000x10000 .f32) (p : FVec Ideal S10000x32 .f32) (x8 : FVec Ideal S32x64 .f32)
    (x9 : FVec Ideal S64x128 .f32) : FVec Ideal S10000x128 .f32 :=
  tRelu128 (Host.dotGeneral (F := Ideal) dot_S10000x10000_S10000x128_S10000x128_1_0_0_1_n_n none x1
    (Host.dotGeneral (F := Ideal) dot_S10000x64_S64x128_S10000x128_1_0_0_1_n_n none
      (tRelu64 (Host.dotGeneral (F := Ideal) dot_S10000x10000_S10000x64_S10000x64_1_0_0_1_n_n none x1
        (Host.dotGeneral (F := Ideal) dot_S10000x32_S32x64_S10000x64_1_0_0_1_n_n none p x8)))
      x9))

end Cert.ReferenceIdeal.Hand

end
-- ==== Proof.LibBufCast.lean ====
/-
  Contents carried to a buffer's own type and back.

  A host operation of a module-local function is spelt over typed references: a reference together with the proof that
  its buffer's type is the value's type. What the operation reads is carried from the buffer's type to the value's, and
  what it writes is carried back, both along that proof. Carrying a value to the buffer's type and straight back gives
  the value again, whatever the proof: this removes, by rewriting, the pairs of transports that reading one operation's
  result into the next operation leaves behind.
-/
import Idealize.ShloMosaic.Lib.StableHlo

namespace Idealize.ShloMosaic.StableHlo.TRef

variable {sig : RefSig} {T : BufTy} {Val : EltTy → Type}

/-- Contents moved to a buffer's own type and back are the contents. -/
theorem ofBuf_toBuf (x : TRef sig T) (v : T.Contents Val) : x.ofBuf (x.toBuf v) = v := by
  obtain ⟨r, h, h1, h2⟩ := x
  subst h
  rfl

/-- Contents of a buffer moved to the value's type and back are the contents. -/
theorem toBuf_ofBuf (x : TRef sig T) (v : x.ref.ty.Contents Val) : x.toBuf (x.ofBuf v) = v := by
  obtain ⟨r, h, h1, h2⟩ := x
  subst h
  rfl

end Idealize.ShloMosaic.StableHlo.TRef
-- ==== Proof.RefRun.Chunks.lean ====
/-
  What each piece of the reference's line computes, from the contents it starts from.

  For any contents of the buffers, the buffer a piece ends at holds the piece's operations composed over the buffers
  the piece reads from outside itself: reading the line back operation by operation, each result buffer holds its
  operation's function of what its operands held, and a buffer that an operation does not write holds what it held
  before. The composed terms are the definitions of the reference's terms, one level open.
-/
import proofs.«157920_g66340064854107_cont_9to1c4b_694_10_alg».proof.Proof.RefRun.Ops
import proofs.«157920_g66340064854107_cont_9to1c4b_694_10_alg».proof.Proof.RefTerms
import proofs.«157920_g66340064854107_cont_9to1c4b_694_10_alg».proof.Proof.LibBufCast

noncomputable section

namespace Cert.ReferenceIdeal.Hand

open Cert.ReferenceIdeal Cert.ReferenceIdeal.Gen Idealize.ShloMosaic Idealize.ShloMosaic.TcCoe Idealize.SL.Sem Idealize.ShloMosaic.StableHlo

variable (V : Valuation τ sig (Elt Ideal))

/-- The encoder's piece ends with the hidden rows. -/
theorem cA_v5 :
    after (cA (F := Ideal)) V (Proc.devRef .tc main_v5)
      = tHidden (V (Proc.devRef .tc main_arg0)) (V (Proc.devRef .tc main_arg1)) (V (Proc.devRef .tc main_arg2)) (V (Proc.devRef .tc main_arg3)) := by
  unfold cA tHidden tRelu32 tRelu64
  after_results_simp
  first | done | rfl

/-- The sigmoid's piece ends with the predicted adjacency of the hidden rows it reads. -/
theorem cB_v13 :
    after (cB (F := Ideal)) V (Proc.devRef .tc main_v13) = tApred (V (Proc.devRef .tc main_v5)) := by
  unfold cB tApred
  after_results_simp
  first | done | rfl

/-- The affine layer's piece. -/
theorem cC_v17 :
    after (cC (F := Ideal)) V (Proc.devRef .tc main_v17)
      = tZ (V (Proc.devRef .tc main_v5)) (V (Proc.devRef .tc main_arg4)) (V (Proc.devRef .tc main_arg5)) := by
  unfold cC tZ tRows
  after_results_simp
  first | done | rfl

/-- The column means' piece. -/
theorem cD_v20 :
    after (cD (F := Ideal)) V (Proc.devRef .tc main_v20) = tMu (V (Proc.devRef .tc main_v17)) := by
  unfold cD tMu
  after_results_simp
  first | done | rfl

set_option maxRecDepth 4096 in
/-- The column variances' piece: the variance function's operations and, inside it, the guarded choice's. -/
theorem cE_v21 :
    after (cE (F := Ideal)) V (Proc.devRef .tc main_v21) = tVar (V (Proc.devRef .tc main_v17)) := by
  unfold cE tVar tCentred tDof
  after_results_simp
  first | done | (simp only [TRef.ofBuf_toBuf]; first | done | rfl)

/-- The normalisation's piece, over the means and variances it reads. -/
theorem cF_v36 :
    after (cF (F := Ideal)) V (Proc.devRef .tc main_v36)
      = addf
          (mulf
            (Host.divf (F := Ideal)
              (subf (V (Proc.devRef .tc main_v17)) (tRows (V (Proc.devRef .tc main_v20))))
              (tRows (Host.sqrt (F := Ideal)
                (addf (V (Proc.devRef .tc main_v21)) (broadcastInDim S32 ![] bcast_S_S32 (constant (F := Ideal) S_ .f32 0x3727C5AC#32))))))
            (tRows (V (Proc.devRef .tc main_arg6))))
          (tRows (V (Proc.devRef .tc main_arg7))) := by
  unfold cF tRows
  after_results_simp
  first | done | rfl

/-- The rectifier's piece. -/
theorem cG_v37 :
    after (cG (F := Ideal)) V (Proc.devRef .tc main_v37) = tRelu32 (V (Proc.devRef .tc main_v36)) := by
  unfold cG tRelu32
  after_results_simp
  first | done | rfl

/-- The soft-max's piece. -/
theorem cH_v48 :
    after (cH (F := Ideal)) V (Proc.devRef .tc main_v48) = tSoftmax (V (Proc.devRef .tc main_v37)) := by
  unfold cH tSoftmax tExps tCols tRowMax
  after_results_simp
  first | done | rfl

/-- The decoder's first piece: the projection times the weights, aggregated. -/
theorem cI_v50 :
    after (cI (F := Ideal)) V (Proc.devRef .tc main_v50)
      = Host.dotGeneral (F := Ideal) (φ₁ := .f32) (φ₂ := .f32) dot_S10000x10000_S10000x64_S10000x64_1_0_0_1_n_n none (V (Proc.devRef .tc main_arg1) : FVec Ideal S10000x10000 .f32)
          (Host.dotGeneral (F := Ideal) (φ₁ := .f32) (φ₂ := .f32) dot_S10000x32_S32x64_S10000x64_1_0_0_1_n_n none (V (Proc.devRef .tc main_v48) : FVec Ideal S10000x32 .f32) (V (Proc.devRef .tc main_arg8) : FVec Ideal S32x64 .f32)) := by
  unfold cI
  after_results_simp
  first | done | rfl

/-- The decoder's second piece. -/
theorem cJ_v54 :
    after (cJ (F := Ideal)) V (Proc.devRef .tc main_v54)
      = tRelu128 (Host.dotGeneral (F := Ideal) (φ₁ := .f32) (φ₂ := .f32) dot_S10000x10000_S10000x128_S10000x128_1_0_0_1_n_n none (V (Proc.devRef .tc main_arg1) : FVec Ideal S10000x10000 .f32)
          (Host.dotGeneral (F := Ideal) (φ₁ := .f32) (φ₂ := .f32) dot_S10000x64_S64x128_S10000x128_1_0_0_1_n_n none
            (tRelu64 (V (Proc.devRef .tc main_v50))) (V (Proc.devRef .tc main_arg9) : FVec Ideal S64x128 .f32))) := by
  unfold cJ tRelu128 tRelu64
  after_results_simp
  first | done | rfl

end Cert.ReferenceIdeal.Hand

end
-- ==== Proof.RefRun.lean ====
/-
  The reference program's run: its four results as terms of its ten argument arrays.

  The entry function is a straight line of ninety-five host operations in ten consecutive pieces. Reading the line
  back piece by piece: each piece's last buffer holds the piece's composed term over the buffers the piece reads, and
  every buffer a piece does not write goes through it unchanged. The hidden rows are the first piece's term of four
  arguments; the predicted adjacency is the second piece's term of the hidden rows; the projection is the soft-max
  of the rectified normalisation of the affine layer's output, the normalisation reading the column means and
  variances two earlier pieces left; the reconstruction is the last two pieces' term of the projection. No piece
  writes an argument array, so the ten arguments end as they began.
-/
import proofs.«157920_g66340064854107_cont_9to1c4b_694_10_alg».proof.Proof.RefRun.MainEq
import proofs.«157920_g66340064854107_cont_9to1c4b_694_10_alg».proof.Proof.RefRun.Chunks

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable (V : Valuation τ sig (Elt Ideal))

/-- The whole line is its ten pieces run one after the other. -/
theorem after_ops :
    after (ops (F := Ideal)) V
      = after cJ (after cI (after cH (after cG (after cF (after cE (after cD (after cC (after cB (after cA V))))))))) := by
  simp only [ops, ops0, after_append]

/-! A buffer outside a piece's written list goes through the piece unchanged. -/
theorem keepA {b : Ref sig .tc} (hb : b ∉ wA) :
    after (cA (F := Ideal)) V (Proc.devRef .tc b) = V (Proc.devRef .tc b) := after_unwritten cA_writes hb V
theorem keepB {b : Ref sig .tc} (hb : b ∉ wB) :
    after (cB (F := Ideal)) V (Proc.devRef .tc b) = V (Proc.devRef .tc b) := after_unwritten cB_writes hb V
theorem keepC {b : Ref sig .tc} (hb : b ∉ wC) :
    after (cC (F := Ideal)) V (Proc.devRef .tc b) = V (Proc.devRef .tc b) := after_unwritten cC_writes hb V
theorem keepD {b : Ref sig .tc} (hb : b ∉ wD) :
    after (cD (F := Ideal)) V (Proc.devRef .tc b) = V (Proc.devRef .tc b) := after_unwritten cD_writes hb V
theorem keepE {b : Ref sig .tc} (hb : b ∉ wE) :
    after (cE (F := Ideal)) V (Proc.devRef .tc b) = V (Proc.devRef .tc b) := after_unwritten cE_writes hb V
theorem keepF {b : Ref sig .tc} (hb : b ∉ wF) :
    after (cF (F := Ideal)) V (Proc.devRef .tc b) = V (Proc.devRef .tc b) := after_unwritten cF_writes hb V
theorem keepG {b : Ref sig .tc} (hb : b ∉ wG) :
    after (cG (F := Ideal)) V (Proc.devRef .tc b) = V (Proc.devRef .tc b) := after_unwritten cG_writes hb V
theorem keepH {b : Ref sig .tc} (hb : b ∉ wH) :
    after (cH (F := Ideal)) V (Proc.devRef .tc b) = V (Proc.devRef .tc b) := after_unwritten cH_writes hb V
theorem keepI {b : Ref sig .tc} (hb : b ∉ wI) :
    after (cI (F := Ideal)) V (Proc.devRef .tc b) = V (Proc.devRef .tc b) := after_unwritten cI_writes hb V
theorem keepJ {b : Ref sig .tc} (hb : b ∉ wJ) :
    after (cJ (F := Ideal)) V (Proc.devRef .tc b) = V (Proc.devRef .tc b) := after_unwritten cJ_writes hb V

/-- Carry the reads of buffer `b` back through every piece that does not write it, last piece first. -/
local macro "keep_through " b:term : tactic =>
  `(tactic| (
    (repeat rw [keepJ (b := $b) _ (by decide)])
    (repeat rw [keepI (b := $b) _ (by decide)])
    (repeat rw [keepH (b := $b) _ (by decide)])
    (repeat rw [keepG (b := $b) _ (by decide)])
    (repeat rw [keepF (b := $b) _ (by decide)])
    (repeat rw [keepE (b := $b) _ (by decide)])
    (repeat rw [keepD (b := $b) _ (by decide)])
    (repeat rw [keepC (b := $b) _ (by decide)])
    (repeat rw [keepB (b := $b) _ (by decide)])
    (repeat rw [keepA (b := $b) _ (by decide)])))

/-- A buffer no piece writes holds, after the line, what it held before. -/
theorem ops_arg {b : Ref sig .tc} (hA : b ∉ wA) (hB : b ∉ wB) (hC : b ∉ wC) (hD : b ∉ wD) (hE : b ∉ wE) (hF : b ∉ wF)
    (hG : b ∉ wG) (hH : b ∉ wH) (hI : b ∉ wI) (hJ : b ∉ wJ) :
    after (ops (F := Ideal)) V (Proc.devRef .tc b) = V (Proc.devRef .tc b) := by
  rw [after_ops, keepJ _ hJ, keepI _ hI, keepH _ hH, keepG _ hG, keepF _ hF, keepE _ hE, keepD _ hD, keepC _ hC, keepB _ hB,
    keepA _ hA]

/-- The hidden rows: written by the first piece, read back through the other nine. -/
theorem ops_v5 :
    after (ops (F := Ideal)) V (Proc.devRef .tc main_v5)
      = tHidden (V (Proc.devRef .tc main_arg0)) (V (Proc.devRef .tc main_arg1)) (V (Proc.devRef .tc main_arg2)) (V (Proc.devRef .tc main_arg3)) := by
  rw [after_ops]
  keep_through main_v5
  exact cA_v5 V

/-- The predicted adjacency: the second piece's term of the hidden rows the first piece left. -/
theorem ops_v13 :
    after (ops (F := Ideal)) V (Proc.devRef .tc main_v13)
      = tApred (tHidden (V (Proc.devRef .tc main_arg0)) (V (Proc.devRef .tc main_arg1)) (V (Proc.devRef .tc main_arg2)) (V (Proc.devRef .tc main_arg3))) := by
  rw [after_ops]
  keep_through main_v13
  rw [cB_v13, cA_v5]

/-- The projection after the first eight pieces: the soft-max of the rectified normalisation of the affine layer's
    output, the means and the variances read from the pieces that computed them. -/
theorem pre_v48 :
    after (cH (F := Ideal)) (after cG (after cF (after cE (after cD (after cC (after cB (after cA V))))))) (Proc.devRef .tc main_v48)
      = tProj (tHidden (V (Proc.devRef .tc main_arg0)) (V (Proc.devRef .tc main_arg1)) (V (Proc.devRef .tc main_arg2)) (V (Proc.devRef .tc main_arg3)))
          (V (Proc.devRef .tc main_arg4)) (V (Proc.devRef .tc main_arg5)) (V (Proc.devRef .tc main_arg6)) (V (Proc.devRef .tc main_arg7)) := by
  rw [cH_v48, cG_v37, cF_v36, cE_v21]
  keep_through main_v20
  rw [cD_v20]
  keep_through main_v17
  rw [cC_v17]
  keep_through main_v5
  rw [cA_v5]
  keep_through main_arg4
  keep_through main_arg5
  keep_through main_arg6
  keep_through main_arg7
  unfold tProj tNorm
  rfl

/-- The projection after the whole line. -/
theorem ops_v48 :
    after (ops (F := Ideal)) V (Proc.devRef .tc main_v48)
      = tProj (tHidden (V (Proc.devRef .tc main_arg0)) (V (Proc.devRef .tc main_arg1)) (V (Proc.devRef .tc main_arg2)) (V (Proc.devRef .tc main_arg3)))
          (V (Proc.devRef .tc main_arg4)) (V (Proc.devRef .tc main_arg5)) (V (Proc.devRef .tc main_arg6)) (V (Proc.devRef .tc main_arg7)) := by
  rw [after_ops]
  keep_through main_v48
  exact pre_v48 V

/-- The reconstruction: the last two pieces' term of the projection. -/
theorem ops_v54 :
    after (ops (F := Ideal)) V (Proc.devRef .tc main_v54)
      = tXbar (V (Proc.devRef .tc main_arg1))
          (tProj (tHidden (V (Proc.devRef .tc main_arg0)) (V (Proc.devRef .tc main_arg1)) (V (Proc.devRef .tc main_arg2)) (V (Proc.devRef .tc main_arg3)))
            (V (Proc.devRef .tc main_arg4)) (V (Proc.devRef .tc main_arg5)) (V (Proc.devRef .tc main_arg6)) (V (Proc.devRef .tc main_arg7)))
          (V (Proc.devRef .tc main_arg8)) (V (Proc.devRef .tc main_arg9)) := by
  rw [after_ops, cJ_v54, cI_v50, pre_v48]
  keep_through main_arg1
  keep_through main_arg8
  keep_through main_arg9
  unfold tXbar
  rfl

end Line

/-- On the one device, from any memory with zero counters: every weakly fair execution of the reference's entry
    function terminates with the four result buffers at the reference's terms of the ten argument arrays' launch
    contents, and the ten argument arrays unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      (r.2.mem ((c.tc : Thread nD τ).loc main_v5) = tHidden (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v48) = tProj (tHidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7))
        ∧ r.2.mem ((c.tc : Thread nD τ).loc main_v13) = tApred (tHidden (m ((c.tc : Thread nD τ).loc main_arg0)) (m ((c.tc : Thread nD τ).loc main_arg1)) (m ((c.tc : Thread nD τ).loc main_arg2)) (m ((c.tc : Thread nD τ).loc main_arg3)))
        ∧ r.2.mem ((c.tc : Thread nD τ).loc main_v54) = tXbar (m ((c.tc : Thread nD τ).loc main_arg1)) (tProj (tHidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)))
      ∧ (r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9))) :=
  (θ_run (Cert.ReferenceIdeal.defs (F := Ideal)) _ _).mono (fun _ h c => ⟨⟨(h c main_v5).trans (ops_v5 _), (h c main_v48).trans (ops_v48 _),
      (h c main_v13).trans (ops_v13 _), (h c main_v54).trans (ops_v54 _)⟩,
      (h c main_arg0).trans (ops_arg _ (by decide) (by decide) (by decide) (by decide) (by decide) (by decide) (by decide) (by decide) (by decide) (by decide)),
      (h c main_arg1).trans (ops_arg _ (by decide) (by decide) (by decide) (by decide) (by decide) (by decide) (by decide) (by decide) (by decide) (by decide)),
      (h c main_arg2).trans (ops_arg _ (by decide) (by decide) (by decide) (by decide) (by decide) (by decide) (by decide) (by decide) (by decide) (by decide)),
      (h c main_arg3).trans (ops_arg _ (by decide) (by decide) (by decide) (by decide) (by decide) (by decide) (by decide) (by decide) (by decide) (by decide)),
      (h c main_arg4).trans (ops_arg _ (by decide) (by decide) (by decide) (by decide) (by decide) (by decide) (by decide) (by decide) (by decide) (by decide)),
      (h c main_arg5).trans (ops_arg _ (by decide) (by decide) (by decide) (by decide) (by decide) (by decide) (by decide) (by decide) (by decide) (by decide)),
      (h c main_arg6).trans (ops_arg _ (by decide) (by decide) (by decide) (by decide) (by decide) (by decide) (by decide) (by decide) (by decide) (by decide)),
      (h c main_arg7).trans (ops_arg _ (by decide) (by decide) (by decide) (by decide) (by decide) (by decide) (by decide) (by decide) (by decide) (by decide)),
      (h c main_arg8).trans (ops_arg _ (by decide) (by decide) (by decide) (by decide) (by decide) (by decide) (by decide) (by decide) (by decide) (by decide)),
      (h c main_arg9).trans (ops_arg _ (by decide) (by decide) (by decide) (by decide) (by decide) (by decide) (by decide) (by decide) (by decide) (by decide))⟩)
    (run_seq scopedRefs_eq scopedSems_eq (Cert.ReferenceIdeal.defs (F := Ideal)) (main (F := Ideal)) (fun _ => ops) main_eq (fun _ => ops_sub) m ρ
      (fun _ => ops_fresh))

end Cert.ReferenceIdeal.Hand

end
-- ==== Proof.Spec.lean ====
/-
  The network this certificate is about, as functions on the extended reals, index by index.

  A graph auto-encoder on n nodes with adjacency matrix A:
    h1      = relu (A · (X · W_e1))
    hidden  = relu (A · (h1 · W_e2))
    A_pred  = sigmoid (hidden · hiddenᵀ)
    z       = hidden · W_mlp + b,   normalised column by column with the batch mean and (biased) variance,
              scaled by gamma, shifted by beta, rectified, and soft-maxed along each row: proj
    d1      = relu (A · (proj · W_d1))
    X_bar   = relu (A · (d1 · W_d2))
  Matrices are functions of a rank-2 index; a product is the plain sum over the shared coordinate.
  Two spellings occur for the sigmoid and for the normalisation; they are stated both, and shown equal on real
  arguments below.
-/
import Idealize.ShloMosaic.PureOps.Ideal
import Idealize.ShloMosaic.Lib.ValueIdx

noncomputable section

namespace Cert.Spec

open Idealize.ShloMosaic Idealize.ShloMosaic.ValueIdx
open scoped BigOperators

/-- An a×b matrix of extended reals. -/
abbrev Mat (a b : ℕ) : Type := (⟨2, ![a, b]⟩ : Shape).Idx → EReal
/-- A length-n vector of extended reals. -/
abbrev Vc (n : ℕ) : Type := (⟨1, ![n]⟩ : Shape).Idx → EReal

/-- The f32 words that occur: 0, 1, 1/2, 10000, the variance floor 1e-5 (as f32), and minus infinity. -/
abbrev w0 : EReal := Ideal.ofBits .f32 0x00000000#32
abbrev w1 : EReal := Ideal.ofBits .f32 0x3F800000#32
abbrev wHalf : EReal := Ideal.ofBits .f32 0x3F000000#32
abbrev wN : EReal := Ideal.ofBits .f32 0x461C4000#32
abbrev wEps : EReal := Ideal.ofBits .f32 0x3727C5AC#32
abbrev wBot : EReal := Ideal.ofBits .f32 0xFF800000#32

variable {a k b n d e : ℕ}

/-- The matrix product: entry (p, q) is the sum over c of A(p, c) · B(c, q). -/
def mm (A : Mat a k) (B : Mat k b) : Mat a b := fun i => ∑ c : Fin k, A (ix2 (i 0) c) * B (ix2 c (i 1))

/-- The rectifier, entry by entry: the maximum with the zero word. -/
def relu (A : Mat a b) : Mat a b := fun i => max (A i) w0

/-- H · Hᵀ: entry (p, q) is the sum over c of H(p, c) · H(q, c). -/
def gram (H : Mat a k) : Mat a a := fun i => ∑ c : Fin k, H (ix2 (i 0) c) * H (ix2 (i 1) c)

/-- The logistic function spelt 1 / (1 + e^(−x)). -/
def sigmDiv (x : EReal) : EReal := Ideal.div w1 (w1 + Ideal.exp (-x))
/-- The logistic function spelt ½ · (tanh (½ · x) + 1). -/
def sigmTanh (x : EReal) : EReal := wHalf * (Ideal.tanh (wHalf * x) + w1)

/-- The affine layer: z(p, q) = Σ_c h(p, c) · W(c, q) + b(q). -/
def lin (h : Mat n d) (W : Mat d e) (bias : Vc e) : Mat n e := fun i => mm h W i + bias (ix1 (i 1))

/-- The mean of column q: the column's sum divided by the word 10000. -/
def colMean (z : Mat n e) : Vc e := fun j => Ideal.div (∑ r : Fin n, z (ix2 r (j 0))) wN

/-- The (biased) variance of column q: the mean of the squared deviations from the column's mean. -/
def colVar (z : Mat n e) : Vc e := fun j =>
  Ideal.div (∑ r : Fin n, (z (ix2 r (j 0)) - colMean z j) * (z (ix2 r (j 0)) - colMean z j)) wN

/-- Batch normalisation with the reciprocal square root as a factor: ((z − mean) · rsqrt (var + eps)) · gamma + beta. -/
def normMul (z : Mat n e) (g be : Vc e) : Mat n e := fun i =>
  ((z i - colMean z (ix1 (i 1))) * Ideal.rsqrt (colVar z (ix1 (i 1)) + wEps)) * g (ix1 (i 1)) + be (ix1 (i 1))
/-- Batch normalisation with a division by the square root: ((z − mean) / sqrt (var + eps)) · gamma + beta. -/
def normDiv (z : Mat n e) (g be : Vc e) : Mat n e := fun i =>
  (Ideal.div (z i - colMean z (ix1 (i 1))) (Ideal.sqrt (colVar z (ix1 (i 1)) + wEps))) * g (ix1 (i 1)) + be (ix1 (i 1))

/-- The largest entry of row p, never below minus infinity. -/
def rowTop (y : Mat n e) (p : Fin n) : EReal := max wBot (Finset.univ.sup fun q : Fin e => y (ix2 p q))

/-- The soft-max along each row: e^(y(p,q) − top_p) divided by the row's sum of those exponentials. -/
def softmax (y : Mat n e) : Mat n e := fun i =>
  Ideal.div (Ideal.exp (y i - rowTop y (i 0))) (∑ q : Fin e, Ideal.exp (y (ix2 (i 0) q) - rowTop y (i 0)))

/-! ## The four results, as functions of the ten arguments -/

/-- The encoder's hidden embedding. -/
def hidden (X : Mat n a) (A : Mat n n) (We1 : Mat a k) (We2 : Mat k d) : Mat n d :=
  relu (mm A (mm (relu (mm A (mm X We1))) We2))

/-- The projected embedding, with the normalisation spelt by the reciprocal square root. -/
def projMul (h : Mat n d) (Wm : Mat d e) (bias g be : Vc e) : Mat n e := softmax (relu (normMul (lin h Wm bias) g be))
/-- The projected embedding, with the normalisation spelt by the division. -/
def projDiv (h : Mat n d) (Wm : Mat d e) (bias g be : Vc e) : Mat n e := softmax (relu (normDiv (lin h Wm bias) g be))

/-- The predicted adjacency, tanh spelling and quotient spelling. -/
def apredTanh (h : Mat n d) : Mat n n := fun i => sigmTanh (gram h i)
def apredDiv (h : Mat n d) : Mat n n := fun i => sigmDiv (gram h i)

/-- The decoder's reconstruction from the projected embedding. -/
def xbar (A : Mat n n) (p : Mat n e) (Wd1 : Mat e k) (Wd2 : Mat k a) : Mat n a :=
  relu (mm A (mm (relu (mm A (mm p Wd1))) Wd2))

end Cert.Spec

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibMatLayout.lean ====
/-
  Two matrix layout facts, for any element type and any extents: the offsets of a rectangle that starts at a matrix's
  origin are the zero function (zero_off2), and the transpose of an [a, b] matrix read at (k, q) is the matrix at
  (q, k) (transpose_ab_ba_apply).
-/
import Idealize.ShloMosaic.Lib.Pipeline.Value
import Idealize.ShloMosaic.Lib.ValueIdx

namespace Cert.LibMatLayout

open Idealize.ShloMosaic Idealize.ShloMosaic.ValueIdx

/-- The offsets of a rectangle that starts at the origin of a matrix. -/
theorem zero_off2 : (![0, 0] : Fin 2 → Nat) = fun _ => 0 := funext fun a => by fin_cases a <;> rfl

/-- The transpose of a matrix `[a, b]` reads, at `(k, q)`, the matrix at `(q, k)`. -/
theorem transpose_ab_ba_apply {α : Type} {a b : ℕ} (x : (⟨2, ![a, b]⟩ : Shape).Idx → α)
    (h : (⟨2, ![a, b]⟩ : Shape).Transposes [1, 0] ⟨2, ![b, a]⟩) (k : Fin b) (q : Fin a) :
    transpose ⟨2, ![b, a]⟩ [1, 0] x h (ix2 k q) = x (ix2 q k) := by
  refine transpose_apply [1, 0] x h (ix2 k q) (ix2 q k) fun ax => ?_
  match ax with
  | ⟨0, _⟩ => rfl
  | ⟨1, _⟩ => rfl

end Cert.LibMatLayout
-- ==== Proof.KVal0.lean ====
/- The value of region 0 of the kernel program at the ideal values (`cc0__mm_body`: the product of two whole f32 matrices): what the region's output array
   holds after the pipeline's last point, as one function of the arrays the region finds at entry. -/
import proofs.«157920_g66340064854107_cont_9to1c4b_694_10_alg».proof.Proof.HandKernelIdeal.Reg0
import proofs.«157920_g66340064854107_cont_9to1c4b_694_10_alg».proof.Proof.Spec
import proofs.«157920_g66340064854107_cont_9to1c4b_694_10_alg».proof.Proof.LibDot
import proofs.«157920_g66340064854107_cont_9to1c4b_694_10_alg».proof.Proof.LibMatLayout
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The body's payload at an index -/

/-- The body's payload at (p, q): row p of the first operand against column q of the second, summed over the
    shared coordinate. -/
theorem pay0_apply (x0 : Vec Ideal S10000x128 .f32) (x1 : Vec Ideal S128x64 .f32) (p : Fin 10000) (q : Fin 64) :
    k0_pay1 x0 x1 (ix2 p q) = ∑ c : Fin 128, x0 (ix2 p c) * x1 (ix2 c q) := by
  unfold k0_pay1
  exact LibDot.matmul_zero_apply (m := 10000) (k := 128) (n := 64) Gen.dot_S10000x128_S128x64_S10000x64_1_0_0_1_n_n_wf none x0 x1 p q

/-- The same against whole matrices: when the operands are A and B as far as row p and column q go, the payload at
    (p, q) is the product at (p, q). -/
theorem point0 (A : Spec.Mat 10000 128) (B : Spec.Mat 128 64)
    (x0 : Vec Ideal S10000x128 .f32) (x1 : Vec Ideal S128x64 .f32) (p : Fin 10000) (q : Fin 64)
    (h0 : ∀ c : Fin 128, x0 (ix2 p c) = A (ix2 p c)) (h1 : ∀ c : Fin 128, x1 (ix2 c q) = B (ix2 c q)) :
    k0_pay1 x0 x1 (ix2 p q) = Spec.mm A B (ix2 p q) := by
  rw [pay0_apply]
  show _ = ∑ c : Fin 128, A (ix2 p c) * B (ix2 c q)
  refine Finset.sum_congr rfl fun c _ => ?_
  rw [h0, h1]

/-! ## From the one block to the array -/

/-- The index maps of the three windows: each window's one block is its whole array. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the one point writes back is the product of the two arrays the region finds (read through the window,
    whose block is the whole array). -/
theorem flushed0_eq (c : Dev nD) (t : Fin cfg0.N) :
    (dat0 (F := Ideal) V c).flushed 2 t = ((cfg0.win 2).blk t).view.read (Elt Ideal)
      (Spec.mm (V c main_arg0 : Spec.Mat 10000 128) (V c main_arg2 : Spec.Mat 128 64)) := by
  show (cfg0.win 2).cut (grid0.coords t) ((dat0 V c).after 2 t) = _
  rw [after0_2]
  unfold out0_2
  rw [View.canon_unit_zero LibMatLayout.zero_off2]
  simp only [View.ld_unit_zero (S := S10000x128) LibMatLayout.zero_off2, View.ld_unit_zero (S := S128x64) LibMatLayout.zero_off2]
  obtain ⟨e0, e1, e2, e3, e4, e5⟩ := idx_facts0 t
  funext j
  show k0_pay1 (iblk0 V c 0 t) (iblk0 V c 1 t) j
    = Spec.mm (V c main_arg0 : Spec.Mat 10000 128) (V c main_arg2 : Spec.Mat 128 64) (((cfg0.win 2).blk t).view.emb j)
  have hemb : ((cfg0.win 2).blk t).view.emb j = ix2 (j 0) (j 1) := by
    funext a; apply Fin.ext
    match a with
    | ⟨0, _⟩ => show win0_2.index t (0 : Fin 2) * 10000 + 1 * (j 0).val = (j 0).val; omega
    | ⟨1, _⟩ => show win0_2.index t (1 : Fin 2) * 64 + 1 * (j 1).val = (j 1).val; omega
  rw [hemb]
  refine (congrArg (k0_pay1 (iblk0 V c 0 t) (iblk0 V c 1 t)) (eq_ix2 j)).trans ?_
  refine point0 _ _ _ _ _ _ (fun k => ?_) (fun k => ?_)
  · show V c main_arg0 (((cfg0.win 0).blk t).view.emb (ix2 (j 0) k)) = V c main_arg0 (ix2 (j 0) k)
    refine congrArg _ (funext fun a => Fin.ext ?_)
    match a with
    | ⟨0, _⟩ => show win0_0.index t (0 : Fin 2) * 10000 + 1 * (j 0).val = (j 0).val; omega
    | ⟨1, _⟩ => show win0_0.index t (1 : Fin 2) * 128 + 1 * k.val = k.val; omega
  · show V c main_arg2 (((cfg0.win 1).blk t).view.emb (ix2 k (j 1))) = V c main_arg2 (ix2 k (j 1))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = (j 1).val; omega

/-- An index of the array is in the point's block iff each coordinate is in the block's range on its axis. -/
theorem mem_blk0 (t : Fin cfg0.N) (i : S10000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every index of the array is in the one point's block. -/
theorem cover0 (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  obtain ⟨e0, e1, e2, e3, e4, e5⟩ := idx_facts0 t0_0
  refine ⟨t0_0, flush0_2 _, ?_⟩
  rw [mem_blk0]
  intro a
  match a with
  | ⟨0, _⟩ =>
    show win0_2.index t0_0 (0 : Fin 2) * 10000 ≤ (i 0).val ∧ (i 0).val < win0_2.index t0_0 (0 : Fin 2) * 10000 + 10000
    rw [e4]; omega
  | ⟨1, _⟩ =>
    show win0_2.index t0_0 (1 : Fin 2) * 64 ≤ (i 1).val ∧ (i 1).val < win0_2.index t0_0 (1 : Fin 2) * 64 + 64
    rw [e5]; omega

/-- The region's output array after its one point: the product of the two arrays the region finds. -/
theorem final0 (c : Dev nD) : (dat0 (F := Ideal) V c).arrAt 2 cfg0.N
    = Spec.mm (V c main_arg0 : Spec.Mat 10000 128) (V c main_arg2 : Spec.Mat 128 64) :=
  (dat0 V c).arrAt_eq_of_cover 2 _ (fun t _ => flushed0_eq V c t) cover0

end Cert.KernelIdeal.HandValue

end
-- ==== Proof.KVal1.lean ====
/- The value of region 1 of the kernel program at the ideal values (`cc1__agg_first_body`: a block of rows times a whole matrix, rectified, times a second matrix; and the block itself): what the region's output array
   holds after the pipeline's last point, as one function of the arrays the region finds at entry. -/
import proofs.«157920_g66340064854107_cont_9to1c4b_694_10_alg».proof.Proof.HandKernelIdeal.Reg1
import proofs.«157920_g66340064854107_cont_9to1c4b_694_10_alg».proof.Proof.Spec
import proofs.«157920_g66340064854107_cont_9to1c4b_694_10_alg».proof.Proof.LibDot
import proofs.«157920_g66340064854107_cont_9to1c4b_694_10_alg».proof.Proof.LibMatLayout
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The body's payloads at an index -/

/-- The narrowed block at an index: reading a value at a narrower type is the identity on the extended reals. -/
theorem pay1_1_apply (x0 : Vec Ideal S400x10000 .f32) (j : S400x10000.Idx) : k1_pay1 x0 j = x0 j := rfl

/-- The second payload at (p, q): the rectified first product's row p against column q of the third operand. -/
theorem pay1_2_apply (x0 : Vec Ideal S400x10000 .f32) (x1 : Vec Ideal S10000x64 .f32) (x2 : Vec Ideal S64x32 .f32)
    (p : Fin 400) (q : Fin 32) :
    k1_pay2 x0 x1 x2 (ix2 p q)
      = ∑ c : Fin 64, max (∑ d : Fin 10000, x0 (ix2 p d) * x1 (ix2 d c)) Spec.w0 * x2 (ix2 c q) := by
  unfold k1_pay2
  refine (LibDot.matmul_zero_apply (m := 400) (k := 64) (n := 32) Gen.dot_S400x64_S64x32_S400x32_1_0_0_1_n_n_wf none _ x2 p q).trans ?_
  refine Finset.sum_congr rfl fun c _ => ?_
  refine congrArg (fun z => z * _) ?_
  rw [maximumf_apply, broadcast_apply]
  refine congrArg (fun z => max z _) ?_
  rw [shapeCast_self]
  exact LibDot.matmul_zero_apply (m := 400) (k := 10000) (n := 64) Gen.dot_S400x10000_S10000x64_S400x64_1_0_0_1_n_n_wf none (k1_pay1 x0) (truncf .bf16 x1 Gen.bitsLt_bf16_f32) p c

/-- The same against whole matrices: when row p of the block is row r of A, and the other operands are B and C (C
    as far as column q goes), the payload at (p, q) is ((A·B)₊·C) at (r, q). -/
theorem point1_3 (A : Spec.Mat 10000 10000) (B : Spec.Mat 10000 64) (C : Spec.Mat 64 32)
    (x0 : Vec Ideal S400x10000 .f32) (x1 : Vec Ideal S10000x64 .f32) (x2 : Vec Ideal S64x32 .f32)
    (r : Fin 10000) (p : Fin 400) (q : Fin 32)
    (h0 : ∀ d : Fin 10000, x0 (ix2 p d) = A (ix2 r d)) (h1 : ∀ (d : Fin 10000) (c : Fin 64), x1 (ix2 d c) = B (ix2 d c))
    (h2 : ∀ c : Fin 64, x2 (ix2 c q) = C (ix2 c q)) :
    k1_pay2 x0 x1 x2 (ix2 p q) = Spec.mm (Spec.relu (Spec.mm A B)) C (ix2 r q) := by
  rw [pay1_2_apply]
  show _ = ∑ c : Fin 64, max (∑ d : Fin 10000, A (ix2 r d) * B (ix2 d c)) Spec.w0 * C (ix2 c q)
  refine Finset.sum_congr rfl fun c _ => ?_
  rw [h2]
  refine congrArg (fun z => max z _ * _) (Finset.sum_congr rfl fun d _ => ?_)
  rw [h0, h1]

/-! ## From blocks to the arrays -/

/-- The printed index maps over the grid: the first operand's and both outputs' blocks are the t-th blocks of rows,
    all columns; the second and third operands are whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point t writes back to the first output is block t of ((A·B)₊·C) of the three arrays the region finds. -/
theorem flushed1_3_eq (c : Dev nD) (t : Fin cfg1.N) :
    (dat1 (F := Ideal) V c).flushed 3 t = ((cfg1.win 3).blk t).view.read (Elt Ideal)
      (Spec.mm (Spec.relu (Spec.mm (V c main_arg1 : Spec.Mat 10000 10000) (V c main_v0 : Spec.Mat 10000 64))) (V c main_arg3 : Spec.Mat 64 32)) := by
  show (cfg1.win 3).cut (grid1.coords t) ((dat1 V c).after 3 t) = _
  rw [after1_3]
  unfold out1_3
  rw [View.canon_unit_zero LibMatLayout.zero_off2]
  simp only [View.ld_unit_zero (S := S400x10000) LibMatLayout.zero_off2, View.ld_unit_zero (S := S10000x64) LibMatLayout.zero_off2,
    View.ld_unit_zero (S := S64x32) LibMatLayout.zero_off2]
  obtain ⟨e0, e1, e2, e3, e4, e5, e6, e7, e8, e9⟩ := idx_facts1 t
  have ht : t.val < 25 := lt_of_lt_of_eq t.isLt N_1
  funext j
  have hj0 : (j 0).val < 400 := (j 0).isLt
  have hj1 : (j 1).val < 32 := (j 1).isLt
  have hr : t.val * 400 + (j 0).val < 10000 := by omega
  show k1_pay2 (iblk1 V c 0 t) (iblk1 V c 1 t) (iblk1 V c 2 t) j
    = Spec.mm (Spec.relu (Spec.mm (V c main_arg1 : Spec.Mat 10000 10000) (V c main_v0 : Spec.Mat 10000 64))) (V c main_arg3 : Spec.Mat 64 32)
        (((cfg1.win 3).blk t).view.emb j)
  have hemb : ((cfg1.win 3).blk t).view.emb j = ix2 (⟨t.val * 400 + (j 0).val, hr⟩ : Fin 10000) (j 1) := by
    funext a; apply Fin.ext
    match a with
    | ⟨0, _⟩ => show win1_3.index t (0 : Fin 2) * 400 + 1 * (j 0).val = t.val * 400 + (j 0).val; omega
    | ⟨1, _⟩ => show win1_3.index t (1 : Fin 2) * 32 + 1 * (j 1).val = (j 1).val; omega
  rw [hemb]
  refine (congrArg (k1_pay2 (iblk1 V c 0 t) (iblk1 V c 1 t) (iblk1 V c 2 t)) (eq_ix2 j)).trans ?_
  refine point1_3 _ _ _ _ _ _ _ _ _ (fun d => ?_) (fun d k => ?_) (fun k => ?_)
  · show V c main_arg1 (((cfg1.win 0).blk t).view.emb (ix2 (j 0) d)) = V c main_arg1 (ix2 (⟨t.val * 400 + (j 0).val, hr⟩ : Fin 10000) d)
    refine congrArg _ (funext fun a => Fin.ext ?_)
    match a with
    | ⟨0, _⟩ => show win1_0.index t (0 : Fin 2) * 400 + 1 * (j 0).val = t.val * 400 + (j 0).val; omega
    | ⟨1, _⟩ => show win1_0.index t (1 : Fin 2) * 10000 + 1 * d.val = d.val; omega
  · show V c main_v0 (((cfg1.win 1).blk t).view.emb (ix2 d k)) = V c main_v0 (ix2 d k)
    refine congrArg _ (funext fun a => Fin.ext ?_)
    match a with
    | ⟨0, _⟩ => show win1_1.index t (0 : Fin 2) * 10000 + 1 * d.val = d.val; omega
    | ⟨1, _⟩ => show win1_1.index t (1 : Fin 2) * 64 + 1 * k.val = k.val; omega
  · show V c main_arg3 (((cfg1.win 2).blk t).view.emb (ix2 k (j 1))) = V c main_arg3 (ix2 k (j 1))
    refine congrArg _ (funext fun a => Fin.ext ?_)
    match a with
    | ⟨0, _⟩ => show win1_2.index t (0 : Fin 2) * 64 + 1 * k.val = k.val; omega
    | ⟨1, _⟩ => show win1_2.index t (1 : Fin 2) * 32 + 1 * (j 1).val = (j 1).val; omega

/-- What point t writes back to the second output is block t of the first array the region finds. -/
theorem flushed1_4_eq (c : Dev nD) (t : Fin cfg1.N) :
    (dat1 (F := Ideal) V c).flushed 4 t = ((cfg1.win 4).blk t).view.read (Elt Ideal) (V c main_arg1 : Spec.Mat 10000 10000) := by
  show (cfg1.win 4).cut (grid1.coords t) ((dat1 V c).after 4 t) = _
  rw [after1_4]
  unfold out1_4
  rw [View.canon_unit_zero LibMatLayout.zero_off2]
  simp only [View.ld_unit_zero (S := S400x10000) LibMatLayout.zero_off2]
  obtain ⟨e0, e1, e2, e3, e4, e5, e6, e7, e8, e9⟩ := idx_facts1 t
  funext j
  show V c main_arg1 (((cfg1.win 0).blk t).view.emb j) = V c main_arg1 (((cfg1.win 4).blk t).view.emb j)
  refine congrArg _ (funext fun a => Fin.ext ?_)
  match a with
  | ⟨0, _⟩ => show win1_0.index t (0 : Fin 2) * 400 + 1 * (j 0).val = win1_4.index t (0 : Fin 2) * 400 + 1 * (j 0).val; omega
  | ⟨1, _⟩ => show win1_0.index t (1 : Fin 2) * 10000 + 1 * (j 1).val = win1_4.index t (1 : Fin 2) * 10000 + 1 * (j 1).val; omega

/-- An index of an output array is in point t's block iff each coordinate is in the block's range on its axis. -/
theorem mem_blk1_3 (t : Fin cfg1.N) (i : S10000x32.Idx) :
    i ∈ ((cfg1.win 3).blk t).view.set ↔ ∀ a : Fin 2, win1_3.index t a * S400x32.size a ≤ (i a).val ∧ (i a).val < win1_3.index t a * S400x32.size a + S400x32.size a := by
  show i ∈ ((View.whole main_v1_0).slice (win1_3.rect t)).set ↔ _
  rw [View.set_slice_whole, Rect.mem_set_unit]
  exact Iff.rfl
theorem mem_blk1_4 (t : Fin cfg1.N) (i : S10000x10000.Idx) :
    i ∈ ((cfg1.win 4).blk t).view.set ↔ ∀ a : Fin 2, win1_4.index t a * S400x10000.size a ≤ (i a).val ∧ (i a).val < win1_4.index t a * S400x10000.size a + S400x10000.size a := by
  show i ∈ ((View.whole main_v1_1).slice (win1_4.rect t)).set ↔ _
  rw [View.set_slice_whole, Rect.mem_set_unit]
  exact Iff.rfl

/-- Every index of each output array is in some point's block: row r is in the block of point r / 400. -/
theorem cover1_3 (i : S10000x32.Idx) : ∃ t : Fin cfg1.N, (cfg1.win 3).flush t = true ∧ i ∈ ((cfg1.win 3).blk t).view.set := by
  have hi0 : (i 0).val < 10000 := (i 0).isLt
  have hi1 : (i 1).val < 32 := (i 1).isLt
  have hlt : (i 0).val / 400 < cfg1.N := lt_of_lt_of_eq (by omega : (i 0).val / 400 < 25) N_1.symm
  obtain ⟨e0, e1, e2, e3, e4, e5, e6, e7, e8, e9⟩ := idx_facts1 ⟨(i 0).val / 400, hlt⟩
  refine ⟨⟨(i 0).val / 400, hlt⟩, flush1_3 _, ?_⟩
  rw [mem_blk1_3]
  intro a
  match a with
  | ⟨0, _⟩ =>
    show win1_3.index ⟨(i 0).val / 400, hlt⟩ (0 : Fin 2) * 400 ≤ (i 0).val ∧ (i 0).val < win1_3.index ⟨(i 0).val / 400, hlt⟩ (0 : Fin 2) * 400 + 400
    rw [e6]; show (i 0).val / 400 * 400 ≤ (i 0).val ∧ (i 0).val < (i 0).val / 400 * 400 + 400; omega
  | ⟨1, _⟩ =>
    show win1_3.index ⟨(i 0).val / 400, hlt⟩ (1 : Fin 2) * 32 ≤ (i 1).val ∧ (i 1).val < win1_3.index ⟨(i 0).val / 400, hlt⟩ (1 : Fin 2) * 32 + 32
    rw [e7]; omega
theorem cover1_4 (i : S10000x10000.Idx) : ∃ t : Fin cfg1.N, (cfg1.win 4).flush t = true ∧ i ∈ ((cfg1.win 4).blk t).view.set := by
  have hi0 : (i 0).val < 10000 := (i 0).isLt
  have hi1 : (i 1).val < 10000 := (i 1).isLt
  have hlt : (i 0).val / 400 < cfg1.N := lt_of_lt_of_eq (by omega : (i 0).val / 400 < 25) N_1.symm
  obtain ⟨e0, e1, e2, e3, e4, e5, e6, e7, e8, e9⟩ := idx_facts1 ⟨(i 0).val / 400, hlt⟩
  refine ⟨⟨(i 0).val / 400, hlt⟩, flush1_4 _, ?_⟩
  rw [mem_blk1_4]
  intro a
  match a with
  | ⟨0, _⟩ =>
    show win1_4.index ⟨(i 0).val / 400, hlt⟩ (0 : Fin 2) * 400 ≤ (i 0).val ∧ (i 0).val < win1_4.index ⟨(i 0).val / 400, hlt⟩ (0 : Fin 2) * 400 + 400
    rw [e8]; show (i 0).val / 400 * 400 ≤ (i 0).val ∧ (i 0).val < (i 0).val / 400 * 400 + 400; omega
  | ⟨1, _⟩ =>
    show win1_4.index ⟨(i 0).val / 400, hlt⟩ (1 : Fin 2) * 10000 ≤ (i 1).val ∧ (i 1).val < win1_4.index ⟨(i 0).val / 400, hlt⟩ (1 : Fin 2) * 10000 + 10000
    rw [e9]; omega

/-- The region's first output array after the last point: ((A·B)₊·C) of the three arrays the region finds. -/
theorem final1_3 (c : Dev nD) : (dat1 (F := Ideal) V c).arrAt 3 cfg1.N
    = Spec.mm (Spec.relu (Spec.mm (V c main_arg1 : Spec.Mat 10000 10000) (V c main_v0 : Spec.Mat 10000 64))) (V c main_arg3 : Spec.Mat 64 32) :=
  (dat1 V c).arrAt_eq_of_cover 3 _ (fun t _ => flushed1_3_eq V c t) cover1_3

/-- The region's second output array after the last point: the first array the region finds, entry by entry. -/
theorem final1_4 (c : Dev nD) : (dat1 (F := Ideal) V c).arrAt 4 cfg1.N = (V c main_arg1 : Spec.Mat 10000 10000) :=
  (dat1 V c).arrAt_eq_of_cover 4 _ (fun t _ => flushed1_4_eq V c t) cover1_4

end Cert.KernelIdeal.HandValue

end
-- ==== Proof.KVal2.lean ====
/- The value of region 2 of the kernel program at the ideal values (`cc2__agg_body`: the rectified product of a bf16 matrix, block of rows by block of rows, with a whole f32 matrix): what the region's output array
   holds after the pipeline's last point, as one function of the arrays the region finds at entry. -/
import proofs.«157920_g66340064854107_cont_9to1c4b_694_10_alg».proof.Proof.HandKernelIdeal.Reg2
import proofs.«157920_g66340064854107_cont_9to1c4b_694_10_alg».proof.Proof.Spec
import proofs.«157920_g66340064854107_cont_9to1c4b_694_10_alg».proof.Proof.LibDot
import proofs.«157920_g66340064854107_cont_9to1c4b_694_10_alg».proof.Proof.LibMatLayout
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The body's payload at an index -/

/-- The body's payload at row p, column q of its block: the row of the first operand against the column of the
    second, summed over the shared coordinate, then the maximum with the zero word. (Reading a value at a
    narrower type is the identity on the extended reals.) -/
theorem pay2_apply (x0 : Vec Ideal S400x10000 .bf16) (x1 : Vec Ideal S10000x32 .f32) (p : Fin 400) (q : Fin 32) :
    k2_pay1 x0 x1 (ix2 p q) = max (∑ c : Fin 10000, x0 (ix2 p c) * x1 (ix2 c q)) Spec.w0 := by
  unfold k2_pay1
  rw [maximumf_apply, broadcast_apply]
  rw [shapeCast_self, shapeCast_self]
  refine congrArg (fun z => max z _) ?_
  exact LibDot.matmul_zero_apply (m := 400) (k := 10000) (n := 32) Gen.dot_S400x10000_S10000x32_S400x32_1_0_0_1_n_n_wf none x0 (truncf .bf16 x1 Gen.bitsLt_bf16_f32) p q

/-- The same against whole matrices: when row p of the block is row r of A and the second operand is B (as far as
    column q goes), the payload at (p, q) is the rectified product at (r, q). -/
theorem point2 (A : Spec.Mat 10000 10000) (B : Spec.Mat 10000 32)
    (x0 : Vec Ideal S400x10000 .bf16) (x1 : Vec Ideal S10000x32 .f32) (r : Fin 10000) (p : Fin 400) (q : Fin 32)
    (h0 : ∀ c : Fin 10000, x0 (ix2 p c) = A (ix2 r c)) (h1 : ∀ c : Fin 10000, x1 (ix2 c q) = B (ix2 c q)) :
    k2_pay1 x0 x1 (ix2 p q) = Spec.relu (Spec.mm A B) (ix2 r q) := by
  rw [pay2_apply]
  show _ = max (∑ c : Fin 10000, A (ix2 r c) * B (ix2 c q)) Spec.w0
  refine congrArg (fun z => max z _) (Finset.sum_congr rfl fun c _ => ?_)
  rw [h0, h1]

/-! ## From blocks to the array -/

/-- The printed index maps over the grid: the first operand's and the output's blocks are the t-th blocks of rows,
    all columns; the second operand is whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the rectified product of the two arrays the region finds. -/
theorem flushed2_eq (c : Dev nD) (t : Fin cfg2.N) :
    (dat2 (F := Ideal) V c).flushed 2 t = ((cfg2.win 2).blk t).view.read (Elt Ideal)
      (Spec.relu (Spec.mm (V c main_v1_1 : Spec.Mat 10000 10000) (V c main_v1_0 : Spec.Mat 10000 32))) := by
  show (cfg2.win 2).cut (grid2.coords t) ((dat2 V c).after 2 t) = _
  rw [after2_2]
  unfold out2_2
  rw [View.canon_unit_zero LibMatLayout.zero_off2]
  simp only [View.ld_unit_zero (S := S400x10000) LibMatLayout.zero_off2, View.ld_unit_zero (S := S10000x32) LibMatLayout.zero_off2]
  obtain ⟨e0, e1, e2, e3, e4, e5⟩ := idx_facts2 t
  have ht : t.val < 25 := lt_of_lt_of_eq t.isLt N_2
  funext j
  have hj0 : (j 0).val < 400 := (j 0).isLt
  have hj1 : (j 1).val < 32 := (j 1).isLt
  have hr : t.val * 400 + (j 0).val < 10000 := by omega
  show k2_pay1 (iblk2 V c 0 t) (iblk2 V c 1 t) j
    = Spec.relu (Spec.mm (V c main_v1_1 : Spec.Mat 10000 10000) (V c main_v1_0 : Spec.Mat 10000 32)) (((cfg2.win 2).blk t).view.emb j)
  have hemb : ((cfg2.win 2).blk t).view.emb j = ix2 (⟨t.val * 400 + (j 0).val, hr⟩ : Fin 10000) (j 1) := by
    funext a; apply Fin.ext
    match a with
    | ⟨0, _⟩ => show win2_2.index t (0 : Fin 2) * 400 + 1 * (j 0).val = t.val * 400 + (j 0).val; omega
    | ⟨1, _⟩ => show win2_2.index t (1 : Fin 2) * 32 + 1 * (j 1).val = (j 1).val; omega
  rw [hemb]
  refine (congrArg (k2_pay1 (iblk2 V c 0 t) (iblk2 V c 1 t)) (eq_ix2 j)).trans ?_
  refine point2 _ _ _ _ _ _ _ (fun k => ?_) (fun k => ?_)
  · show V c main_v1_1 (((cfg2.win 0).blk t).view.emb (ix2 (j 0) k)) = V c main_v1_1 (ix2 (⟨t.val * 400 + (j 0).val, hr⟩ : Fin 10000) k)
    refine congrArg _ (funext fun a => Fin.ext ?_)
    match a with
    | ⟨0, _⟩ => show win2_0.index t (0 : Fin 2) * 400 + 1 * (j 0).val = t.val * 400 + (j 0).val; omega
    | ⟨1, _⟩ => show win2_0.index t (1 : Fin 2) * 10000 + 1 * k.val = k.val; omega
  · show V c main_v1_0 (((cfg2.win 1).blk t).view.emb (ix2 k (j 1))) = V c main_v1_0 (ix2 k (j 1))
    refine congrArg _ (funext fun a => Fin.ext ?_)
    match a with
    | ⟨0, _⟩ => show win2_1.index t (0 : Fin 2) * 10000 + 1 * k.val = k.val; omega
    | ⟨1, _⟩ => show win2_1.index t (1 : Fin 2) * 32 + 1 * (j 1).val = (j 1).val; omega

/-- An index of the array is in point t's block iff each coordinate is in the block's range on its axis. -/
theorem mem_blk2 (t : Fin cfg2.N) (i : S10000x32.Idx) :
    i ∈ ((cfg2.win 2).blk t).view.set ↔ ∀ a : Fin 2, win2_2.index t a * S400x32.size a ≤ (i a).val ∧ (i a).val < win2_2.index t a * S400x32.size a + S400x32.size a := by
  show i ∈ ((View.whole main_v2).slice (win2_2.rect t)).set ↔ _
  rw [View.set_slice_whole, Rect.mem_set_unit]
  exact Iff.rfl

/-- Every index of the array is in some point's block: row r is in the block of point r / 400. -/
theorem cover2 (i : S10000x32.Idx) : ∃ t : Fin cfg2.N, (cfg2.win 2).flush t = true ∧ i ∈ ((cfg2.win 2).blk t).view.set := by
  have hi0 : (i 0).val < 10000 := (i 0).isLt
  have hi1 : (i 1).val < 32 := (i 1).isLt
  have hlt : (i 0).val / 400 < cfg2.N := lt_of_lt_of_eq (by omega : (i 0).val / 400 < 25) N_2.symm
  obtain ⟨e0, e1, e2, e3, e4, e5⟩ := idx_facts2 ⟨(i 0).val / 400, hlt⟩
  refine ⟨⟨(i 0).val / 400, hlt⟩, flush2_2 _, ?_⟩
  rw [mem_blk2]
  intro a
  match a with
  | ⟨0, _⟩ =>
    show win2_2.index ⟨(i 0).val / 400, hlt⟩ (0 : Fin 2) * 400 ≤ (i 0).val ∧ (i 0).val < win2_2.index ⟨(i 0).val / 400, hlt⟩ (0 : Fin 2) * 400 + 400
    rw [e4]; show (i 0).val / 400 * 400 ≤ (i 0).val ∧ (i 0).val < (i 0).val / 400 * 400 + 400; omega
  | ⟨1, _⟩ =>
    show win2_2.index ⟨(i 0).val / 400, hlt⟩ (1 : Fin 2) * 32 ≤ (i 1).val ∧ (i 1).val < win2_2.index ⟨(i 0).val / 400, hlt⟩ (1 : Fin 2) * 32 + 32
    rw [e5]; omega

/-- The region's output array after the last point: the rectified product of the two arrays the region finds. -/
theorem final2 (c : Dev nD) : (dat2 (F := Ideal) V c).arrAt 2 cfg2.N
    = Spec.relu (Spec.mm (V c main_v1_1 : Spec.Mat 10000 10000) (V c main_v1_0 : Spec.Mat 10000 32)) :=
  (dat2 V c).arrAt_eq_of_cover 2 _ (fun t _ => flushed2_eq V c t) cover2

end Cert.KernelIdeal.HandValue

end
-- ==== Proof.LibGram.lean ====
/-
  A matrix times the transpose of a matrix, read at an index, at the ideal values: for the dimension numbers
  "contract the left operand's axis 1 with the right operand's axis 1, no batch axis" — the record a product
  A · Bᵀ of an m × k and an n × k matrix prints — the matrix unit's product into a zero accumulator and the
  host's `dot_general` are both, at (a, b), the sum over c of A (a, c) * B (b, c). With B = A it is the Gram
  matrix of the rows of A.
-/
import Idealize.ShloMosaic.Lib.ValueIdx
import Idealize.ShloMosaic.PureOps.Ideal.Laws

noncomputable section

namespace Cert.LibGram

open Idealize.ShloMosaic Idealize.ShloMosaic.ValueIdx
open scoped BigOperators

variable {m k n : Nat} {φ₁ φ₂ : FTy}

/-- The record: both contracting axes are axis 1, the kept axes are each operand's axis 0, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- The matrix unit's product A · Bᵀ into a zero accumulator at (a, b): the sum over the shared column index. -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The host's product A · Bᵀ at (a, b): the same sum. -/
theorem dotGeneral_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (dims w) prec A B (ix2 a b) = ∑ c : Fin k, A (ix2 a c) * B (ix2 b c) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibGram
-- ==== Proof.KVal3.lean ====
/- The value of region 3 at the ideal interpretation: what its output array holds when the pipeline has run, as one
   function of the arrays the region finds, index by index. -/
import proofs.«157920_g66340064854107_cont_9to1c4b_694_10_alg».proof.Proof.HandKernelIdeal.Reg3
import proofs.«157920_g66340064854107_cont_9to1c4b_694_10_alg».proof.Proof.Spec
import proofs.«157920_g66340064854107_cont_9to1c4b_694_10_alg».proof.Proof.LibGram
import proofs.«157920_g66340064854107_cont_9to1c4b_694_10_alg».proof.Proof.LibMatLayout
import Idealize.ShloMosaic.Lib.Pipeline.Value
import Idealize.ShloMosaic.Lib.ValueIdx
import Idealize.ShloMosaic.Lib.Tactic

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-! ## The payload at an index -/

/-- The body's payload at row p, column q: the logistic function, in its hyperbolic-tangent spelling, of the sum over
    k of x0 (p, k) · x1 (q, k). The narrowings of the two operands change nothing at the ideal values. -/
theorem pay3_apply (x0 : Vec Ideal S400x32 .f32) (x1 : Vec Ideal S10000x32 .f32) (p : Fin 400) (q : Fin 10000) :
    k3_pay1 x0 x1 (ix2 p q) = Spec.sigmTanh (∑ k : Fin 32, x0 (ix2 p k) * x1 (ix2 q k)) := by
  unfold k3_pay1 Spec.sigmTanh
  rw [mulf_apply, broadcast_apply, addf_apply, broadcast_apply]
  refine congrArg₂ (· * ·) rfl (congrArg₂ (· + ·) ?_ rfl)
  refine congrArg Ideal.tanh ?_
  rw [mulf_apply, broadcast_apply]
  refine congrArg₂ (· * ·) rfl ?_
  refine (LibGram.matmul_zero_apply dot_S400x32_S10000x32_S400x10000_1_1_0_0_n_n_wf none _ _ p q).trans ?_
  simp only [shapeCast_self, truncf_apply]

/-! ## The blocks as entries of the array -/

/-- The printed index maps over the 25 grid points: point t takes row block t of the array (window 0) and of the
    output, and the whole array (window 1). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Window 0's block at point t is rows 400 t … 400 t + 399 of the array. -/
theorem iblk3_0_apply (c : Dev nD) (t : Fin cfg3.N) (x : S400x32.Idx) (k : S10000x32.Idx)
    (hk0 : (k 0).val = t.val * 400 + (x 0).val) (hk1 : (k 1).val = (x 1).val) :
    (iblk3 V c 0 t : Vec Ideal S400x32 .f32) x = (V c main_v2 : S10000x32.Idx → EReal) k := by
  obtain ⟨e0, e1, -⟩ := idx_facts3 t
  unfold iblk3
  rw [View.read_apply]
  show V c main_v2 _ = V c main_v2 _
  congr 1
  funext a
  apply Fin.ext
  match a with
  | ⟨0, _⟩ => show win3_0.index t 0 * 400 + 1 * (x 0).val = (k 0).val; rw [e0, hk0]; omega
  | ⟨1, _⟩ => show win3_0.index t 1 * 32 + 1 * (x 1).val = (k 1).val; rw [e1, hk1]; omega

/-- Window 1's block at any point is the whole array. -/
theorem iblk3_1_apply (c : Dev nD) (t : Fin cfg3.N) (x : S10000x32.Idx) :
    (iblk3 V c 1 t : Vec Ideal S10000x32 .f32) x = (V c main_v2 : S10000x32.Idx → EReal) x := by
  obtain ⟨-, -, e0, e1, -⟩ := idx_facts3 t
  unfold iblk3
  rw [View.read_apply]
  show V c main_v2 _ = V c main_v2 _
  congr 1
  funext a
  apply Fin.ext
  match a with
  | ⟨0, _⟩ => show win3_1.index t 0 * 10000 + 1 * (x 0).val = (x 0).val; rw [e0]; omega
  | ⟨1, _⟩ => show win3_1.index t 1 * 32 + 1 * (x 1).val = (x 1).val; rw [e1]; omega

/-! ## What a point writes back -/

/-- Point t writes back block t of the logistic function of the array times its own transpose. -/
theorem flushed3_eq (c : Dev nD) (t : Fin cfg3.N) :
    (dat3 (F := Ideal) V c).flushed 2 t = ((cfg3.win 2).blk t).view.read (Elt Ideal)
      (Spec.apredTanh (V c main_v2 : Spec.Mat 10000 32)) := by
  show (cfg3.win 2).cut (grid3.coords t) ((dat3 V c).after 2 t) = _
  rw [after3_2]
  unfold out3_2
  rw [View.canon_unit_zero LibMatLayout.zero_off2]
  simp only [View.ld_unit_zero (S := S400x32) LibMatLayout.zero_off2, View.ld_unit_zero (S := S10000x32) LibMatLayout.zero_off2]
  obtain ⟨-, -, -, -, e0, e1⟩ := idx_facts3 t
  funext i
  obtain ⟨p, q, rfl⟩ : ∃ (p : Fin 400) (q : Fin 10000), i = ix2 p q := ⟨i 0, i 1, eq_ix2 i⟩
  refine (pay3_apply _ _ p q).trans ?_
  rw [View.read_apply]
  unfold Spec.apredTanh Spec.gram
  refine congrArg Spec.sigmTanh (Finset.sum_congr rfl fun k _ => congrArg₂ (· * ·) ?_ ?_)
  · refine iblk3_0_apply V c t (ix2 p k) _ ?_ rfl
    show win3_2.index t 0 * 400 + 1 * p.val = t.val * 400 + p.val
    rw [e0]; omega
  · refine (iblk3_1_apply V c t (ix2 q k)).trans ?_
    congr 1
    funext a
    apply Fin.ext
    match a with
    | ⟨0, _⟩ => show q.val = win3_2.index t 1 * 10000 + 1 * q.val; rw [e1]; omega
    | ⟨1, _⟩ => rfl

/-! ## The blocks cover the array -/

/-- An index of the array is in point t's block iff each coordinate is in the block's range on its axis. -/
theorem mem_blk3 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v3).slice (win3_2.rect t)).set ↔ _
  rw [View.set_slice_whole, Rect.mem_set_unit]
  exact Iff.rfl

/-- Row r of the array is in the block of point r / 400. -/
theorem cover3 (i : S10000x10000.Idx) : ∃ t : Fin cfg3.N, (cfg3.win 2).flush t = true ∧ i ∈ ((cfg3.win 2).blk t).view.set := by
  have hi0 : (i 0).val < 10000 := idx2_lt0 i
  have hi1 : (i 1).val < 10000 := idx2_lt1 i
  have hN : cfg3.N = 25 := N_3
  refine ⟨⟨(i 0).val / 400, by rw [hN]; omega⟩, flush3_2 _, ?_⟩
  obtain ⟨-, -, -, -, e0, e1⟩ := idx_facts3 ⟨(i 0).val / 400, by rw [hN]; omega⟩
  rw [mem_blk3]
  intro a
  match a with
  | ⟨0, _⟩ =>
    show win3_2.index _ 0 * 400 ≤ (i 0).val ∧ (i 0).val < win3_2.index _ 0 * 400 + 400
    rw [e0]; show (i 0).val / 400 * 400 ≤ (i 0).val ∧ (i 0).val < (i 0).val / 400 * 400 + 400; omega
  | ⟨1, _⟩ =>
    show win3_2.index _ 1 * 10000 ≤ (i 1).val ∧ (i 1).val < win3_2.index _ 1 * 10000 + 10000
    rw [e1]; omega

/-! ## The array after the run -/

/-- Region 3's output array ends at the logistic function, entry by entry, of the array it read times its own
    transpose. -/
theorem final3 (c : Dev nD) : (dat3 (F := Ideal) V c).arrAt 2 cfg3.N = Spec.apredTanh (V c main_v2 : Spec.Mat 10000 32) :=
  (dat3 V c).arrAt_eq_of_cover 2 _ (fun t _ => flushed3_eq V c t) cover3

end Cert.KernelIdeal.HandValue

end
-- ==== Proof.LibColSum.lean ====
/-
  Sums down the columns of a matrix, at the ideal values: a reduction by addition over axis 0 of an a × b array, from
  zero, read at column j, is the sum over the rows of the entries (k, j); and the same sum kept as a one-row matrix,
  read at (0, j). For any extents. (The companion of a row reduction, for kernels that keep the reduced axis on the
  sublanes: features down the rows, pixels along the columns.)
-/
import Idealize.ShloMosaic.PureOps.Ideal.Laws
import Idealize.ShloMosaic.Lib.ValueIdx
import Idealize.ShloMosaic.Lib.ValueLayout

noncomputable section

namespace Cert.LibColSum

open Idealize.ShloMosaic Idealize.ShloMosaic.ValueIdx
open scoped BigOperators

/-! ## Sums down the columns of a matrix -/

/-- The coordinate inserted on axis 0 of a column index. -/
theorem lift_col {a b : Nat} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

/-- The sum of each column from zero, at column j: the sum over the rows. -/
theorem colSum_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ y 0x00000000#32 h hφ hacc (ix1 j) = ∑ k : Fin a, y (ix2 k j) := by
  refine (Ideal.multiReduction_add_single y _ h hφ hacc (ix1 j)).trans ?_
  exact Finset.sum_congr rfl fun k _ => congrArg y (lift_col h j k)

/-- A column sum kept as a one-row matrix, at (0, j). -/
theorem colSumRow_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (j : Fin b) :
    shapeCast ⟨2, ![1, b]⟩ (multiReduction .add [0] ⟨1, ![b]⟩ y 0x00000000#32 h hφ hacc) hc (ix2 u j)
      = ∑ k : Fin a, y (ix2 k j) :=
  (shapeCast_a_1a_apply _ hc u j).trans (colSum_apply y h hφ hacc j)

end Cert.LibColSum

end
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.KVal4Pay.lean ====
/- The arithmetic of region 4's body at the ideal values, index by index, over abstract operands.

   The body computes, from the hidden embedding h, the layer's matrix W and the rows b, gamma, beta:
   z = h · W + b (b spread over the rows); the mean and the (biased) variance of each column of z, each a sum down the
   column divided by the word 10000; y = max (((z − mean) · rsqrt (var + eps)) · gamma + beta) 0; the largest entry of each
   row of y, never below minus infinity, spread along the row; and the quotient of e^(y − top) by its sum along the row.
   Each stage is read at an index (p, q) and identified with the specification's function of the same name. -/
import proofs.«157920_g66340064854107_cont_9to1c4b_694_10_alg».proof.Proof.Gen.KernelIdeal.Skeleton
import proofs.«157920_g66340064854107_cont_9to1c4b_694_10_alg».proof.Proof.Spec
import proofs.«157920_g66340064854107_cont_9to1c4b_694_10_alg».proof.Proof.LibDot
import proofs.«157920_g66340064854107_cont_9to1c4b_694_10_alg».proof.Proof.LibColSum
import proofs.«157920_g66340064854107_cont_9to1c4b_694_10_alg».proof.Proof.LibRowReduce
import proofs.«157920_g66340064854107_cont_9to1c4b_694_10_alg».proof.Proof.LibKeepdims
import Idealize.ShloMosaic.Lib.ValueIdx
import Idealize.ShloMosaic.Lib.ValueLayout
import Idealize.ShloMosaic.Lib.Pipeline.Value

noncomputable section

namespace Cert.KernelIdeal.HandValue

open Cert.KernelIdeal Cert.KernelIdeal.Gen
open Idealize.ShloMosaic Idealize.ShloMosaic.ValueIdx
open scoped BigOperators

/-- A one-row matrix read as a vector. -/
abbrev rowOf (v : Vec Ideal S1x32 .f32) : Spec.Vc 32 := fun j => v (ix2 0 (j 0))

/-! ## The affine layer -/

/-- The product plus the bias row, as the body spells it. -/
def pre4 (v0 : Vec Ideal S10000x32 .f32) (v2 : Vec Ideal S32x32 .f32) (v4 : Vec Ideal S1x32 .f32) : FVec Ideal S10000x32 .f32 :=
  addf (matmul (φ₁ := .f32) (φ₂ := .f32) dot_S10000x32_S32x32_S10000x32_1_0_0_1_n_n none (shapeCast S10000x32 v0 shapeCasts_S10000x32_S10000x32) v2
      (constant S10000x32 .f32 0x00000000#32))
    (broadcastTo S10000x32 (shapeCast S1x32 v4 shapeCasts_S1x32_S1x32 : FVec Ideal S1x32 .f32) broadcasts_S1x32_S10000x32)

/-- It is the specification's affine layer. -/
theorem pre4_eq (v0 : Vec Ideal S10000x32 .f32) (v2 : Vec Ideal S32x32 .f32) (v4 : Vec Ideal S1x32 .f32) :
    pre4 v0 v2 v4 = Spec.lin v0 v2 (rowOf v4) := by
  funext i
  obtain ⟨p, q, rfl⟩ : ∃ (p : Fin 10000) (q : Fin 32), i = ix2 p q := ⟨i 0, i 1, eq_ix2 i⟩
  unfold pre4
  rw [addf_apply, shapeCast_self, shapeCast_self]
  refine congrArg₂ (· + ·) ?_ ?_
  · exact LibDot.matmul_zero_apply dot_S10000x32_S32x32_S10000x32_1_0_0_1_n_n_wf none v0 v2 p q
  · exact broadcastTo_1b_ab_apply v4 broadcasts_S1x32_S10000x32 p q

/-! ## Normalisation and rectifier -/

/-- A column sum kept as a row and divided by the word 10000. -/
def meanRow4 (z : FVec Ideal S10000x32 .f32) : FVec Ideal S1x32 .f32 :=
  divf (shapeCast S1x32 (multiReduction .add [0] S32 z 0x00000000#32 reduces_S10000x32_S32 (.inl rfl) rfl) shapeCasts_S32_S1x32)
    (broadcast S1x32 (Scalar.ofBits .f32 0x461C4000#32))

theorem meanRow4_apply (z : FVec Ideal S10000x32 .f32) (u : Fin 1) (q : Fin 32) :
    meanRow4 z (ix2 u q) = Ideal.div (∑ r : Fin 10000, z (ix2 r q)) Spec.wN := by
  unfold meanRow4
  rw [divf_apply]
  refine congrArg₂ Ideal.div ?_ rfl
  exact LibColSum.colSumRow_apply z reduces_S10000x32_S32 (.inl rfl) rfl shapeCasts_S32_S1x32 u q

/-- What the body does to z, gamma and beta after the affine layer. -/
def post4 (z : FVec Ideal S10000x32 .f32) (v26 v30 : Vec Ideal S1x32 .f32) : FVec Ideal S10000x32 .f32 :=
  maximumf
    (addf
      (mulf
        (mulf (subf z (broadcastTo S10000x32 (meanRow4 z) broadcasts_S1x32_S10000x32))
          (broadcastTo S10000x32
            (rsqrt (addf (meanRow4 (mulf (subf z (broadcastTo S10000x32 (meanRow4 z) broadcasts_S1x32_S10000x32))
                (subf z (broadcastTo S10000x32 (meanRow4 z) broadcasts_S1x32_S10000x32))))
              (broadcast S1x32 (Scalar.ofBits .f32 0x3727C5AC#32))))
            broadcasts_S1x32_S10000x32))
        (broadcastTo S10000x32 (shapeCast S1x32 v26 shapeCasts_S1x32_S1x32 : FVec Ideal S1x32 .f32) broadcasts_S1x32_S10000x32))
      (broadcastTo S10000x32 (shapeCast S1x32 v30 shapeCasts_S1x32_S1x32 : FVec Ideal S1x32 .f32) broadcasts_S1x32_S10000x32))
    (broadcast S10000x32 (Scalar.ofBits .f32 0x00000000#32))

/-- The skeleton's payload is these two stages composed. -/
theorem k4_pay3_eq (v0 : Vec Ideal S10000x32 .f32) (v2 : Vec Ideal S32x32 .f32) (v4 v26 v30 : Vec Ideal S1x32 .f32) :
    k4_pay3 v0 v2 v4 v26 v30 = post4 (pre4 v0 v2 v4) v26 v30 := rfl

/-- The deviation from the column's mean, at an index. -/
theorem dev4_apply (z : FVec Ideal S10000x32 .f32) (p : Fin 10000) (q : Fin 32) :
    subf z (broadcastTo S10000x32 (meanRow4 z) broadcasts_S1x32_S10000x32) (ix2 p q)
      = z (ix2 p q) - Spec.colMean z (ix1 q) := by
  rw [subf_apply, broadcastTo_1b_ab_apply, meanRow4_apply]
  rfl

/-- The variance row, at an index. -/
theorem varRow4_apply (z : FVec Ideal S10000x32 .f32) (u : Fin 1) (q : Fin 32) :
    meanRow4 (mulf (subf z (broadcastTo S10000x32 (meanRow4 z) broadcasts_S1x32_S10000x32))
        (subf z (broadcastTo S10000x32 (meanRow4 z) broadcasts_S1x32_S10000x32))) (ix2 u q)
      = Spec.colVar z (ix1 q) := by
  rw [meanRow4_apply]
  refine congrArg₂ Ideal.div ?_ rfl
  refine Finset.sum_congr rfl fun r _ => ?_
  rw [mulf_apply, dev4_apply]

/-- The rectified normalised matrix, at an index. -/
theorem post4_apply (z : FVec Ideal S10000x32 .f32) (v26 v30 : Vec Ideal S1x32 .f32) (p : Fin 10000) (q : Fin 32) :
    post4 z v26 v30 (ix2 p q) = Spec.relu (Spec.normMul z (rowOf v26) (rowOf v30)) (ix2 p q) := by
  unfold post4
  rw [maximumf_apply, addf_apply, mulf_apply, mulf_apply, dev4_apply, shapeCast_self, shapeCast_self,
    broadcastTo_1b_ab_apply, broadcastTo_1b_ab_apply, broadcastTo_1b_ab_apply]
  show max (((z (ix2 p q) - Spec.colMean z (ix1 q)) * Ideal.rsqrt (meanRow4 _ (ix2 0 q) + Spec.wEps)) * v26 (ix2 0 q) + v30 (ix2 0 q)) Spec.w0 = _
  rw [varRow4_apply]
  rfl

theorem post4_eq (z : FVec Ideal S10000x32 .f32) (v26 v30 : Vec Ideal S1x32 .f32) :
    post4 z v26 v30 = Spec.relu (Spec.normMul z (rowOf v26) (rowOf v30)) := by
  funext i
  obtain ⟨p, q, rfl⟩ : ∃ (p : Fin 10000) (q : Fin 32), i = ix2 p q := ⟨i 0, i 1, eq_ix2 i⟩
  exact post4_apply z v26 v30 p q

/-- The first part's first result: the rectified normalised affine layer. -/
theorem k4_pay3_spec (v0 : Vec Ideal S10000x32 .f32) (v2 : Vec Ideal S32x32 .f32) (v4 v26 v30 : Vec Ideal S1x32 .f32) :
    k4_pay3 v0 v2 v4 v26 v30 = Spec.relu (Spec.normMul (Spec.lin v0 v2 (rowOf v4)) (rowOf v26) (rowOf v30)) := by
  rw [k4_pay3_eq, pre4_eq, post4_eq]

/-! ## The row maxima -/

/-- The largest entry of each row, never below minus infinity, kept as a column and spread along the row. -/
def top4 (y : FVec Ideal S10000x32 .f32) : FVec Ideal S10000x32 .f32 :=
  broadcastTo S10000x32
    (shapeCast S10000x1
      (maximumf (broadcast S10000 (Scalar.ofBits .f32 0xFF800000#32))
        (multiReduction .maximumf [1] S10000 y 0xFF800000#32 reduces_S10000x32_S10000 (.inl rfl) rfl))
      shapeCasts_S10000_S10000x1)
    broadcasts_S10000x1_S10000x32

theorem k4_pay4_eq (v0 : Vec Ideal S10000x32 .f32) (v2 : Vec Ideal S32x32 .f32) (v4 v26 v30 : Vec Ideal S1x32 .f32) :
    k4_pay4 v0 v2 v4 v26 v30 = top4 (k4_pay3 v0 v2 v4 v26 v30) := rfl

theorem top4_apply (y : FVec Ideal S10000x32 .f32) (p : Fin 10000) (q : Fin 32) :
    top4 y (ix2 p q) = Spec.rowTop y p := by
  unfold top4
  rw [broadcastTo_shapeCast_column_apply, maximumf_apply, broadcast_apply]
  refine congrArg₂ max rfl ?_
  exact LibRowReduce.rowMax_apply y reduces_S10000x32_S10000 (.inl rfl) rfl p

/-! ## The soft-max quotient -/

/-- The quotient at an index, over any two operands. -/
theorem k4_pay1_apply (v35 v40 : FVec Ideal S10000x32 .f32) (p : Fin 10000) (q : Fin 32) :
    k4_pay1 v35 v40 (ix2 p q)
      = Ideal.div (Ideal.exp (v35 (ix2 p q) - v40 (ix2 p q))) (∑ c : Fin 32, Ideal.exp (v35 (ix2 p c) - v40 (ix2 p c))) := by
  unfold k4_pay1
  show Ideal.div (Ideal.exp (v35 (ix2 p q) - v40 (ix2 p q))) (broadcastTo S10000x32 _ broadcasts_S10000x1_S10000x32 (ix2 p q)) = _
  refine congrArg₂ Ideal.div rfl ?_
  rw [broadcastTo_shapeCast_column_apply]
  exact LibRowReduce.rowSum_apply (exp (subf v35 v40)) reduces_S10000x32_S10000 (.inl rfl) rfl p

/-- With the row maxima in the second operand it is the specification's soft-max. -/
theorem k4_pay1_top (y : FVec Ideal S10000x32 .f32) : k4_pay1 y (top4 y) = Spec.softmax y := by
  funext i
  obtain ⟨p, q, rfl⟩ : ∃ (p : Fin 10000) (q : Fin 32), i = ix2 p q := ⟨i 0, i 1, eq_ix2 i⟩
  rw [k4_pay1_apply, top4_apply]
  show _ = Ideal.div (Ideal.exp (y (ix2 p q) - Spec.rowTop y p)) (∑ c : Fin 32, Ideal.exp (y (ix2 p c) - Spec.rowTop y p))
  refine congrArg₂ Ideal.div rfl ?_
  exact Finset.sum_congr rfl fun c _ => by rw [top4_apply]

/-- The first stored payload over the body's loads: the projected embedding. -/
theorem pay1_spec (v0 : Vec Ideal S10000x32 .f32) (v2 : Vec Ideal S32x32 .f32) (v4 v26 v30 : Vec Ideal S1x32 .f32) :
    k4_pay1 (k4_pay3 v0 v2 v4 v26 v30) (k4_pay4 v0 v2 v4 v26 v30)
      = Spec.projMul v0 v2 (rowOf v4) (rowOf v26) (rowOf v30) := by
  rw [k4_pay4_eq, k4_pay1_top, k4_pay3_spec]
  rfl

/-! ## The product with the decoder's first matrix -/

theorem k4_pay2_eq (v35 v40 : FVec Ideal S10000x32 .f32) (v48 : Vec Ideal S32x64 .f32) :
    k4_pay2 v35 v40 v48 = Spec.mm (k4_pay1 v35 v40) v48 := by
  funext i
  obtain ⟨p, q, rfl⟩ : ∃ (p : Fin 10000) (q : Fin 64), i = ix2 p q := ⟨i 0, i 1, eq_ix2 i⟩
  unfold k4_pay2
  exact LibDot.matmul_zero_apply dot_S10000x32_S32x64_S10000x64_1_0_0_1_n_n_wf none (k4_pay1 v35 v40) v48 p q

/-- The second stored payload over the body's loads. -/
theorem pay2_spec (v0 : Vec Ideal S10000x32 .f32) (v2 : Vec Ideal S32x32 .f32) (v4 v26 v30 : Vec Ideal S1x32 .f32) (v48 : Vec Ideal S32x64 .f32) :
    k4_pay2 (k4_pay3 v0 v2 v4 v26 v30) (k4_pay4 v0 v2 v4 v26 v30) v48
      = Spec.mm (Spec.projMul v0 v2 (rowOf v4) (rowOf v26) (rowOf v30)) v48 := by
  rw [k4_pay2_eq, pay1_spec]

end Cert.KernelIdeal.HandValue
-- ==== Proof.KVal4.lean ====
/- The two arrays region 4 writes, at the ideal values, as functions of the arrays it reads.

   The call has no grid: its one point fetches every input array whole and writes both output arrays back whole. So each
   input block is its array, what the point writes back is the body's stored payload of the arrays, and the payloads are
   the specification's projected embedding and its product with the decoder's first matrix. -/
import proofs.«157920_g66340064854107_cont_9to1c4b_694_10_alg».proof.Proof.HandKernelIdeal.Reg4
import proofs.«157920_g66340064854107_cont_9to1c4b_694_10_alg».proof.Proof.KVal4Pay
import proofs.«157920_g66340064854107_cont_9to1c4b_694_10_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-! ## Each input window's block at the one point is its whole array -/

theorem iblk4_0_eq (c : Dev nD) (t : Fin cfg4.N) : (iblk4 V c 0 t : Vec Ideal S10000x32 .f32) = V c main_v2 :=
  Memref.read_access_unit_zero (Elt Ideal) main_v2 (off := fun a => win4_0.index t a * main_v2.ty.shape.size a)
    (funext fun a => Nat.zero_mul _) _ (V c main_v2)

theorem iblk4_1_eq (c : Dev nD) (t : Fin cfg4.N) : (iblk4 V c 1 t : Vec Ideal S32x32 .f32) = V c main_arg4 :=
  Memref.read_access_unit_zero (Elt Ideal) main_arg4 (off := fun a => win4_1.index t a * main_arg4.ty.shape.size a)
    (funext fun a => Nat.zero_mul _) _ (V c main_arg4)

theorem iblk4_2_eq (c : Dev nD) (t : Fin cfg4.N) : (iblk4 V c 2 t : Vec Ideal S1x32 .f32) = V c main_v4 :=
  Memref.read_access_unit_zero (Elt Ideal) main_v4 (off := fun a => win4_2.index t a * main_v4.ty.shape.size a)
    (funext fun a => Nat.zero_mul _) _ (V c main_v4)

theorem iblk4_3_eq (c : Dev nD) (t : Fin cfg4.N) : (iblk4 V c 3 t : Vec Ideal S1x32 .f32) = V c main_v5 :=
  Memref.read_access_unit_zero (Elt Ideal) main_v5 (off := fun a => win4_3.index t a * main_v5.ty.shape.size a)
    (funext fun a => Nat.zero_mul _) _ (V c main_v5)

theorem iblk4_4_eq (c : Dev nD) (t : Fin cfg4.N) : (iblk4 V c 4 t : Vec Ideal S1x32 .f32) = V c main_v6 :=
  Memref.read_access_unit_zero (Elt Ideal) main_v6 (off := fun a => win4_4.index t a * main_v6.ty.shape.size a)
    (funext fun a => Nat.zero_mul _) _ (V c main_v6)

theorem iblk4_5_eq (c : Dev nD) (t : Fin cfg4.N) : (iblk4 V c 5 t : Vec Ideal S32x64 .f32) = V c main_arg8 :=
  Memref.read_access_unit_zero (Elt Ideal) main_arg8 (off := fun a => win4_5.index t a * main_arg8.ty.shape.size a)
    (funext fun a => Nat.zero_mul _) _ (V c main_arg8)

/-- Output window 6's block at the one point, read off any contents of its array, is those contents, -/
theorem blk4_6_read (t : Fin cfg4.N) (G : Vec Ideal S10000x32 .f32) : ((cfg4.win 6).blk t).view.read (Elt Ideal) G = G :=
  Memref.read_access_unit_zero (Elt Ideal) main_v7_0 (off := fun a => win4_6.index t a * main_v7_0.ty.shape.size a)
    (funext fun a => Nat.zero_mul _) _ G

/-- and it holds every index of the array. -/
theorem mem_blk4_6 (t : Fin cfg4.N) (i : S10000x32.Idx) : i ∈ ((cfg4.win 6).blk t).view.set := by
  show i ∈ ((View.whole main_v7_0).slice (win4_6.rect t)).set
  rw [View.set_slice_whole, Rect.mem_set_unit]
  intro a
  refine ⟨?_, ?_⟩
  · show 0 * win4_6.size a ≤ _
    rw [Nat.zero_mul]; exact Nat.zero_le _
  · show _ < 0 * win4_6.size a + S10000x32.size a
    rw [Nat.zero_mul, Nat.zero_add]; exact (i a).isLt

/-- Output window 7's block at the one point, read off any contents of its array, is those contents, -/
theorem blk4_7_read (t : Fin cfg4.N) (G : Vec Ideal S10000x64 .f32) : ((cfg4.win 7).blk t).view.read (Elt Ideal) G = G :=
  Memref.read_access_unit_zero (Elt Ideal) main_v7_1 (off := fun a => win4_7.index t a * main_v7_1.ty.shape.size a)
    (funext fun a => Nat.zero_mul _) _ G

/-- and it holds every index of the array. -/
theorem mem_blk4_7 (t : Fin cfg4.N) (i : S10000x64.Idx) : i ∈ ((cfg4.win 7).blk t).view.set := by
  show i ∈ ((View.whole main_v7_1).slice (win4_7.rect t)).set
  rw [View.set_slice_whole, Rect.mem_set_unit]
  intro a
  refine ⟨?_, ?_⟩
  · show 0 * win4_7.size a ≤ _
    rw [Nat.zero_mul]; exact Nat.zero_le _
  · show _ < 0 * win4_7.size a + S10000x64.size a
    rw [Nat.zero_mul, Nat.zero_add]; exact (i a).isLt

/-! ## What the one point writes back -/

/-- The projected embedding of the arrays the region reads. -/
abbrev proj4 (c : Dev nD) : Spec.Mat 10000 32 :=
  Spec.projMul (V c main_v2 : Spec.Mat 10000 32) (V c main_arg4 : Spec.Mat 32 32) (fun j => (V c main_v4 : Spec.Mat 1 32) (ix2 0 (j 0)))
    (fun j => (V c main_v5 : Spec.Mat 1 32) (ix2 0 (j 0))) (fun j => (V c main_v6 : Spec.Mat 1 32) (ix2 0 (j 0)))

theorem flushed4_6_eq (c : Dev nD) (t : Fin cfg4.N) :
    (dat4 (F := Ideal) V c).flushed 6 t = ((cfg4.win 6).blk t).view.read (Elt Ideal) (proj4 V c) := by
  show (cfg4.win 6).cut (grid4.coords t) ((dat4 V c).after 6 t) = _
  rw [after4_6, blk4_6_read]
  unfold out4_6
  rw [View.canon_unit_zero hz4]
  simp only [View.ld_unit_zero (S := S10000x32) hz4, View.ld_unit_zero (S := S32x32) hz4, View.ld_unit_zero (S := S1x32) hz4]
  rw [iblk4_0_eq, iblk4_1_eq, iblk4_2_eq, iblk4_3_eq, iblk4_4_eq]
  exact pay1_spec _ _ _ _ _

theorem flushed4_7_eq (c : Dev nD) (t : Fin cfg4.N) :
    (dat4 (F := Ideal) V c).flushed 7 t
      = ((cfg4.win 7).blk t).view.read (Elt Ideal) (Spec.mm (proj4 V c) (V c main_arg8 : Spec.Mat 32 64)) := by
  show (cfg4.win 7).cut (grid4.coords t) ((dat4 V c).after 7 t) = _
  rw [after4_7, blk4_7_read]
  unfold out4_7
  rw [View.canon_unit_zero hz4]
  simp only [View.ld_unit_zero (S := S10000x32) hz4, View.ld_unit_zero (S := S32x32) hz4, View.ld_unit_zero (S := S1x32) hz4,
    View.ld_unit_zero (S := S32x64) hz4]
  rw [iblk4_0_eq, iblk4_1_eq, iblk4_2_eq, iblk4_3_eq, iblk4_4_eq, iblk4_5_eq]
  exact pay2_spec _ _ _ _ _ _

/-! ## The arrays after the region -/

/-- Window 6's array ends at the projected embedding. -/
theorem final4_6 (c : Dev nD) : (dat4 (F := Ideal) V c).arrAt 6 cfg4.N
    = Spec.projMul (V c main_v2 : Spec.Mat 10000 32) (V c main_arg4 : Spec.Mat 32 32) (fun j => (V c main_v4 : Spec.Mat 1 32) (ix2 0 (j 0)))
    (fun j => (V c main_v5 : Spec.Mat 1 32) (ix2 0 (j 0))) (fun j => (V c main_v6 : Spec.Mat 1 32) (ix2 0 (j 0))) :=
  (dat4 V c).arrAt_eq_of_cover 6 (proj4 V c) (fun t _ => flushed4_6_eq V c t)
    (fun i => ⟨t4_0, flush4_6 t4_0, mem_blk4_6 t4_0 i⟩)

/-- Window 7's array ends at its product with the decoder's first matrix. -/
theorem final4_7 (c : Dev nD) : (dat4 (F := Ideal) V c).arrAt 7 cfg4.N
    = Spec.mm (Spec.projMul (V c main_v2 : Spec.Mat 10000 32) (V c main_arg4 : Spec.Mat 32 32) (fun j => (V c main_v4 : Spec.Mat 1 32) (ix2 0 (j 0)))
    (fun j => (V c main_v5 : Spec.Mat 1 32) (ix2 0 (j 0))) (fun j => (V c main_v6 : Spec.Mat 1 32) (ix2 0 (j 0)))) (V c main_arg8 : Spec.Mat 32 64) :=
  (dat4 V c).arrAt_eq_of_cover 7 (Spec.mm (proj4 V c) (V c main_arg8 : Spec.Mat 32 64)) (fun t _ => flushed4_7_eq V c t)
    (fun i => ⟨t4_0, flush4_7 t4_0, mem_blk4_7 t4_0 i⟩)

end Cert.KernelIdeal.HandValue
-- ==== Proof.KVal5.lean ====
/- The value of region 5 at the ideal interpretation: what its output array holds when the pipeline has run, as one
   function of the arrays the region finds, index by index. -/
import proofs.«157920_g66340064854107_cont_9to1c4b_694_10_alg».proof.Proof.HandKernelIdeal.Reg5
import proofs.«157920_g66340064854107_cont_9to1c4b_694_10_alg».proof.Proof.Spec
import proofs.«157920_g66340064854107_cont_9to1c4b_694_10_alg».proof.Proof.LibDot
import proofs.«157920_g66340064854107_cont_9to1c4b_694_10_alg».proof.Proof.LibMatLayout
import Idealize.ShloMosaic.Lib.Pipeline.Value
import Idealize.ShloMosaic.Lib.ValueIdx
import Idealize.ShloMosaic.Lib.Tactic

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-! ## The payload at an index -/

/-- The body's payload at row p, column q: the sum over j of the rectified (sum over k of x0 (p, k) · x1 (k, j))
    times x2 (j, q). The narrowing of the middle operand changes nothing at the ideal values. -/
theorem pay5_apply (x0 : Vec Ideal S400x10000 .bf16) (x1 : Vec Ideal S10000x64 .f32) (x2 : Vec Ideal S64x128 .f32)
    (p : Fin 400) (q : Fin 128) :
    k5_pay1 x0 x1 x2 (ix2 p q)
      = ∑ j : Fin 64, max (∑ k : Fin 10000, x0 (ix2 p k) * x1 (ix2 k j)) Spec.w0 * x2 (ix2 j q) := by
  unfold k5_pay1
  refine (LibDot.matmul_zero_apply dot_S400x64_S64x128_S400x128_1_0_0_1_n_n_wf none _ _ p q).trans ?_
  refine Finset.sum_congr rfl fun j _ => congrArg₂ (· * ·) ?_ rfl
  rw [maximumf_apply, broadcast_apply]
  refine congrArg₂ max ?_ rfl
  refine (LibDot.matmul_zero_apply dot_S400x10000_S10000x64_S400x64_1_0_0_1_n_n_wf none _ _ p j).trans ?_
  simp only [shapeCast_self, truncf_apply]

/-! ## The blocks as entries of the arrays -/

/-- The printed index maps over the 25 grid points: point t takes row block t of the left operand and of the output,
    and the whole of the other two operands. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Window 0's block at point t is rows 400 t … 400 t + 399 of its array. -/
theorem iblk5_0_apply (c : Dev nD) (t : Fin cfg5.N) (x : S400x10000.Idx) (k : S10000x10000.Idx)
    (hk0 : (k 0).val = t.val * 400 + (x 0).val) (hk1 : (k 1).val = (x 1).val) :
    (iblk5 V c 0 t : Vec Ideal S400x10000 .bf16) x = (V c main_v1_1 : S10000x10000.Idx → EReal) k := by
  obtain ⟨e0, e1, -⟩ := idx_facts5 t
  unfold iblk5
  rw [View.read_apply]
  show V c main_v1_1 _ = V c main_v1_1 _
  congr 1
  funext a
  apply Fin.ext
  match a with
  | ⟨0, _⟩ => show win5_0.index t 0 * 400 + 1 * (x 0).val = (k 0).val; rw [e0, hk0]; omega
  | ⟨1, _⟩ => show win5_0.index t 1 * 10000 + 1 * (x 1).val = (k 1).val; rw [e1, hk1]; omega

/-- Window 1's block at any point is its whole array. -/
theorem iblk5_1_apply (c : Dev nD) (t : Fin cfg5.N) (x : S10000x64.Idx) :
    (iblk5 V c 1 t : Vec Ideal S10000x64 .f32) x = (V c main_v7_1 : S10000x64.Idx → EReal) x := by
  obtain ⟨-, -, e0, e1, -⟩ := idx_facts5 t
  unfold iblk5
  rw [View.read_apply]
  show V c main_v7_1 _ = V c main_v7_1 _
  congr 1
  funext a
  apply Fin.ext
  match a with
  | ⟨0, _⟩ => show win5_1.index t 0 * 10000 + 1 * (x 0).val = (x 0).val; rw [e0]; omega
  | ⟨1, _⟩ => show win5_1.index t 1 * 64 + 1 * (x 1).val = (x 1).val; rw [e1]; omega

/-- Window 2's block at any point is its whole array. -/
theorem iblk5_2_apply (c : Dev nD) (t : Fin cfg5.N) (x : S64x128.Idx) :
    (iblk5 V c 2 t : Vec Ideal S64x128 .f32) x = (V c main_arg9 : S64x128.Idx → EReal) x := by
  obtain ⟨-, -, -, -, e0, e1, -⟩ := idx_facts5 t
  unfold iblk5
  rw [View.read_apply]
  show V c main_arg9 _ = V c main_arg9 _
  congr 1
  funext a
  apply Fin.ext
  match a with
  | ⟨0, _⟩ => show win5_2.index t 0 * 64 + 1 * (x 0).val = (x 0).val; rw [e0]; omega
  | ⟨1, _⟩ => show win5_2.index t 1 * 128 + 1 * (x 1).val = (x 1).val; rw [e1]; omega

/-! ## What a point writes back -/

/-- Point t writes back block t of (the rectified product of the first two arrays) times the third. -/
theorem flushed5_eq (c : Dev nD) (t : Fin cfg5.N) :
    (dat5 (F := Ideal) V c).flushed 3 t = ((cfg5.win 3).blk t).view.read (Elt Ideal)
      (Spec.mm (Spec.relu (Spec.mm (V c main_v1_1 : Spec.Mat 10000 10000) (V c main_v7_1 : Spec.Mat 10000 64)))
        (V c main_arg9 : Spec.Mat 64 128)) := by
  show (cfg5.win 3).cut (grid5.coords t) ((dat5 V c).after 3 t) = _
  rw [after5_3]
  unfold out5_3
  rw [View.canon_unit_zero LibMatLayout.zero_off2]
  simp only [View.ld_unit_zero (S := S400x10000) LibMatLayout.zero_off2, View.ld_unit_zero (S := S10000x64) LibMatLayout.zero_off2,
    View.ld_unit_zero (S := S64x128) LibMatLayout.zero_off2]
  obtain ⟨-, -, -, -, -, -, e0, e1⟩ := idx_facts5 t
  funext i
  obtain ⟨p, q, rfl⟩ : ∃ (p : Fin 400) (q : Fin 128), i = ix2 p q := ⟨i 0, i 1, eq_ix2 i⟩
  refine (pay5_apply _ _ _ p q).trans ?_
  rw [View.read_apply]
  unfold Spec.mm Spec.relu
  refine Finset.sum_congr rfl fun j _ => congrArg₂ (· * ·)
    (congrArg₂ max (Finset.sum_congr rfl fun k _ => congrArg₂ (· * ·) ?_ ?_) rfl) ?_
  · refine iblk5_0_apply V c t (ix2 p k) _ ?_ rfl
    show win5_3.index t 0 * 400 + 1 * p.val = t.val * 400 + p.val
    rw [e0]; omega
  · exact iblk5_1_apply V c t (ix2 k j)
  · refine (iblk5_2_apply V c t (ix2 j q)).trans ?_
    congr 1
    funext a
    apply Fin.ext
    match a with
    | ⟨0, _⟩ => rfl
    | ⟨1, _⟩ => show q.val = win5_3.index t 1 * 128 + 1 * q.val; rw [e1]; omega

/-! ## The blocks cover the array -/

/-- An index of the array is in point t's block iff each coordinate is in the block's range on its axis. -/
theorem mem_blk5 (t : Fin cfg5.N) (i : S10000x128.Idx) :
    i ∈ ((cfg5.win 3).blk t).view.set ↔ ∀ a : Fin 2, win5_3.index t a * S400x128.size a ≤ (i a).val ∧ (i a).val < win5_3.index t a * S400x128.size a + S400x128.size a := by
  show i ∈ ((View.whole main_v8).slice (win5_3.rect t)).set ↔ _
  rw [View.set_slice_whole, Rect.mem_set_unit]
  exact Iff.rfl

/-- Row r of the array is in the block of point r / 400. -/
theorem cover5 (i : S10000x128.Idx) : ∃ t : Fin cfg5.N, (cfg5.win 3).flush t = true ∧ i ∈ ((cfg5.win 3).blk t).view.set := by
  have hi0 : (i 0).val < 10000 := idx2_lt0 i
  have hi1 : (i 1).val < 128 := idx2_lt1 i
  have hN : cfg5.N = 25 := N_5
  refine ⟨⟨(i 0).val / 400, by rw [hN]; omega⟩, flush5_3 _, ?_⟩
  obtain ⟨-, -, -, -, -, -, e0, e1⟩ := idx_facts5 ⟨(i 0).val / 400, by rw [hN]; omega⟩
  rw [mem_blk5]
  intro a
  match a with
  | ⟨0, _⟩ =>
    show win5_3.index _ 0 * 400 ≤ (i 0).val ∧ (i 0).val < win5_3.index _ 0 * 400 + 400
    rw [e0]; show (i 0).val / 400 * 400 ≤ (i 0).val ∧ (i 0).val < (i 0).val / 400 * 400 + 400; omega
  | ⟨1, _⟩ =>
    show win5_3.index _ 1 * 128 ≤ (i 1).val ∧ (i 1).val < win5_3.index _ 1 * 128 + 128
    rw [e1]; omega

/-! ## The array after the run -/

/-- Region 5's output array ends at (the rectified product of the first two arrays it read) times the third. -/
theorem final5 (c : Dev nD) : (dat5 (F := Ideal) V c).arrAt 3 cfg5.N
    = Spec.mm (Spec.relu (Spec.mm (V c main_v1_1 : Spec.Mat 10000 10000) (V c main_v7_1 : Spec.Mat 10000 64)))
        (V c main_arg9 : Spec.Mat 64 128) :=
  (dat5 V c).arrAt_eq_of_cover 3 _ (fun t _ => flushed5_eq V c t) cover5

end Cert.KernelIdeal.HandValue

end
-- ==== Proof.KVal6.lean ====
/- The value of region 6 at the ideal interpretation: what its output array holds when the pipeline has run, as one
   function of the arrays the region finds, index by index. -/
import proofs.«157920_g66340064854107_cont_9to1c4b_694_10_alg».proof.Proof.HandKernelIdeal.Reg6
import proofs.«157920_g66340064854107_cont_9to1c4b_694_10_alg».proof.Proof.Spec
import proofs.«157920_g66340064854107_cont_9to1c4b_694_10_alg».proof.Proof.LibDot
import proofs.«157920_g66340064854107_cont_9to1c4b_694_10_alg».proof.Proof.LibMatLayout
import Idealize.ShloMosaic.Lib.Pipeline.Value
import Idealize.ShloMosaic.Lib.ValueIdx
import Idealize.ShloMosaic.Lib.Tactic

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-! ## The payload at an index -/

/-- The body's payload at row p, column q: the rectified sum over k of x0 (p, k) · x1 (k, q). The narrowing of the
    right operand changes nothing at the ideal values. -/
theorem pay6_apply (x0 : Vec Ideal S400x10000 .bf16) (x1 : Vec Ideal S10000x128 .f32) (p : Fin 400) (q : Fin 128) :
    k6_pay1 x0 x1 (ix2 p q) = max (∑ k : Fin 10000, x0 (ix2 p k) * x1 (ix2 k q)) Spec.w0 := by
  unfold k6_pay1
  rw [maximumf_apply, broadcast_apply]
  refine congrArg₂ max ?_ rfl
  refine (LibDot.matmul_zero_apply dot_S400x10000_S10000x128_S400x128_1_0_0_1_n_n_wf none _ _ p q).trans ?_
  simp only [shapeCast_self, truncf_apply]

/-! ## The blocks as entries of the arrays -/

/-- The printed index maps over the 25 grid points: point t takes row block t of the left operand and of the output,
    and the whole right operand. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Window 0's block at point t is rows 400 t … 400 t + 399 of its array. -/
theorem iblk6_0_apply (c : Dev nD) (t : Fin cfg6.N) (x : S400x10000.Idx) (k : S10000x10000.Idx)
    (hk0 : (k 0).val = t.val * 400 + (x 0).val) (hk1 : (k 1).val = (x 1).val) :
    (iblk6 V c 0 t : Vec Ideal S400x10000 .bf16) x = (V c main_v1_1 : S10000x10000.Idx → EReal) k := by
  obtain ⟨e0, e1, -⟩ := idx_facts6 t
  unfold iblk6
  rw [View.read_apply]
  show V c main_v1_1 _ = V c main_v1_1 _
  congr 1
  funext a
  apply Fin.ext
  match a with
  | ⟨0, _⟩ => show win6_0.index t 0 * 400 + 1 * (x 0).val = (k 0).val; rw [e0, hk0]; omega
  | ⟨1, _⟩ => show win6_0.index t 1 * 10000 + 1 * (x 1).val = (k 1).val; rw [e1, hk1]; omega

/-- Window 1's block at any point is its whole array. -/
theorem iblk6_1_apply (c : Dev nD) (t : Fin cfg6.N) (x : S10000x128.Idx) :
    (iblk6 V c 1 t : Vec Ideal S10000x128 .f32) x = (V c main_v8 : S10000x128.Idx → EReal) x := by
  obtain ⟨-, -, e0, e1, -⟩ := idx_facts6 t
  unfold iblk6
  rw [View.read_apply]
  show V c main_v8 _ = V c main_v8 _
  congr 1
  funext a
  apply Fin.ext
  match a with
  | ⟨0, _⟩ => show win6_1.index t 0 * 10000 + 1 * (x 0).val = (x 0).val; rw [e0]; omega
  | ⟨1, _⟩ => show win6_1.index t 1 * 128 + 1 * (x 1).val = (x 1).val; rw [e1]; omega

/-! ## What a point writes back -/

/-- Point t writes back block t of the rectified product of the two arrays. -/
theorem flushed6_eq (c : Dev nD) (t : Fin cfg6.N) :
    (dat6 (F := Ideal) V c).flushed 2 t = ((cfg6.win 2).blk t).view.read (Elt Ideal)
      (Spec.relu (Spec.mm (V c main_v1_1 : Spec.Mat 10000 10000) (V c main_v8 : Spec.Mat 10000 128))) := by
  show (cfg6.win 2).cut (grid6.coords t) ((dat6 V c).after 2 t) = _
  rw [after6_2]
  unfold out6_2
  rw [View.canon_unit_zero LibMatLayout.zero_off2]
  simp only [View.ld_unit_zero (S := S400x10000) LibMatLayout.zero_off2, View.ld_unit_zero (S := S10000x128) LibMatLayout.zero_off2]
  obtain ⟨-, -, -, -, e0, e1⟩ := idx_facts6 t
  funext j
  obtain ⟨p, q, rfl⟩ : ∃ (p : Fin 400) (q : Fin 128), j = ix2 p q := ⟨j 0, j 1, eq_ix2 j⟩
  refine (pay6_apply _ _ p q).trans ?_
  rw [View.read_apply]
  unfold Spec.relu Spec.mm
  refine congrArg₂ max (Finset.sum_congr rfl fun k _ => congrArg₂ (· * ·) ?_ ?_) rfl
  · refine iblk6_0_apply V c t (ix2 p k) _ ?_ rfl
    show win6_2.index t 0 * 400 + 1 * p.val = t.val * 400 + p.val
    rw [e0]; omega
  · refine (iblk6_1_apply V c t (ix2 k q)).trans ?_
    congr 1
    funext a
    apply Fin.ext
    match a with
    | ⟨0, _⟩ => rfl
    | ⟨1, _⟩ => show q.val = win6_2.index t 1 * 128 + 1 * q.val; rw [e1]; omega

/-! ## The blocks cover the array -/

/-- An index of the array is in point t's block iff each coordinate is in the block's range on its axis. -/
theorem mem_blk6 (t : Fin cfg6.N) (i : S10000x128.Idx) :
    i ∈ ((cfg6.win 2).blk t).view.set ↔ ∀ a : Fin 2, win6_2.index t a * S400x128.size a ≤ (i a).val ∧ (i a).val < win6_2.index t a * S400x128.size a + S400x128.size a := by
  show i ∈ ((View.whole main_v9).slice (win6_2.rect t)).set ↔ _
  rw [View.set_slice_whole, Rect.mem_set_unit]
  exact Iff.rfl

/-- Row r of the array is in the block of point r / 400. -/
theorem cover6 (i : S10000x128.Idx) : ∃ t : Fin cfg6.N, (cfg6.win 2).flush t = true ∧ i ∈ ((cfg6.win 2).blk t).view.set := by
  have hi0 : (i 0).val < 10000 := idx2_lt0 i
  have hi1 : (i 1).val < 128 := idx2_lt1 i
  have hN : cfg6.N = 25 := N_6
  refine ⟨⟨(i 0).val / 400, by rw [hN]; omega⟩, flush6_2 _, ?_⟩
  obtain ⟨-, -, -, -, e0, e1⟩ := idx_facts6 ⟨(i 0).val / 400, by rw [hN]; omega⟩
  rw [mem_blk6]
  intro a
  match a with
  | ⟨0, _⟩ =>
    show win6_2.index _ 0 * 400 ≤ (i 0).val ∧ (i 0).val < win6_2.index _ 0 * 400 + 400
    rw [e0]; show (i 0).val / 400 * 400 ≤ (i 0).val ∧ (i 0).val < (i 0).val / 400 * 400 + 400; omega
  | ⟨1, _⟩ =>
    show win6_2.index _ 1 * 128 ≤ (i 1).val ∧ (i 1).val < win6_2.index _ 1 * 128 + 128
    rw [e1]; omega

/-! ## The array after the run -/

/-- Region 6's output array ends at the rectified product of the two arrays it read. -/
theorem final6 (c : Dev nD) : (dat6 (F := Ideal) V c).arrAt 2 cfg6.N
    = Spec.relu (Spec.mm (V c main_v1_1 : Spec.Mat 10000 10000) (V c main_v8 : Spec.Mat 10000 128)) :=
  (dat6 V c).arrAt_eq_of_cover 2 _ (fun t _ => flushed6_eq V c t) cover6

end Cert.KernelIdeal.HandValue

end
-- ==== Proof.SpecMath.lean ====
/-
  Facts about the network's functions on the extended reals: the values of the f32 words that occur; that every function of
  the network maps real entries to real entries; and that the two spellings of the logistic function, and of the batch
  normalisation, agree on real arguments.
-/
import proofs.«157920_g66340064854107_cont_9to1c4b_694_10_alg».proof.Proof.Spec

noncomputable section

namespace Cert.Spec

open Idealize.ShloMosaic Idealize.ShloMosaic.ValueIdx
open scoped BigOperators

/-! ## The words -/

theorem w0_eq : w0 = 0 := by simp [w0, Ideal.ofBits, Ideal.ieee]
theorem w1_eq : w1 = ((1 : ℝ) : EReal) := by
  simp [w1, Ideal.ofBits, Ideal.ieee]
  first
  | (rw [← EReal.coe_mul]; norm_num)
  | (norm_cast; norm_num)
theorem wHalf_eq : wHalf = ((1 / 2 : ℝ) : EReal) := by
  simp [wHalf, Ideal.ofBits, Ideal.ieee]
  first
  | (rw [← EReal.coe_mul]; norm_num)
  | (norm_cast; norm_num)
theorem wN_eq : wN = ((10000 : ℝ) : EReal) := by
  simp [wN, Ideal.ofBits, Ideal.ieee]
  first
  | (rw [← EReal.coe_mul]; norm_num)
  | (norm_cast; norm_num)
/-- The variance floor is a positive real. -/
theorem wEps_pos : ∃ e : ℝ, 0 < e ∧ wEps = (e : EReal) := by
  refine ⟨(10995116 : ℝ) * ((2 : ℝ) ^ 40)⁻¹, by positivity, ?_⟩
  simp [wEps, Ideal.ofBits, Ideal.ieee]

/-! ## Real entries -/

/-- Every entry is a real number. -/
def IsReal {ι : Type} (f : ι → EReal) : Prop := ∀ i, ∃ r : ℝ, f i = (r : EReal)

theorem exists_real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := h a (Finset.mem_insert_self _ _)
    obtain ⟨rs, hrs⟩ := ih (fun i hi => h i (Finset.mem_insert_of_mem hi))
    exact ⟨ra + rs, by rw [Finset.sum_insert ha, hra, hrs, EReal.coe_add]⟩

variable {a k b n d e : ℕ}

theorem mm_real {A : Mat a k} {B : Mat k b} (hA : IsReal A) (hB : IsReal B) : IsReal (mm A B) := fun i =>
  exists_real_sum _ _ fun c _ => by
    obtain ⟨x, hx⟩ := hA (ix2 (i 0) c); obtain ⟨y, hy⟩ := hB (ix2 c (i 1))
    exact ⟨x * y, by rw [hx, hy, EReal.coe_mul]⟩

theorem relu_real {A : Mat a b} (hA : IsReal A) : IsReal (relu A) := fun i => by
  obtain ⟨x, hx⟩ := hA i
  refine ⟨max x 0, ?_⟩
  simp only [relu, hx, w0_eq]
  rcases le_total x 0 with h | h
  · rw [max_eq_right h, max_eq_right (by exact_mod_cast h)]; exact EReal.coe_zero.symm
  · rw [max_eq_left h, max_eq_left (by exact_mod_cast h)]

theorem gram_real {H : Mat a k} (hH : IsReal H) : IsReal (gram H) := fun i =>
  exists_real_sum _ _ fun c _ => by
    obtain ⟨x, hx⟩ := hH (ix2 (i 0) c); obtain ⟨y, hy⟩ := hH (ix2 (i 1) c)
    exact ⟨x * y, by rw [hx, hy, EReal.coe_mul]⟩

theorem lin_real {h : Mat n d} {W : Mat d e} {bias : Vc e} (hh : IsReal h) (hW : IsReal W) (hb : IsReal bias) : IsReal (lin h W bias) := fun i => by
  obtain ⟨x, hx⟩ := mm_real hh hW i; obtain ⟨y, hy⟩ := hb (ix1 (i 1))
  exact ⟨x + y, by simp only [lin]; rw [hx, hy, EReal.coe_add]⟩

theorem hidden_real {X : Mat n a} {A : Mat n n} {We1 : Mat a k} {We2 : Mat k d} (hX : IsReal X) (hA : IsReal A) (h1 : IsReal We1) (h2 : IsReal We2) :
    IsReal (hidden X A We1 We2) :=
  relu_real (mm_real hA (mm_real (relu_real (mm_real hA (mm_real hX h1))) h2))

/-! ## The logistic function's two spellings -/

theorem real_logistic (r : ℝ) : (1 / 2 : ℝ) * (Real.tanh ((1 / 2) * r) + 1) = 1 / (1 + Real.exp (-r)) := by
  have hu : 0 < Real.exp ((1 / 2) * r) := Real.exp_pos _
  have h1 : Real.exp (-((1 / 2) * r)) = (Real.exp ((1 / 2) * r))⁻¹ := Real.exp_neg _
  have h2 : Real.exp (-r) = (Real.exp ((1 / 2) * r))⁻¹ * (Real.exp ((1 / 2) * r))⁻¹ := by
    rw [← Real.exp_neg, ← Real.exp_add]; congr 1; ring
  rw [Real.tanh_eq_sinh_div_cosh, Real.sinh_eq, Real.cosh_eq, h1, h2]
  field_simp
  ring

theorem sigm_eq (r : ℝ) : sigmTanh (r : EReal) = sigmDiv (r : EReal) := by
  have hpos : (1 + Real.exp (-r)) ≠ 0 := by positivity
  unfold sigmTanh sigmDiv
  rw [wHalf_eq, w1_eq, ← EReal.coe_mul, Ideal.tanh_coe, ← EReal.coe_add, ← EReal.coe_mul, ← EReal.coe_neg, Ideal.exp_coe, ← EReal.coe_add,
    Ideal.div_coe hpos, ← EReal.coe_mul, real_logistic]
  congr 1; ring

/-! ## The normalisation's two spellings -/

/-- A factor of the reciprocal square root is a division by the square root, at a positive real. -/
theorem mul_rsqrt_eq_div_sqrt (x : EReal) {s : ℝ} (hs : 0 < s) : x * Ideal.rsqrt (s : EReal) = Ideal.div x (Ideal.sqrt (s : EReal)) := by
  have hq : Real.sqrt s ≠ 0 := (Real.sqrt_pos.mpr hs).ne'
  rw [Ideal.rsqrt_coe, Ideal.sqrt_coe, if_neg (not_lt.mpr hs.le), if_neg hs.ne', if_neg (not_lt.mpr hs.le), Ideal.div_coe hq, one_div]

theorem exists_nonneg_real_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨ra, hra0, hra⟩ := h a (Finset.mem_insert_self _ _)
    obtain ⟨rs, hrs0, hrs⟩ := ih (fun i hi => h i (Finset.mem_insert_of_mem hi))
    exact ⟨ra + rs, add_nonneg hra0 hrs0, by rw [Finset.sum_insert ha, hra, hrs, EReal.coe_add]⟩

/-- A column of real entries has a real mean, -/
theorem colMean_real {z : Mat n e} (hz : IsReal z) : IsReal (colMean z) := fun j => by
  obtain ⟨s, hs⟩ := exists_real_sum Finset.univ (fun r : Fin n => z (ix2 r (j 0))) (fun r _ => hz _)
  refine ⟨s * (1 / 10000), ?_⟩
  simp only [colMean]
  rw [hs, wN_eq, Ideal.div_coe (by norm_num), EReal.coe_mul]

/-- and a real, nonnegative variance. -/
theorem colVar_nonneg_real {z : Mat n e} (hz : IsReal z) (j : (⟨1, ![e]⟩ : Shape).Idx) : ∃ v : ℝ, 0 ≤ v ∧ colVar z j = (v : EReal) := by
  obtain ⟨μ, hμ⟩ := colMean_real hz j
  obtain ⟨S, hS0, hS⟩ := exists_nonneg_real_sum Finset.univ
    (fun r : Fin n => (z (ix2 r (j 0)) - colMean z j) * (z (ix2 r (j 0)) - colMean z j)) (fun r _ => by
      obtain ⟨x, hx⟩ := hz (ix2 r (j 0))
      exact ⟨(x - μ) * (x - μ), mul_self_nonneg _, by rw [hx, hμ, ← EReal.coe_sub, ← EReal.coe_mul]⟩)
  refine ⟨S * (1 / 10000), by positivity, ?_⟩
  simp only [colVar]
  rw [hS, wN_eq, Ideal.div_coe (by norm_num), EReal.coe_mul]

/-- On real entries the normalisation by a factor of the reciprocal square root is the normalisation by a division by the
    square root: the variance plus the floor is a positive real. -/
theorem norm_eq {z : Mat n e} (hz : IsReal z) (g be : Vc e) : normMul z g be = normDiv z g be := by
  funext i
  obtain ⟨v, hv0, hv⟩ := colVar_nonneg_real hz (ix1 (i 1))
  obtain ⟨ε, hε, hεq⟩ := wEps_pos
  simp only [normMul, normDiv]
  rw [hv, hεq, ← EReal.coe_add, mul_rsqrt_eq_div_sqrt _ (add_pos_of_nonneg_of_pos hv0 hε)]

theorem proj_eq {h : Mat n d} {Wm : Mat d e} {bias : Vc e} (hz : IsReal (lin h Wm bias)) (g be : Vc e) :
    projMul h Wm bias g be = projDiv h Wm bias g be := by
  unfold projMul projDiv; rw [norm_eq hz]

theorem apred_eq {h : Mat n d} (hh : IsReal h) : apredTanh h = apredDiv h := funext fun i => by
  obtain ⟨r, hr⟩ := gram_real hh i
  simp only [apredTanh, apredDiv, hr, sigm_eq]

end Cert.Spec

end
-- ==== Proof.KernelValue.lean ====
/-
  The kernel program's four results at the ideal values, read off the contents of the buffers at the last boundary
  of its run. The program is seven pipelines and three reshapes in a line; each pipeline leaves its output arrays
  at a function of the arrays it finds and every other buffer alone. Walking the line once, from the launch
  memory, each intermediate array is a term of the ten argument arrays:
    after pipeline 0   main_v0   = X · W_e1
    after pipeline 1   main_v1_0 = relu (A · main_v0) · W_e2,   main_v1_1 = A
    after pipeline 2   main_v2   = relu (A · main_v1_0)                          (the hidden embedding)
    after pipeline 3   main_v3   = the predicted adjacency of main_v2
    after the reshapes main_v4, main_v5, main_v6 = the bias, the scale and the shift as one-row matrices
    after pipeline 4   main_v7_0 = the projected embedding,   main_v7_1 = main_v7_0 · W_d1
    after pipeline 5   main_v8   = relu (A · main_v7_1) · W_d2
    after pipeline 6   main_v9   = relu (A · main_v8)                            (the reconstruction)
  An operand is walked back to the boundary where it was written by the "nothing else changes" lemma of each item
  in between.
-/
import proofs.«157920_g66340064854107_cont_9to1c4b_694_10_alg».proof.Proof.HandKernelIdeal.Run
import proofs.«157920_g66340064854107_cont_9to1c4b_694_10_alg».proof.Proof.KVal0
import proofs.«157920_g66340064854107_cont_9to1c4b_694_10_alg».proof.Proof.KVal1
import proofs.«157920_g66340064854107_cont_9to1c4b_694_10_alg».proof.Proof.KVal2
import proofs.«157920_g66340064854107_cont_9to1c4b_694_10_alg».proof.Proof.KVal3
import proofs.«157920_g66340064854107_cont_9to1c4b_694_10_alg».proof.Proof.KVal4
import proofs.«157920_g66340064854107_cont_9to1c4b_694_10_alg».proof.Proof.KVal5
import proofs.«157920_g66340064854107_cont_9to1c4b_694_10_alg».proof.Proof.KVal6
import proofs.«157920_g66340064854107_cont_9to1c4b_694_10_alg».proof.Proof.Spec
import proofs.«157920_g66340064854107_cont_9to1c4b_694_10_alg».proof.Proof.SpecMath
import Idealize.ShloMosaic.Lib.StableHlo.Run
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open scoped BigOperators

/-! ## Congruences of the network's functions -/

theorem mm_congr {a k b : ℕ} {A A' : Spec.Mat a k} {B B' : Spec.Mat k b} (hA : A = A') (hB : B = B') :
    Spec.mm A B = Spec.mm A' B' := hA ▸ hB ▸ rfl

theorem relu_congr {a b : ℕ} {A A' : Spec.Mat a b} (hA : A = A') : Spec.relu A = Spec.relu A' := hA ▸ rfl

theorem projMul_congr {n d e : ℕ} {h h' : Spec.Mat n d} {W W' : Spec.Mat d e} {bias bias' g g' be be' : Spec.Vc e}
    (hh : h = h') (hW : W = W') (hb : bias = bias') (hg : g = g') (hbe : be = be') :
    Spec.projMul h W bias g be = Spec.projMul h' W' bias' g' be' := hh ▸ hW ▸ hb ▸ hg ▸ hbe ▸ rfl

/-! ## A vector read through its one-row reshape -/

/-- Entry (0, q) of the row-major reshape of a length-32 vector to one row is entry q of the vector. -/
theorem row_read (v : Spec.Vc 32) (h : (⟨1, ![32]⟩ : Shape).ShapeCasts ⟨2, ![1, 32]⟩) :
    (fun j : (⟨1, ![32]⟩ : Shape).Idx => shapeCast ⟨2, ![1, 32]⟩ v h (ix2 0 (j 0))) = v := by
  funext j
  refine (shapeCast_apply v h (ix2 0 (j 0)) (ix1 (j 0)) ?_).trans (congrArg v (eq_ix1 j).symm)
  rw [Shape.rowMajor_val_one, Shape.rowMajor_val_two]
  show (j 0).val = (0 : Fin 1).val * 32 + (j 0).val
  simp

variable (m : (ℓ : Loc nD τ sig) → Buf (Elt Ideal) ℓ) (ρ : Dev nD → PrngReg) (c : Dev nD)

-- the ten argument arrays of core c at launch (the notations name the section's variables, so they are not pre-checked)
set_option quotPrecheck false
local notation "X0" => (m ((c : Thread nD τ).loc main_arg0) : Spec.Mat 10000 128)
local notation "X1" => (m ((c : Thread nD τ).loc main_arg1) : Spec.Mat 10000 10000)
local notation "X2" => (m ((c : Thread nD τ).loc main_arg2) : Spec.Mat 128 64)
local notation "X3" => (m ((c : Thread nD τ).loc main_arg3) : Spec.Mat 64 32)
local notation "X4" => (m ((c : Thread nD τ).loc main_arg4) : Spec.Mat 32 32)
local notation "X5" => (m ((c : Thread nD τ).loc main_arg5) : Spec.Vc 32)
local notation "X6" => (m ((c : Thread nD τ).loc main_arg6) : Spec.Vc 32)
local notation "X7" => (m ((c : Thread nD τ).loc main_arg7) : Spec.Vc 32)
local notation "X8" => (m ((c : Thread nD τ).loc main_arg8) : Spec.Mat 32 64)
local notation "X9" => (m ((c : Thread nD τ).loc main_arg9) : Spec.Mat 64 128)

/-! ## The arguments where they are read: no item before has written them -/

theorem arg1_at1 : W1 m ρ c (Proc.devRef .tc main_arg1) = X1 := (W1_keep m ρ c main_arg1 (by decide)).trans rfl
theorem arg3_at1 : W1 m ρ c (Proc.devRef .tc main_arg3) = X3 := (W1_keep m ρ c main_arg3 (by decide)).trans rfl

theorem arg4_at5 : W5 m ρ c (Proc.devRef .tc main_arg4) = X4 :=
  (W5_keep m ρ c main_arg4 (by decide)).trans <| (W4_keep m ρ c main_arg4 (by decide)).trans <|
  (W3_keep m ρ c main_arg4 (by decide)).trans <| (W2_keep m ρ c main_arg4 (by decide)).trans <|
  (W1_keep m ρ c main_arg4 (by decide)).trans rfl
theorem arg5_at4 : W4 m ρ c (Proc.devRef .tc main_arg5) = X5 :=
  (W4_keep m ρ c main_arg5 (by decide)).trans <| (W3_keep m ρ c main_arg5 (by decide)).trans <|
  (W2_keep m ρ c main_arg5 (by decide)).trans <| (W1_keep m ρ c main_arg5 (by decide)).trans rfl
theorem arg6_at4 : W4 m ρ c (Proc.devRef .tc main_arg6) = X6 :=
  (W4_keep m ρ c main_arg6 (by decide)).trans <| (W3_keep m ρ c main_arg6 (by decide)).trans <|
  (W2_keep m ρ c main_arg6 (by decide)).trans <| (W1_keep m ρ c main_arg6 (by decide)).trans rfl
theorem arg7_at4 : W4 m ρ c (Proc.devRef .tc main_arg7) = X7 :=
  (W4_keep m ρ c main_arg7 (by decide)).trans <| (W3_keep m ρ c main_arg7 (by decide)).trans <|
  (W2_keep m ρ c main_arg7 (by decide)).trans <| (W1_keep m ρ c main_arg7 (by decide)).trans rfl
theorem arg8_at5 : W5 m ρ c (Proc.devRef .tc main_arg8) = X8 :=
  (W5_keep m ρ c main_arg8 (by decide)).trans <| (W4_keep m ρ c main_arg8 (by decide)).trans <|
  (W3_keep m ρ c main_arg8 (by decide)).trans <| (W2_keep m ρ c main_arg8 (by decide)).trans <|
  (W1_keep m ρ c main_arg8 (by decide)).trans rfl
theorem arg9_at6 : W6 m ρ c (Proc.devRef .tc main_arg9) = X9 :=
  (W6_keep m ρ c main_arg9 (by decide)).trans <| (W5_keep m ρ c main_arg9 (by decide)).trans <|
  (W4_keep m ρ c main_arg9 (by decide)).trans <| (W3_keep m ρ c main_arg9 (by decide)).trans <|
  (W2_keep m ρ c main_arg9 (by decide)).trans <| (W1_keep m ρ c main_arg9 (by decide)).trans rfl

/-! ## The encoder -/

/-- After pipeline 0: X · W_e1. -/
theorem v0_at1 : W1 m ρ c (Proc.devRef .tc main_v0) = Spec.mm X0 X2 :=
  (W1_arr m ρ c 2).trans (final0 (Hand.V0 m ρ) c)

/-- After pipeline 1, its first output: relu (A · (X · W_e1)) · W_e2. -/
theorem v1_0_at2 : W2 m ρ c (Proc.devRef .tc main_v1_0) = Spec.mm (Spec.relu (Spec.mm X1 (Spec.mm X0 X2))) X3 :=
  (W2_arr m ρ c 3).trans <| (final1_3 (Hand.V1 m ρ) c).trans <|
    mm_congr (relu_congr (mm_congr (arg1_at1 m ρ c) (v0_at1 m ρ c))) (arg3_at1 m ρ c)

/-- After pipeline 1, its second output: the adjacency matrix itself. -/
theorem v1_1_at2 : W2 m ρ c (Proc.devRef .tc main_v1_1) = X1 :=
  (W2_arr m ρ c 4).trans <| (final1_4 (Hand.V1 m ρ) c).trans (arg1_at1 m ρ c)

/-- After pipeline 2: the hidden embedding. -/
theorem v2_at3 : W3 m ρ c (Proc.devRef .tc main_v2) = Spec.hidden X0 X1 X2 X3 :=
  (W3_arr m ρ c 2).trans <| (final2 (Hand.V2 m ρ) c).trans <|
    relu_congr (mm_congr (v1_1_at2 m ρ c) (v1_0_at2 m ρ c))

/-- After pipeline 3: the predicted adjacency of the hidden embedding. -/
theorem v3_at4 : W4 m ρ c (Proc.devRef .tc main_v3) = Spec.apredTanh (Spec.hidden X0 X1 X2 X3) :=
  (W4_out m ρ c).trans <| (final3 (Hand.V3 m ρ) c).trans (congrArg Spec.apredTanh (v2_at3 m ρ c))

/-- The hidden embedding is still there when pipeline 4 starts. -/
theorem v2_at5 : W5 m ρ c (Proc.devRef .tc main_v2) = Spec.hidden X0 X1 X2 X3 :=
  (W5_keep m ρ c main_v2 (by decide)).trans <| (W4_keep m ρ c main_v2 (by decide)).trans (v2_at3 m ρ c)

/-! ## The three rows -/

/-- After the reshapes, `main_v4` is the bias as a one-row matrix. -/
theorem v4_at5 : W5 m ρ c (Proc.devRef .tc main_v4)
    = shapeCast S1x32 (W4 m ρ c (Proc.devRef .tc main_arg5)) shapeCasts_S32_S1x32 := by
  show StableHlo.after hostOps4 (W4 m ρ c) (Proc.devRef .tc main_v4) = _
  after_results
  rfl
/-- After the reshapes, `main_v5` is the scale as a one-row matrix. -/
theorem v5_at5 : W5 m ρ c (Proc.devRef .tc main_v5)
    = shapeCast S1x32 (W4 m ρ c (Proc.devRef .tc main_arg6)) shapeCasts_S32_S1x32 := by
  show StableHlo.after hostOps4 (W4 m ρ c) (Proc.devRef .tc main_v5) = _
  after_results
  rfl
/-- After the reshapes, `main_v6` is the shift as a one-row matrix. -/
theorem v6_at5 : W5 m ρ c (Proc.devRef .tc main_v6)
    = shapeCast S1x32 (W4 m ρ c (Proc.devRef .tc main_arg7)) shapeCasts_S32_S1x32 := by
  show StableHlo.after hostOps4 (W4 m ρ c) (Proc.devRef .tc main_v6) = _
  after_results
  rfl

theorem row4_at5 : (fun j : S32.Idx => (Hand.V5 m ρ c main_v4 : Spec.Mat 1 32) (ix2 0 (j 0))) = X5 :=
  (congrArg (fun (r : Spec.Mat 1 32) (j : S32.Idx) => r (ix2 0 (j 0))) (v4_at5 m ρ c)).trans <|
    (row_read _ shapeCasts_S32_S1x32).trans (arg5_at4 m ρ c)
theorem row5_at5 : (fun j : S32.Idx => (Hand.V5 m ρ c main_v5 : Spec.Mat 1 32) (ix2 0 (j 0))) = X6 :=
  (congrArg (fun (r : Spec.Mat 1 32) (j : S32.Idx) => r (ix2 0 (j 0))) (v5_at5 m ρ c)).trans <|
    (row_read _ shapeCasts_S32_S1x32).trans (arg6_at4 m ρ c)
theorem row6_at5 : (fun j : S32.Idx => (Hand.V5 m ρ c main_v6 : Spec.Mat 1 32) (ix2 0 (j 0))) = X7 :=
  (congrArg (fun (r : Spec.Mat 1 32) (j : S32.Idx) => r (ix2 0 (j 0))) (v6_at5 m ρ c)).trans <|
    (row_read _ shapeCasts_S32_S1x32).trans (arg7_at4 m ρ c)

/-! ## The projection and the decoder -/

/-- After pipeline 4, its first output: the projected embedding. -/
theorem v7_0_at6 : W6 m ρ c (Proc.devRef .tc main_v7_0)
    = Spec.projMul (Spec.hidden X0 X1 X2 X3) X4 X5 X6 X7 :=
  (W6_arr m ρ c 6).trans <| (final4_6 (Hand.V5 m ρ) c).trans <|
    projMul_congr (v2_at5 m ρ c) (arg4_at5 m ρ c) (row4_at5 m ρ c) (row5_at5 m ρ c) (row6_at5 m ρ c)

/-- After pipeline 4, its second output: the projected embedding times W_d1. -/
theorem v7_1_at6 : W6 m ρ c (Proc.devRef .tc main_v7_1)
    = Spec.mm (Spec.projMul (Spec.hidden X0 X1 X2 X3) X4 X5 X6 X7) X8 :=
  (W6_arr m ρ c 7).trans <| (final4_7 (Hand.V5 m ρ) c).trans <|
    mm_congr (projMul_congr (v2_at5 m ρ c) (arg4_at5 m ρ c) (row4_at5 m ρ c) (row5_at5 m ρ c) (row6_at5 m ρ c))
      (arg8_at5 m ρ c)

/-- The adjacency matrix's copy is still there when pipelines 5 and 6 start. -/
theorem v1_1_at6 : W6 m ρ c (Proc.devRef .tc main_v1_1) = X1 :=
  (W6_keep m ρ c main_v1_1 (by decide)).trans <| (W5_keep m ρ c main_v1_1 (by decide)).trans <|
  (W4_keep m ρ c main_v1_1 (by decide)).trans <| (W3_keep m ρ c main_v1_1 (by decide)).trans (v1_1_at2 m ρ c)
theorem v1_1_at7 : W7 m ρ c (Proc.devRef .tc main_v1_1) = X1 :=
  (W7_keep m ρ c main_v1_1 (by decide)).trans (v1_1_at6 m ρ c)

/-- After pipeline 5: relu (A · (proj · W_d1)) · W_d2. -/
theorem v8_at7 : W7 m ρ c (Proc.devRef .tc main_v8)
    = Spec.mm (Spec.relu (Spec.mm X1 (Spec.mm (Spec.projMul (Spec.hidden X0 X1 X2 X3) X4 X5 X6 X7) X8))) X9 :=
  (W7_arr m ρ c 3).trans <| (final5 (Hand.V6 m ρ) c).trans <|
    mm_congr (relu_congr (mm_congr (v1_1_at6 m ρ c) (v7_1_at6 m ρ c))) (arg9_at6 m ρ c)

/-! ## The four results at the last boundary -/

/-- The hidden embedding. -/
theorem res_hidden : W8 m ρ c (Proc.devRef .tc main_v2) = Spec.hidden X0 X1 X2 X3 :=
  (W8_keep m ρ c main_v2 (by decide)).trans <| (W7_keep m ρ c main_v2 (by decide)).trans <|
  (W6_keep m ρ c main_v2 (by decide)).trans (v2_at5 m ρ c)

/-- The projected embedding. -/
theorem res_proj : W8 m ρ c (Proc.devRef .tc main_v7_0) = Spec.projMul (Spec.hidden X0 X1 X2 X3) X4 X5 X6 X7 :=
  (W8_keep m ρ c main_v7_0 (by decide)).trans <| (W7_keep m ρ c main_v7_0 (by decide)).trans (v7_0_at6 m ρ c)

/-- The predicted adjacency. -/
theorem res_apred : W8 m ρ c (Proc.devRef .tc main_v3) = Spec.apredTanh (Spec.hidden X0 X1 X2 X3) :=
  (W8_keep m ρ c main_v3 (by decide)).trans <| (W7_keep m ρ c main_v3 (by decide)).trans <|
  (W6_keep m ρ c main_v3 (by decide)).trans <| (W5_keep m ρ c main_v3 (by decide)).trans (v3_at4 m ρ c)

/-- The reconstruction. -/
theorem res_xbar : W8 m ρ c (Proc.devRef .tc main_v9)
    = Spec.xbar X1 (Spec.projMul (Spec.hidden X0 X1 X2 X3) X4 X5 X6 X7) X8 X9 :=
  (W8_arr m ρ c 2).trans <| (final6 (Hand.V7 m ρ) c).trans <|
    relu_congr (mm_congr (v1_1_at7 m ρ c) (v8_at7 m ρ c))

end Cert.KernelIdeal.HandValue

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.RefValueOps.lean ====
/-
  The reference's matrix operations read on the extended reals, over abstract operands and any extents:
  the host's product of two matrices is the plain matrix product; a maximum against the zero word spread over the
  whole array is the rectifier; the product of a matrix with its own transpose is the Gram matrix of its rows; and
  one over (one plus the exponential of the negated entry) is the logistic function in its quotient spelling.
-/
import Idealize.ShloMosaic.Lib.ValueIdx
import Idealize.ShloMosaic.Lib.Pipeline.Value
import Idealize.ShloMosaic.PureOps.Ideal.Laws
import proofs.«157920_g66340064854107_cont_9to1c4b_694_10_alg».proof.Proof.Spec
import proofs.«157920_g66340064854107_cont_9to1c4b_694_10_alg».proof.Proof.LibDot
import proofs.«157920_g66340064854107_cont_9to1c4b_694_10_alg».proof.Proof.LibMatLayout
import proofs.«157920_g66340064854107_cont_9to1c4b_694_10_alg».proof.Proof.LibHostRead

noncomputable section

namespace Cert.ReferenceIdeal.Hand

open Idealize.ShloMosaic Idealize.ShloMosaic.ValueIdx
open scoped BigOperators

variable {a k b : ℕ}

/-- The host's product of an a × k and a k × b matrix is the matrix product: at (p, q) the sum over c of
    A (p, c) · B (c, q). -/
theorem dot_eq_mm (w : DotDims.WF ⟨2, ![a, k]⟩ ⟨2, ![k, b]⟩ ⟨2, ![a, b]⟩ [1] [0] [0] [1] [] [])
    (A : FVec Ideal ⟨2, ![a, k]⟩ .f32) (B : FVec Ideal ⟨2, ![k, b]⟩ .f32) :
    Host.dotGeneral (LibDot.dims w) none A B = Cert.Spec.mm A B := by
  funext i
  exact (congrArg (Host.dotGeneral (LibDot.dims w) none A B) (eq_ix2 i)).trans
    (LibDot.dotGeneral_apply w none A B (i 0) (i 1))

/-- The maximum, entry by entry, with the zero word spread over the whole array is the rectifier. -/
theorem max_zero_eq_relu (x : FVec Ideal ⟨2, ![a, b]⟩ .f32)
    (h : (⟨0, ![]⟩ : Shape).BroadcastsInDim ⟨2, ![a, b]⟩ (![] : Fin 0 → Fin 2)) :
    maximumf x (broadcastInDim ⟨2, ![a, b]⟩ ![] h (constant (F := Ideal) ⟨0, ![]⟩ .f32 0x00000000#32)) = Cert.Spec.relu x := by
  funext i
  rfl

/-- A matrix times its own transpose is the Gram matrix of its rows: at (p, q) the sum over c of
    H (p, c) · H (q, c). -/
theorem dot_transpose_eq_gram (w : DotDims.WF ⟨2, ![a, k]⟩ ⟨2, ![k, a]⟩ ⟨2, ![a, a]⟩ [1] [0] [0] [1] [] [])
    (ht : (⟨2, ![a, k]⟩ : Shape).Transposes [1, 0] ⟨2, ![k, a]⟩) (H : FVec Ideal ⟨2, ![a, k]⟩ .f32) :
    Host.dotGeneral (LibDot.dims w) none H (transpose ⟨2, ![k, a]⟩ [1, 0] H ht) = Cert.Spec.gram H := by
  funext i
  refine ((congrArg (Host.dotGeneral (LibDot.dims w) none H (transpose ⟨2, ![k, a]⟩ [1, 0] H ht)) (eq_ix2 i)).trans
    (LibDot.dotGeneral_apply w none H (transpose ⟨2, ![k, a]⟩ [1, 0] H ht) (i 0) (i 1))).trans ?_
  exact Finset.sum_congr rfl fun c _ =>
    congrArg (fun y => H (ix2 (i 0) c) * y) (LibMatLayout.transpose_ab_ba_apply H ht c (i 1))

/-- One over (one plus the exponential of minus the entry), entry by entry: the logistic function spelt as a
    quotient. -/
theorem div_exp_neg_eq_sigm (g : FVec Ideal ⟨2, ![a, b]⟩ .f32)
    (h : (⟨0, ![]⟩ : Shape).BroadcastsInDim ⟨2, ![a, b]⟩ (![] : Fin 0 → Fin 2)) :
    Host.divf (broadcastInDim ⟨2, ![a, b]⟩ ![] h (constant (F := Ideal) ⟨0, ![]⟩ .f32 0x3F800000#32))
        (addf (broadcastInDim ⟨2, ![a, b]⟩ ![] h (constant (F := Ideal) ⟨0, ![]⟩ .f32 0x3F800000#32)) (Host.exp (Host.negf g)))
      = fun i => Cert.Spec.sigmDiv (g i) := by
  funext i
  rfl

end Cert.ReferenceIdeal.Hand

end
-- ==== Proof.RefValueHidden.lean ====
/-
  Three of the reference's four results are products, rectifiers and a logistic function and nothing else: the
  encoder's hidden embedding and the decoder's reconstruction are each two rounds of "multiply by the weights,
  aggregate with the adjacency matrix, rectify", and the predicted adjacency is the logistic function, in its
  quotient spelling, of the Gram matrix of the hidden rows. Each printed product is the plain matrix product and each
  printed rectifier the maximum with the zero word, so the composed terms are the specification's functions.
-/
import proofs.«157920_g66340064854107_cont_9to1c4b_694_10_alg».proof.Proof.Spec
import proofs.«157920_g66340064854107_cont_9to1c4b_694_10_alg».proof.Proof.RefTerms
import proofs.«157920_g66340064854107_cont_9to1c4b_694_10_alg».proof.Proof.RefValueOps

noncomputable section

namespace Cert.ReferenceIdeal.Hand

open Cert.ReferenceIdeal Cert.ReferenceIdeal.Gen Idealize.ShloMosaic Idealize.ShloMosaic.ValueIdx

/-! ## The rectifiers at the three shapes -/

theorem tRelu64_eq (y : FVec Ideal S10000x64 .f32) : tRelu64 y = Cert.Spec.relu y :=
  max_zero_eq_relu y bcast_S_S10000x64

theorem tRelu32_eq (y : FVec Ideal S10000x32 .f32) : tRelu32 y = Cert.Spec.relu y :=
  max_zero_eq_relu y bcast_S_S10000x32

theorem tRelu128_eq (y : FVec Ideal S10000x128 .f32) : tRelu128 y = Cert.Spec.relu y :=
  max_zero_eq_relu y bcast_S_S10000x128

/-! ## The printed products, each the plain matrix product -/

theorem dot_128_64_eq (A : FVec Ideal S10000x128 .f32) (B : FVec Ideal S128x64 .f32) :
    Host.dotGeneral (F := Ideal) dot_S10000x128_S128x64_S10000x64_1_0_0_1_n_n none A B = Cert.Spec.mm A B :=
  dot_eq_mm dot_S10000x128_S128x64_S10000x64_1_0_0_1_n_n_wf A B

theorem dot_adj_64_eq (A : FVec Ideal S10000x10000 .f32) (B : FVec Ideal S10000x64 .f32) :
    Host.dotGeneral (F := Ideal) dot_S10000x10000_S10000x64_S10000x64_1_0_0_1_n_n none A B = Cert.Spec.mm A B :=
  dot_eq_mm dot_S10000x10000_S10000x64_S10000x64_1_0_0_1_n_n_wf A B

theorem dot_64_32_eq (A : FVec Ideal S10000x64 .f32) (B : FVec Ideal S64x32 .f32) :
    Host.dotGeneral (F := Ideal) dot_S10000x64_S64x32_S10000x32_1_0_0_1_n_n none A B = Cert.Spec.mm A B :=
  dot_eq_mm dot_S10000x64_S64x32_S10000x32_1_0_0_1_n_n_wf A B

theorem dot_adj_32_eq (A : FVec Ideal S10000x10000 .f32) (B : FVec Ideal S10000x32 .f32) :
    Host.dotGeneral (F := Ideal) dot_S10000x10000_S10000x32_S10000x32_1_0_0_1_n_n none A B = Cert.Spec.mm A B :=
  dot_eq_mm dot_S10000x10000_S10000x32_S10000x32_1_0_0_1_n_n_wf A B

theorem dot_32_64_eq (A : FVec Ideal S10000x32 .f32) (B : FVec Ideal S32x64 .f32) :
    Host.dotGeneral (F := Ideal) dot_S10000x32_S32x64_S10000x64_1_0_0_1_n_n none A B = Cert.Spec.mm A B :=
  dot_eq_mm dot_S10000x32_S32x64_S10000x64_1_0_0_1_n_n_wf A B

theorem dot_64_128_eq (A : FVec Ideal S10000x64 .f32) (B : FVec Ideal S64x128 .f32) :
    Host.dotGeneral (F := Ideal) dot_S10000x64_S64x128_S10000x128_1_0_0_1_n_n none A B = Cert.Spec.mm A B :=
  dot_eq_mm dot_S10000x64_S64x128_S10000x128_1_0_0_1_n_n_wf A B

theorem dot_adj_128_eq (A : FVec Ideal S10000x10000 .f32) (B : FVec Ideal S10000x128 .f32) :
    Host.dotGeneral (F := Ideal) dot_S10000x10000_S10000x128_S10000x128_1_0_0_1_n_n none A B = Cert.Spec.mm A B :=
  dot_eq_mm dot_S10000x10000_S10000x128_S10000x128_1_0_0_1_n_n_wf A B

/-! ## The three results -/

/-- The encoder's hidden embedding: relu (A · (relu (A · (X · W₁)) · W₂)). -/
theorem tHidden_eq (x0 : FVec Ideal S10000x128 .f32) (x1 : FVec Ideal S10000x10000 .f32) (x2 : FVec Ideal S128x64 .f32)
    (x3 : FVec Ideal S64x32 .f32) : tHidden x0 x1 x2 x3 = Cert.Spec.hidden x0 x1 x2 x3 := by
  unfold tHidden Cert.Spec.hidden
  rw [dot_128_64_eq, dot_adj_64_eq, tRelu64_eq, dot_64_32_eq, dot_adj_32_eq, tRelu32_eq]

/-- The decoder's reconstruction: relu (A · (relu (A · (P · W₃)) · W₄)). -/
theorem tXbar_eq (x1 : FVec Ideal S10000x10000 .f32) (p : FVec Ideal S10000x32 .f32) (x8 : FVec Ideal S32x64 .f32)
    (x9 : FVec Ideal S64x128 .f32) : tXbar x1 p x8 x9 = Cert.Spec.xbar x1 p x8 x9 := by
  unfold tXbar Cert.Spec.xbar
  rw [dot_32_64_eq, dot_adj_64_eq, tRelu64_eq, dot_64_128_eq, dot_adj_128_eq, tRelu128_eq]

/-- The predicted adjacency: the logistic function, spelt as a quotient, of the Gram matrix of the hidden rows. -/
theorem tApred_eq (h : FVec Ideal S10000x32 .f32) : tApred h = Cert.Spec.apredDiv h := by
  unfold tApred
  have hg : Host.dotGeneral (F := Ideal) dot_S10000x32_S32x10000_S10000x10000_1_0_0_1_n_n none h
      (transpose S32x10000 [1, 0] h transposes_S10000x32_S32x10000_1_0) = Cert.Spec.gram h :=
    dot_transpose_eq_gram dot_S10000x32_S32x10000_S10000x10000_1_0_0_1_n_n_wf transposes_S10000x32_S32x10000_1_0 h
  rw [hg]
  exact div_exp_neg_eq_sigm (Cert.Spec.gram h) bcast_S_S10000x10000

end Cert.ReferenceIdeal.Hand

end
-- ==== Proof.RefValueStats.lean ====
/-
  The reference's affine layer and batch normalisation read on the extended reals, over abstract operands and any
  extents. A bias, scale or shift vector reaches a matrix through two broadcasts (kept as one row, the row spread over
  the rows); the host's sum over axis 0 from the zero word is the plain sum down a column; the mean divides that sum
  by the word 10000; the variance is the mean of the squared deviations, its divisor computed as the word 10000 minus
  the integer 0 converted to a float — which is the word 10000 — and its result selected on "that divisor is
  positive", which it is; the normalisation divides by the square root of the variance plus the floor.
-/
import Idealize.ShloMosaic.Lib.ValueIdx
import Idealize.ShloMosaic.Lib.Pipeline.Value
import Idealize.ShloMosaic.PureOps.Ideal.Laws
import proofs.«157920_g66340064854107_cont_9to1c4b_694_10_alg».proof.Proof.Spec
import proofs.«157920_g66340064854107_cont_9to1c4b_694_10_alg».proof.Proof.LibDot
import proofs.«157920_g66340064854107_cont_9to1c4b_694_10_alg».proof.Proof.LibColSum
import proofs.«157920_g66340064854107_cont_9to1c4b_694_10_alg».proof.Proof.LibHostRead

noncomputable section

namespace Cert.ReferenceIdeal.Hand

open Idealize.ShloMosaic Idealize.ShloMosaic.ValueIdx
open scoped BigOperators

variable {n d e : ℕ}

/-- The host's sum of each column of a matrix, from an initial value that is zero: at column j, the sum over the
    rows. -/
theorem hostSumAxis0_apply (x : (⟨2, ![n, e]⟩ : Shape).Idx → EReal) {u : Shape} (init : u.Idx → EReal)
    (h' : (⟨2, ![n, e]⟩ : Shape).ReducesTo [0] ⟨1, ![e]⟩) (hu : 0 < u.numel)
    (hinit : init (Shape.Idx.first hu) = 0) (j : Fin e) :
    Host.reduceAdd (F := Ideal) (φ := .f32) x init h' hu (ix1 j) = ∑ r : Fin n, x (ix2 r j) := by
  have h : (⟨2, ![n, e]⟩ : Shape).Reduces [0] ⟨1, ![e]⟩ := ⟨h'.1, Nat.one_pos, h'.2⟩
  show Ideal.hostReduceAdd h' x (init (Shape.Idx.first hu)) (ix1 j) = _
  rw [hinit, Ideal.hostReduceAdd_single h' h x 0 (ix1 j), zero_add]
  exact Finset.sum_congr rfl fun r _ => congrArg x (LibColSum.lift_col h j r)

/-- The zero word, as the initial value of a host sum, is zero. -/
theorem zeroWord_first (hu : 0 < (⟨0, ![]⟩ : Shape).numel) :
    constant (F := Ideal) ⟨0, ![]⟩ .f32 0x00000000#32 (Shape.Idx.first hu) = 0 :=
  Ideal.ofBits_zero_f32

/-- The affine layer: the host's product plus the bias vector spread over the rows. -/
theorem dot_add_bias_eq_lin (w : DotDims.WF ⟨2, ![n, d]⟩ ⟨2, ![d, e]⟩ ⟨2, ![n, e]⟩ [1] [0] [0] [1] [] [])
    (h1 : (⟨1, ![e]⟩ : Shape).BroadcastsInDim ⟨2, ![1, e]⟩ (![1] : Fin 1 → Fin 2))
    (h2 : (⟨2, ![1, e]⟩ : Shape).BroadcastsInDim ⟨2, ![n, e]⟩ (![0, 1] : Fin 2 → Fin 2))
    (h : FVec Ideal ⟨2, ![n, d]⟩ .f32) (W : FVec Ideal ⟨2, ![d, e]⟩ .f32) (bias : FVec Ideal ⟨1, ![e]⟩ .f32) :
    addf (Host.dotGeneral (LibDot.dims w) none h W)
        (broadcastInDim ⟨2, ![n, e]⟩ (![0, 1] : Fin 2 → Fin 2) h2 (broadcastInDim ⟨2, ![1, e]⟩ (![1] : Fin 1 → Fin 2) h1 bias))
      = Cert.Spec.lin h W bias := by
  funext i
  show Host.dotGeneral (LibDot.dims w) none h W i
      + broadcastInDim ⟨2, ![n, e]⟩ (![0, 1] : Fin 2 → Fin 2) h2 (broadcastInDim ⟨2, ![1, e]⟩ (![1] : Fin 1 → Fin 2) h1 bias) i
    = Cert.Spec.mm h W i + bias (ix1 (i 1))
  have e1 : Host.dotGeneral (LibDot.dims w) none h W i = Cert.Spec.mm h W i :=
    (congrArg (Host.dotGeneral (LibDot.dims w) none h W) (eq_ix2 i)).trans (LibDot.dotGeneral_apply w none h W (i 0) (i 1))
  have e2 : broadcastInDim ⟨2, ![n, e]⟩ (![0, 1] : Fin 2 → Fin 2) h2 (broadcastInDim ⟨2, ![1, e]⟩ (![1] : Fin 1 → Fin 2) h1 bias) i
      = bias (ix1 (i 1)) :=
    (congrArg (broadcastInDim ⟨2, ![n, e]⟩ (![0, 1] : Fin 2 → Fin 2) h2 (broadcastInDim ⟨2, ![1, e]⟩ (![1] : Fin 1 → Fin 2) h1 bias))
      (eq_ix2 i)).trans (LibHostRead.bcastRow_apply bias h1 h2 (i 0) (i 1))
  rw [e1, e2]

/-- The mean of each column: the host's column sum from the zero word, divided by the word 10000 spread over the
    vector. -/
theorem sum_div_eq_colMean (z : FVec Ideal ⟨2, ![n, e]⟩ .f32)
    (hr : (⟨2, ![n, e]⟩ : Shape).ReducesTo [0] ⟨1, ![e]⟩) (hu : 0 < (⟨0, ![]⟩ : Shape).numel)
    (hb : (⟨0, ![]⟩ : Shape).BroadcastsInDim ⟨1, ![e]⟩ (![] : Fin 0 → Fin 1)) :
    Host.divf (Host.reduceAdd z (constant (F := Ideal) ⟨0, ![]⟩ .f32 0x00000000#32) hr hu)
        (broadcastInDim ⟨1, ![e]⟩ ![] hb (constant (F := Ideal) ⟨0, ![]⟩ .f32 0x461C4000#32))
      = Cert.Spec.colMean z := by
  funext j
  show Ideal.div (Host.reduceAdd z (constant (F := Ideal) ⟨0, ![]⟩ .f32 0x00000000#32) hr hu j) Cert.Spec.wN
    = Ideal.div (∑ r : Fin n, z (ix2 r (j 0))) Cert.Spec.wN
  have e1 : Host.reduceAdd z (constant (F := Ideal) ⟨0, ![]⟩ .f32 0x00000000#32) hr hu j = ∑ r : Fin n, z (ix2 r (j 0)) :=
    (congrArg (Host.reduceAdd z (constant (F := Ideal) ⟨0, ![]⟩ .f32 0x00000000#32) hr hu) (eq_ix1 j)).trans
      (hostSumAxis0_apply z _ hr hu (zeroWord_first hu) (j 0))
  rw [e1]

end Cert.ReferenceIdeal.Hand

end
-- ==== Proof.RefValueNorm.lean ====
/-
  The reference's affine layer and batch normalisation are the specification's: the affine layer is the product plus
  the bias of the column; the column mean is the column's sum over the word 10000; the variance squares the entries
  centred by that mean (computed once more, as a one-row matrix), sums down the columns and divides by "the word 10000
  minus the integer 0 as a float", which is the word 10000, and the selection on "that divisor is positive" keeps the
  quotient because 10000 is positive; the normalisation divides the centred entry by the square root of the variance
  plus the floor, scales and shifts.
-/
import Idealize.ShloMosaic.Lib.ValueIdx
import Idealize.ShloMosaic.Lib.Pipeline.Value
import Idealize.ShloMosaic.PureOps.Ideal.Laws
import proofs.«157920_g66340064854107_cont_9to1c4b_694_10_alg».proof.Proof.Spec
import proofs.«157920_g66340064854107_cont_9to1c4b_694_10_alg».proof.Proof.RefTerms
import proofs.«157920_g66340064854107_cont_9to1c4b_694_10_alg».proof.Proof.RefValueStats
import proofs.«157920_g66340064854107_cont_9to1c4b_694_10_alg».proof.Proof.LibHostRead

noncomputable section

namespace Cert.ReferenceIdeal.Hand

open Cert.ReferenceIdeal Cert.ReferenceIdeal.Gen Idealize.ShloMosaic Idealize.ShloMosaic.ValueIdx
open scoped BigOperators

/-! ## A vector spread over the rows -/

/-- A length-32 vector as a row repeated down the rows reads, at (r, q), entry q. -/
theorem tRows_apply2 (v : FVec Ideal S32 .f32) (r : Fin 10000) (q : Fin 32) : tRows v (ix2 r q) = v (ix1 q) :=
  LibHostRead.bcastRow_apply v bcast_S32_S1x32_1 bcast_S1x32_S10000x32_0_1 r q

theorem tRows_apply (v : FVec Ideal S32 .f32) (i : S10000x32.Idx) : tRows v i = v (ix1 (i 1)) :=
  (congrArg (tRows v) (eq_ix2 i)).trans (tRows_apply2 v (i 0) (i 1))

/-! ## The affine layer and the column mean -/

theorem tZ_eq (h : FVec Ideal S10000x32 .f32) (x4 : FVec Ideal S32x32 .f32) (x5 : FVec Ideal S32 .f32) :
    tZ h x4 x5 = Cert.Spec.lin h x4 x5 :=
  dot_add_bias_eq_lin dot_S10000x32_S32x32_S10000x32_1_0_0_1_n_n_wf bcast_S32_S1x32_1 bcast_S1x32_S10000x32_0_1 h x4 x5

theorem tMu_eq (z : FVec Ideal S10000x32 .f32) : tMu z = Cert.Spec.colMean z :=
  sum_div_eq_colMean z reducesTo_S10000x32_S32_d0 h_S_ bcast_S_S32

/-! ## The variance -/

/-- The host's column sum of z from the zero word, at column q. -/
theorem colSum_apply (z : FVec Ideal S10000x32 .f32) (q : Fin 32) :
    Host.reduceAdd (F := Ideal) z (constant (F := Ideal) S_ .f32 0x00000000#32) reducesTo_S10000x32_S32_d0 h_S_ (ix1 q)
      = ∑ r : Fin 10000, z (ix2 r q) :=
  hostSumAxis0_apply z _ reducesTo_S10000x32_S32_d0 h_S_ (zeroWord_first h_S_) q

/-- The centred array at (r, q): the entry minus its column's mean. -/
theorem tCentred_apply2 (z : FVec Ideal S10000x32 .f32) (r : Fin 10000) (q : Fin 32) :
    tCentred z (ix2 r q) = z (ix2 r q) - Cert.Spec.colMean z (ix1 q) := by
  unfold tCentred
  show z (ix2 r q) - broadcastInDim S10000x32 ![0, 1] bcast_S1x32_S10000x32_0_1
      (Host.divf (F := Ideal)
        (broadcastInDim S1x32 ![1] bcast_S32_S1x32_1
          (Host.reduceAdd (F := Ideal) z (constant (F := Ideal) S_ .f32 0x00000000#32) reducesTo_S10000x32_S32_d0 h_S_))
        (broadcastInDim S1x32 ![] bcast_S_S1x32 (constant (F := Ideal) S_ .f32 0x461C4000#32))) (ix2 r q) = _
  rw [LibHostRead.bcast_1b_ab_apply _ bcast_S1x32_S10000x32_0_1 r q]
  show z (ix2 r q) - Ideal.div (broadcastInDim S1x32 ![1] bcast_S32_S1x32_1
          (Host.reduceAdd (F := Ideal) z (constant (F := Ideal) S_ .f32 0x00000000#32) reducesTo_S10000x32_S32_d0 h_S_)
          (ix2 (0 : Fin 1) q)) Cert.Spec.wN = _
  rw [LibHostRead.bcast_b_1b_apply _ bcast_S32_S1x32_1 0 q, colSum_apply z q]
  rfl

/-- The word 0x461C4000 is the real number 10000. -/
theorem wN_eq : Cert.Spec.wN = ((10000 : ℝ) : EReal) := by
  simp [Ideal.ofBits, Ideal.ieee, -EReal.coe_mul]; norm_num

/-- The zero word is below the word 10000. -/
theorem w0_lt_wN : Cert.Spec.w0 < Cert.Spec.wN := by
  rw [wN_eq]
  show Ideal.ofBits .f32 0x00000000#32 < _
  rw [Ideal.ofBits_zero_f32]
  exact EReal.coe_pos.mpr (by norm_num)

/-- The variance's divisor, the word 10000 minus the integer 0 as a float, is the word 10000. -/
theorem tDof_eq : tDof = constant (F := Ideal) S_ .f32 0x461C4000#32 := by
  funext i
  show Ideal.ofBits .f32 0x461C4000#32 - (((0#32 : BitVec 32).toInt : ℝ) : EReal) = Ideal.ofBits .f32 0x461C4000#32
  have h0 : (((0#32 : BitVec 32).toInt : ℝ) : EReal) = 0 := by simp
  rw [h0, sub_zero]

/-- "The word 10000 is greater than the zero word" is the true bit. -/
theorem cmp_dof_eq : cmpf (F := Ideal) .ogt (constant (F := Ideal) S_ .f32 0x461C4000#32) (constant (F := Ideal) S_ .f32 0x00000000#32)
    = fun _ => 1#1 := by
  funext i
  show BitVec.ofBool (decide (Cert.Spec.w0 < Cert.Spec.wN)) = 1#1
  rw [decide_eq_true w0_lt_wN]
  rfl

/-- The column variance: the mean of the squared deviations from the column's mean. -/
theorem tVar_eq (z : FVec Ideal S10000x32 .f32) : tVar z = Cert.Spec.colVar z := by
  funext j
  unfold tVar
  rw [tDof_eq, cmp_dof_eq]
  show Scalar.select 1#1
      (Ideal.div (Host.reduceAdd (F := Ideal) (mulf (tCentred z) (tCentred z)) (constant (F := Ideal) S_ .f32 0x00000000#32)
        reducesTo_S10000x32_S32_d0 h_S_ j) Cert.Spec.wN) _ = _
  rw [select_one]
  have e1 : Host.reduceAdd (F := Ideal) (mulf (tCentred z) (tCentred z)) (constant (F := Ideal) S_ .f32 0x00000000#32)
        reducesTo_S10000x32_S32_d0 h_S_ j = ∑ r : Fin 10000, mulf (tCentred z) (tCentred z) (ix2 r (j 0)) :=
    (congrArg (Host.reduceAdd (F := Ideal) (mulf (tCentred z) (tCentred z)) (constant (F := Ideal) S_ .f32 0x00000000#32)
        reducesTo_S10000x32_S32_d0 h_S_) (eq_ix1 j)).trans (colSum_apply _ (j 0))
  rw [e1]
  have ej : Cert.Spec.colMean z (ix1 (j 0)) = Cert.Spec.colMean z j := congrArg (Cert.Spec.colMean z) (eq_ix1 j).symm
  show Ideal.div (∑ r : Fin 10000, tCentred z (ix2 r (j 0)) * tCentred z (ix2 r (j 0))) Cert.Spec.wN
    = Ideal.div (∑ r : Fin 10000, (z (ix2 r (j 0)) - Cert.Spec.colMean z j) * (z (ix2 r (j 0)) - Cert.Spec.colMean z j)) Cert.Spec.wN
  refine congrArg (fun s => Ideal.div s Cert.Spec.wN) (Finset.sum_congr rfl fun r _ => ?_)
  rw [tCentred_apply2 z r (j 0), ej]

/-! ## The normalisation -/

/-- Centred by the column mean, divided by the square root of the column variance plus the floor, scaled and
    shifted. -/
theorem tNorm_eq (z : FVec Ideal S10000x32 .f32) (x6 x7 : FVec Ideal S32 .f32) : tNorm z x6 x7 = Cert.Spec.normDiv z x6 x7 := by
  funext i
  unfold tNorm
  show Ideal.div (z i - tRows (tMu z) i)
        (tRows (Host.sqrt (F := Ideal) (addf (tVar z) (broadcastInDim S32 ![] bcast_S_S32 (constant (F := Ideal) S_ .f32 0x3727C5AC#32)))) i)
      * tRows x6 i + tRows x7 i = _
  rw [tRows_apply, tRows_apply, tRows_apply, tRows_apply, tMu_eq, tVar_eq]
  rfl

end Cert.ReferenceIdeal.Hand

end
-- ==== Proof.LibHostRowMax2.lean ====
/-
  A maximum along the rows of a matrix computed on the host, on the extended reals.

  A reduction by maximum that starts from negative infinity is the supremum of the entries folded into a result
  entry: max is commutative and associative, so the order of the fold is immaterial, and the starting value is the
  least element. This file reads such a reduction of an A × B array over its last axis at row a: the supremum over
  k < B of the entries (a, k), for any extents.
-/
import Idealize.ShloMosaic.PureOps.Ideal.Laws
import Idealize.ShloMosaic.Lib.ValueIdx

noncomputable section

namespace Cert.LibHostRowMax2

open Idealize.ShloMosaic Idealize.ShloMosaic.ValueIdx

/-- Of two axes, the one other than the last is axis 0, whatever the extents. -/
theorem kept_axis1 {A B : Nat} : (⟨2, ![A, B]⟩ : Shape).kept [1] = [0] := by
  show (List.finRange 2).filter (· ∉ ([1] : List (Fin 2))) = [0]
  decide

theorem kept_axis1_fst {A B : Nat} (hh : 0 < ((⟨2, ![A, B]⟩ : Shape).kept [1]).length) :
    ((⟨2, ![A, B]⟩ : Shape).kept [1])[0] = 0 := by
  revert hh; rw [kept_axis1]; intro _; rfl

/-- A host maximum over the last axis of an A × B array, from an initial value that is negative infinity, at row a:
    the supremum over k < B of the entries (a, k). -/
theorem hostReduce_max_rows {A B : Nat} (y : (⟨2, ![A, B]⟩ : Shape).Idx → EReal) {u : Shape}
    (init : u.Idx → EReal) (h' : (⟨2, ![A, B]⟩ : Shape).ReducesTo [1] ⟨1, ![A]⟩) (hu : 0 < u.numel)
    (hinit : init (Shape.Idx.first hu) = ⊥) (a : Fin A) :
    Host.reduce (FloatOps.maximumf (F := Ideal) (φ := .f32)) y init h' hu (ix1 a)
      = (Finset.univ : Finset (Fin B)).sup fun k => y (ix2 a k) := by
  rw [Host.reduce_eq_fold, hinit]
  have hd : ∀ i : (⟨2, ![A, B]⟩ : Shape).Idx, h'.drop i = ix1 (i 0 : Fin A) := fun i => by
    funext b'
    match b' with
    | ⟨0, _⟩ => exact Fin.ext (h'.drop_apply_val_of_eq i 0 0 (by rw [kept_axis1]; exact Nat.zero_lt_one) (kept_axis1_fst _))
  show (Finset.univ.filter fun i => h'.drop i = ix1 a).sup y = _
  apply le_antisymm
  · apply Finset.sup_le
    intro i hi
    have hi2 := (Finset.mem_filter.1 hi).2
    rw [hd] at hi2
    have e0 : (i 0 : Fin A) = a := congrFun hi2 0
    have ei : i = ix2 a (i 1 : Fin B) := by rw [← e0]; exact eq_ix2 i
    rw [ei]
    exact Finset.le_sup (f := fun k : Fin B => y (ix2 a k)) (Finset.mem_univ (i 1 : Fin B))
  · apply Finset.sup_le
    intro k _
    exact Finset.le_sup (f := y) (Finset.mem_filter.2 ⟨Finset.mem_univ _, (hd _).trans rfl⟩)

end Cert.LibHostRowMax2

end
-- ==== Proof.RefValueSoftmax.lean ====
/-
  The reference's soft-max along each row is the specification's: the row maximum is the host's maximum over the row
  from minus infinity, taken once more against minus infinity; the exponentials are of the entries minus their row's
  maximum; and each is divided by its row's sum of exponentials, the host's sum over axis 1 from the zero word.
-/
import Idealize.ShloMosaic.Lib.ValueIdx
import Idealize.ShloMosaic.Lib.Pipeline.Value
import Idealize.ShloMosaic.PureOps.Ideal.Laws
import proofs.«157920_g66340064854107_cont_9to1c4b_694_10_alg».proof.Proof.Spec
import proofs.«157920_g66340064854107_cont_9to1c4b_694_10_alg».proof.Proof.RefTerms
import proofs.«157920_g66340064854107_cont_9to1c4b_694_10_alg».proof.Proof.LibHostRead
import proofs.«157920_g66340064854107_cont_9to1c4b_694_10_alg».proof.Proof.LibHostRowMax2
import proofs.«157920_g66340064854107_cont_9to1c4b_694_10_alg».proof.Proof.LibRowReduce

noncomputable section

namespace Cert.ReferenceIdeal.Hand

open Cert.ReferenceIdeal Cert.ReferenceIdeal.Gen Idealize.ShloMosaic Idealize.ShloMosaic.ValueIdx
open scoped BigOperators

/-- A length-10000 vector as a column repeated across the columns reads, at (r, q), entry r. -/
theorem tCols_apply2 (v : FVec Ideal S10000 .f32) (r : Fin 10000) (q : Fin 32) : tCols v (ix2 r q) = v (ix1 r) :=
  (LibHostRead.bcast_a1_ab_apply _ bcast_S10000x1_S10000x32_0_1 r q).trans
    (LibHostRead.bcast_a_a1_apply v bcast_S10000_S10000x1_0 r 0)

theorem tCols_apply (v : FVec Ideal S10000 .f32) (i : S10000x32.Idx) : tCols v i = v (ix1 (i 0)) :=
  (congrArg (tCols v) (eq_ix2 i)).trans (tCols_apply2 v (i 0) (i 1))

/-- The minus-infinity word, as the initial value of a host maximum, is the least extended real. -/
theorem botWord_first (hu : 0 < (⟨0, ![]⟩ : Shape).numel) :
    constant (F := Ideal) ⟨0, ![]⟩ .f32 0xFF800000#32 (Shape.Idx.first hu) = ⊥ :=
  LibRowReduce.ofBits_neg_inf

/-- The row maximum of row p: the largest entry of the row, never below minus infinity. -/
theorem tRowMax_apply (y : FVec Ideal S10000x32 .f32) (p : Fin 10000) : tRowMax y (ix1 p) = Cert.Spec.rowTop y p := by
  unfold tRowMax
  show max Cert.Spec.wBot (Host.reduce (FloatOps.maximumf (F := Ideal) (φ := .f32)) y (constant (F := Ideal) S_ .f32 0xFF800000#32)
      reducesTo_S10000x32_S10000_d1 h_S_ (ix1 p)) = _
  rw [LibHostRowMax2.hostReduce_max_rows y _ reducesTo_S10000x32_S10000_d1 h_S_ (botWord_first h_S_) p]
  rfl

/-- The exponential of the entry minus its row's maximum. -/
theorem tExps_apply2 (y : FVec Ideal S10000x32 .f32) (r : Fin 10000) (q : Fin 32) :
    tExps y (ix2 r q) = Ideal.exp (y (ix2 r q) - Cert.Spec.rowTop y r) := by
  unfold tExps
  show Ideal.exp (y (ix2 r q) - tCols (tRowMax y) (ix2 r q)) = _
  rw [tCols_apply2, tRowMax_apply]

/-- The host's sum over axis 1 of the exponentials from the zero word, at row r. -/
theorem rowSum_apply (x : FVec Ideal S10000x32 .f32) (r : Fin 10000) :
    Host.reduceAdd (F := Ideal) x (constant (F := Ideal) S_ .f32 0x00000000#32) reducesTo_S10000x32_S10000_d1 h_S_ (ix1 r)
      = ∑ q : Fin 32, x (ix2 r q) :=
  LibHostRead.hostSumAxis1_apply x _ reducesTo_S10000x32_S10000_d1 h_S_ Ideal.ofBits_zero_f32 r

/-- The soft-max at (r, q): the exponential over the row's sum of exponentials. -/
theorem tSoftmax_apply2 (y : FVec Ideal S10000x32 .f32) (r : Fin 10000) (q : Fin 32) :
    tSoftmax y (ix2 r q) = Cert.Spec.softmax y (ix2 r q) := by
  unfold tSoftmax
  show Ideal.div (tExps y (ix2 r q))
      (tCols (Host.reduceAdd (F := Ideal) (tExps y) (constant (F := Ideal) S_ .f32 0x00000000#32)
        reducesTo_S10000x32_S10000_d1 h_S_) (ix2 r q)) = _
  rw [tCols_apply2, rowSum_apply, tExps_apply2]
  show _ = Ideal.div (Ideal.exp (y (ix2 r q) - Cert.Spec.rowTop y r))
      (∑ q' : Fin 32, Ideal.exp (y (ix2 r q') - Cert.Spec.rowTop y r))
  exact congrArg (fun s => Ideal.div (Ideal.exp (y (ix2 r q) - Cert.Spec.rowTop y r)) s)
    (Finset.sum_congr rfl fun q' _ => tExps_apply2 y r q')

/-- The soft-max along each row. -/
theorem tSoftmax_eq (y : FVec Ideal S10000x32 .f32) : tSoftmax y = Cert.Spec.softmax y :=
  funext fun i => (congrArg (tSoftmax y) (eq_ix2 i)).trans
    ((tSoftmax_apply2 y (i 0) (i 1)).trans (congrArg (Cert.Spec.softmax y) (eq_ix2 i).symm))

end Cert.ReferenceIdeal.Hand

end
-- ==== Proof.RefValue.lean ====
/-
  The reference's four results are the specification's four functions of the ten arguments, index by index, on the
  extended reals; no finiteness of any input is used. Three of them (the hidden embedding, the predicted adjacency,
  the reconstruction) are proved with the matrix operations; the projected embedding composes the affine layer, the
  batch normalisation in its "divide by the square root" spelling, the rectifier and the soft-max along the rows.
-/
import proofs.«157920_g66340064854107_cont_9to1c4b_694_10_alg».proof.Proof.Spec
import proofs.«157920_g66340064854107_cont_9to1c4b_694_10_alg».proof.Proof.RefTerms
import proofs.«157920_g66340064854107_cont_9to1c4b_694_10_alg».proof.Proof.RefValueHidden
import proofs.«157920_g66340064854107_cont_9to1c4b_694_10_alg».proof.Proof.RefValueNorm
import proofs.«157920_g66340064854107_cont_9to1c4b_694_10_alg».proof.Proof.RefValueSoftmax

noncomputable section

namespace Cert.ReferenceIdeal.Hand

open Cert.ReferenceIdeal Cert.ReferenceIdeal.Gen Idealize.ShloMosaic

/-- The projected embedding: softmax (relu (normalise (hidden · W + b))). -/
theorem tProj_eq (h : FVec Ideal S10000x32 .f32) (x4 : FVec Ideal S32x32 .f32) (x5 x6 x7 : FVec Ideal S32 .f32) :
    tProj h x4 x5 x6 x7 = Cert.Spec.projDiv h x4 x5 x6 x7 := by
  unfold tProj Cert.Spec.projDiv
  rw [tZ_eq, tNorm_eq, tRelu32_eq, tSoftmax_eq]

end Cert.ReferenceIdeal.Hand

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.PreReal.lean ====
/-
  The precondition read at the ideal values. The predicate "every input is finite" compares, entry by entry, the absolute
  value of each input with the float word of +infinity by "less than", reduces each comparison over all axes by "and"
  from the constant 1, and takes the conjunction of the ten results. When the predicate is 1, every conjunct is 1, so
  every entry of every comparison is 1, and an extended real whose absolute value is below +infinity is a real number.
  Nothing here depends on an array's extent: the arrays stay variables throughout.
-/
import proofs.«157920_g66340064854107_cont_9to1c4b_694_10_alg».proof.Pre_finite_inputs
import proofs.«157920_g66340064854107_cont_9to1c4b_694_10_alg».proof.Proof.SpecMath
import proofs.«157920_g66340064854107_cont_9to1c4b_694_10_alg».proof.Proof.LibRealEntry
import Idealize.ShloMosaic.Lib.ReduceAll

noncomputable section

namespace Cert.PreReal

open Idealize.ShloMosaic
open Cert.Pre_finite_inputs

/-- The shape of rank 0 has exactly one index. -/
instance : Subsingleton S_.Idx := ⟨fun a b => funext fun d => d.elim0⟩

/-- One all-reduction of one comparison: if the conjunction over all entries of "the absolute value of the entry is
    below +infinity" is 1, every entry is a real number. Generic in the shape and in the axes reduced. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    Cert.Spec.IsReal x := fun i =>
  Cert.LibRealEntry.real_of_abs_lt_inf (x i) (Host.reduce_andi_all _ _ hr hu _ e i)

/-- The precondition at the ideal values: the first six inputs (the two data arrays and the encoder's and the
    projection's weights and bias) have only real entries. -/
theorem real_of_pre [Cert.Pre_finite_inputs.Facts] (x0 : FVec Ideal S10000x128 .f32) (x1 : FVec Ideal S10000x10000 .f32)
    (x2 : FVec Ideal S128x64 .f32) (x3 : FVec Ideal S64x32 .f32) (x4 : FVec Ideal S32x32 .f32) (x5 x6 x7 : FVec Ideal S32 .f32)
    (x8 : FVec Ideal S32x64 .f32) (x9 : FVec Ideal S64x128 .f32)
    (h : Cert.Pre_finite_inputs.fn (F := Ideal) x0 x1 x2 x3 x4 x5 x6 x7 x8 x9 = fun _ => 1#1) :
    Cert.Spec.IsReal x0 ∧ Cert.Spec.IsReal x1 ∧ Cert.Spec.IsReal x2 ∧ Cert.Spec.IsReal x3 ∧ Cert.Spec.IsReal x4
      ∧ Cert.Spec.IsReal x5 := by
  have h0 := congrFun h ValueIdx.ix0
  dsimp only [fn, fn_part1, fn_part2, andi] at h0
  simp only [IntOp.andi_eq_one] at h0
  obtain ⟨⟨⟨⟨⟨⟨⟨⟨⟨e0, e1⟩, e2⟩, e3⟩, e4⟩, e5⟩, _⟩, _⟩, _⟩, _⟩ := h0
  exact ⟨real_of_all x0 _ _ _ e0, real_of_all x1 _ _ _ e1, real_of_all x2 _ _ _ e2, real_of_all x3 _ _ _ e3,
    real_of_all x4 _ _ _ e4, real_of_all x5 _ _ _ e5⟩

end Cert.PreReal

end
-- ==== Proof.Algebraic.lean ====
/- The two programs at the ideal values compute the same four results: the kernel program's run ends with its four
   result arrays at the specification's functions of the ten arguments, and so does the reference's; the arguments are
   unchanged on both sides. The kernel spells the logistic function with the hyperbolic tangent and the normalisation
   with the reciprocal square root, the reference with a quotient and a division by the square root: on real inputs —
   which the precondition grants — the two spellings are equal. -/
import proofs.«157920_g66340064854107_cont_9to1c4b_694_10_alg».proof.Defs
import proofs.«157920_g66340064854107_cont_9to1c4b_694_10_alg».proof.Proof.Gen.KernelIdeal
import proofs.«157920_g66340064854107_cont_9to1c4b_694_10_alg».proof.Proof.Gen.ReferenceIdeal
import proofs.«157920_g66340064854107_cont_9to1c4b_694_10_alg».proof.Proof.Gen.Pre_finite_inputs
import proofs.«157920_g66340064854107_cont_9to1c4b_694_10_alg».proof.Proof.HandKernelIdeal.Run
import proofs.«157920_g66340064854107_cont_9to1c4b_694_10_alg».proof.Proof.KernelValue
import proofs.«157920_g66340064854107_cont_9to1c4b_694_10_alg».proof.Proof.RefRun
import proofs.«157920_g66340064854107_cont_9to1c4b_694_10_alg».proof.Proof.RefValue
import proofs.«157920_g66340064854107_cont_9to1c4b_694_10_alg».proof.Proof.SpecMath
import proofs.«157920_g66340064854107_cont_9to1c4b_694_10_alg».proof.Proof.PreReal

noncomputable section

namespace Cert.Proof.Alg

open Idealize.ShloMosaic Idealize.ShloMosaic.TcCoe Idealize.SL.Sem

/-! ## The ten arguments on a core, as the specification's matrices and vectors -/

section Args
variable (m : (ℓ : Loc Cert.KernelIdeal.nD Cert.KernelIdeal.τ Cert.KernelIdeal.sig) → Buf (Elt Ideal) ℓ) (c : Dev Cert.KernelIdeal.nD)

abbrev x0 : Cert.Spec.Mat 10000 128 := m ((c.tc : Thread Cert.KernelIdeal.nD Cert.KernelIdeal.τ).loc Cert.KernelIdeal.main_arg0)
abbrev x1 : Cert.Spec.Mat 10000 10000 := m ((c.tc : Thread Cert.KernelIdeal.nD Cert.KernelIdeal.τ).loc Cert.KernelIdeal.main_arg1)
abbrev x2 : Cert.Spec.Mat 128 64 := m ((c.tc : Thread Cert.KernelIdeal.nD Cert.KernelIdeal.τ).loc Cert.KernelIdeal.main_arg2)
abbrev x3 : Cert.Spec.Mat 64 32 := m ((c.tc : Thread Cert.KernelIdeal.nD Cert.KernelIdeal.τ).loc Cert.KernelIdeal.main_arg3)
abbrev x4 : Cert.Spec.Mat 32 32 := m ((c.tc : Thread Cert.KernelIdeal.nD Cert.KernelIdeal.τ).loc Cert.KernelIdeal.main_arg4)
abbrev x5 : Cert.Spec.Vc 32 := m ((c.tc : Thread Cert.KernelIdeal.nD Cert.KernelIdeal.τ).loc Cert.KernelIdeal.main_arg5)
abbrev x6 : Cert.Spec.Vc 32 := m ((c.tc : Thread Cert.KernelIdeal.nD Cert.KernelIdeal.τ).loc Cert.KernelIdeal.main_arg6)
abbrev x7 : Cert.Spec.Vc 32 := m ((c.tc : Thread Cert.KernelIdeal.nD Cert.KernelIdeal.τ).loc Cert.KernelIdeal.main_arg7)
abbrev x8 : Cert.Spec.Mat 32 64 := m ((c.tc : Thread Cert.KernelIdeal.nD Cert.KernelIdeal.τ).loc Cert.KernelIdeal.main_arg8)
abbrev x9 : Cert.Spec.Mat 64 128 := m ((c.tc : Thread Cert.KernelIdeal.nD Cert.KernelIdeal.τ).loc Cert.KernelIdeal.main_arg9)

/-- The four results, as the specification's functions of the ten arguments (the kernel program's spellings). -/
abbrev rHidden : Cert.Spec.Mat 10000 32 := Cert.Spec.hidden (x0 m c) (x1 m c) (x2 m c) (x3 m c)
abbrev rProj : Cert.Spec.Mat 10000 32 := Cert.Spec.projMul (rHidden m c) (x4 m c) (x5 m c) (x6 m c) (x7 m c)
abbrev rApred : Cert.Spec.Mat 10000 10000 := Cert.Spec.apredTanh (rHidden m c)
abbrev rXbar : Cert.Spec.Mat 10000 128 := Cert.Spec.xbar (x1 m c) (rProj m c) (x8 m c) (x9 m c)

end Args

/-! ## The reference's four terms at the kernel's arguments -/

section Ref
variable (m : (ℓ : Loc Cert.KernelIdeal.nD Cert.KernelIdeal.τ Cert.KernelIdeal.sig) → Buf (Elt Ideal) ℓ) (c : Dev Cert.KernelIdeal.nD)

/-- The reference's hidden embedding is the specification's. -/
theorem ref_hidden : Cert.ReferenceIdeal.Hand.tHidden (x0 m c) (x1 m c) (x2 m c) (x3 m c) = rHidden m c :=
  Cert.ReferenceIdeal.Hand.tHidden_eq _ _ _ _

/-- The reference's reconstruction, from any projected embedding, is the specification's. -/
theorem ref_xbar_of (p : Cert.Spec.Mat 10000 32) :
    Cert.ReferenceIdeal.Hand.tXbar (x1 m c) p (x8 m c) (x9 m c) = Cert.Spec.xbar (x1 m c) p (x8 m c) (x9 m c) :=
  Cert.ReferenceIdeal.Hand.tXbar_eq _ _ _ _

variable (hPre : Cert.Pre_KernelIdeal (hPre_finite_inputs := Cert.Pre_finite_inputs.Gen.facts) m)
include hPre

/-- Under the precondition the hidden embedding has only real entries. -/
theorem hidden_real : Cert.Spec.IsReal (rHidden m c) := by
  obtain ⟨r0, r1, r2, r3, -, -⟩ := Cert.PreReal.real_of_pre (x0 m c) (x1 m c) (x2 m c) (x3 m c) (x4 m c) (x5 m c) (x6 m c) (x7 m c) (x8 m c) (x9 m c) (hPre c)
  exact Cert.Spec.hidden_real r0 r1 r2 r3

/-- Under the precondition the affine layer's output has only real entries. -/
theorem lin_real : Cert.Spec.IsReal (Cert.Spec.lin (rHidden m c) (x4 m c) (x5 m c)) := by
  obtain ⟨-, -, -, -, r4, r5⟩ := Cert.PreReal.real_of_pre (x0 m c) (x1 m c) (x2 m c) (x3 m c) (x4 m c) (x5 m c) (x6 m c) (x7 m c) (x8 m c) (x9 m c) (hPre c)
  exact Cert.Spec.lin_real (hidden_real m c hPre) r4 r5

/-- The reference's projected embedding, spelt with the division by the square root, is the kernel's, spelt with the
    reciprocal square root: the affine layer's output is real. -/
theorem ref_proj : Cert.ReferenceIdeal.Hand.tProj
      (Cert.ReferenceIdeal.Hand.tHidden (x0 m c) (x1 m c) (x2 m c) (x3 m c)) (x4 m c) (x5 m c) (x6 m c) (x7 m c) = rProj m c :=
  (congrArg (fun h => Cert.ReferenceIdeal.Hand.tProj h (x4 m c) (x5 m c) (x6 m c) (x7 m c)) (ref_hidden m c)).trans
    ((Cert.ReferenceIdeal.Hand.tProj_eq _ _ _ _ _).trans (Cert.Spec.proj_eq (lin_real m c hPre) _ _).symm)

/-- The reference's predicted adjacency, spelt with the quotient, is the kernel's, spelt with the hyperbolic tangent:
    the hidden embedding is real. -/
theorem ref_apred : Cert.ReferenceIdeal.Hand.tApred
      (Cert.ReferenceIdeal.Hand.tHidden (x0 m c) (x1 m c) (x2 m c) (x3 m c)) = rApred m c :=
  (congrArg Cert.ReferenceIdeal.Hand.tApred (ref_hidden m c)).trans
    ((Cert.ReferenceIdeal.Hand.tApred_eq _).trans (Cert.Spec.apred_eq (hidden_real m c hPre)).symm)

/-- The reference's reconstruction is the kernel's: the same function of equal projected embeddings. -/
theorem ref_xbar : Cert.ReferenceIdeal.Hand.tXbar (x1 m c)
      (Cert.ReferenceIdeal.Hand.tProj (Cert.ReferenceIdeal.Hand.tHidden (x0 m c) (x1 m c) (x2 m c) (x3 m c)) (x4 m c) (x5 m c) (x6 m c) (x7 m c))
      (x8 m c) (x9 m c) = rXbar m c :=
  (congrArg (fun p => Cert.ReferenceIdeal.Hand.tXbar (x1 m c) p (x8 m c) (x9 m c)) (ref_proj m c hPre)).trans (ref_xbar_of m c _)

end Ref

/-! ## The kernel program's run -/

/-- The kernel program runs, and ends with its four result arrays at the specification's functions of the ten
    arguments and the ten arguments as launched. -/
theorem kernel_side (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v2) = rHidden m c
          ∧ r.2.mem ((c.tc : Thread Cert.KernelIdeal.nD Cert.KernelIdeal.τ).loc Cert.KernelIdeal.main_v7_0) = rProj m c
          ∧ r.2.mem ((c.tc : Thread Cert.KernelIdeal.nD Cert.KernelIdeal.τ).loc Cert.KernelIdeal.main_v3) = rApred m c
          ∧ r.2.mem ((c.tc : Thread Cert.KernelIdeal.nD Cert.KernelIdeal.τ).loc Cert.KernelIdeal.main_v9) = rXbar m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) := by
  refine (θ_run (Cert.KernelIdeal.defs (F := Ideal)) _ _).mono (fun r h c => ?_) (Cert.KernelIdeal.Hand.run_all (F := Ideal) m ρ)
  exact ⟨(h c _ (Cert.KernelIdeal.Hand.mem_uc Cert.KernelIdeal.main_v2 (by decide))).trans (Cert.KernelIdeal.HandValue.res_hidden m ρ c),
    (h c _ (Cert.KernelIdeal.Hand.mem_uc Cert.KernelIdeal.main_v7_0 (by decide))).trans (Cert.KernelIdeal.HandValue.res_proj m ρ c),
    (h c _ (Cert.KernelIdeal.Hand.mem_uc Cert.KernelIdeal.main_v3 (by decide))).trans (Cert.KernelIdeal.HandValue.res_apred m ρ c),
    (h c _ (Cert.KernelIdeal.Hand.mem_uc Cert.KernelIdeal.main_v9 (by decide))).trans (Cert.KernelIdeal.HandValue.res_xbar m ρ c),
    (h c _ (Cert.KernelIdeal.Hand.mem_uc Cert.KernelIdeal.main_arg0 (by decide))).trans (Cert.KernelIdeal.Hand.W8_main_arg0 m ρ c),
    (h c _ (Cert.KernelIdeal.Hand.mem_uc Cert.KernelIdeal.main_arg1 (by decide))).trans (Cert.KernelIdeal.Hand.W8_main_arg1 m ρ c),
    (h c _ (Cert.KernelIdeal.Hand.mem_uc Cert.KernelIdeal.main_arg2 (by decide))).trans (Cert.KernelIdeal.Hand.W8_main_arg2 m ρ c),
    (h c _ (Cert.KernelIdeal.Hand.mem_uc Cert.KernelIdeal.main_arg3 (by decide))).trans (Cert.KernelIdeal.Hand.W8_main_arg3 m ρ c),
    (h c _ (Cert.KernelIdeal.Hand.mem_uc Cert.KernelIdeal.main_arg4 (by decide))).trans (Cert.KernelIdeal.Hand.W8_main_arg4 m ρ c),
    (h c _ (Cert.KernelIdeal.Hand.mem_uc Cert.KernelIdeal.main_arg5 (by decide))).trans (Cert.KernelIdeal.Hand.W8_main_arg5 m ρ c),
    (h c _ (Cert.KernelIdeal.Hand.mem_uc Cert.KernelIdeal.main_arg6 (by decide))).trans (Cert.KernelIdeal.Hand.W8_main_arg6 m ρ c),
    (h c _ (Cert.KernelIdeal.Hand.mem_uc Cert.KernelIdeal.main_arg7 (by decide))).trans (Cert.KernelIdeal.Hand.W8_main_arg7 m ρ c),
    (h c _ (Cert.KernelIdeal.Hand.mem_uc Cert.KernelIdeal.main_arg8 (by decide))).trans (Cert.KernelIdeal.Hand.W8_main_arg8 m ρ c),
    (h c _ (Cert.KernelIdeal.Hand.mem_uc Cert.KernelIdeal.main_arg9 (by decide))).trans (Cert.KernelIdeal.Hand.W8_main_arg9 m ρ c)⟩

/-! ## The reference's run -/

/-- The reference runs from a memory that agrees with the kernel program's on the ten arguments, and ends with its four
    result arrays at the same four functions of the kernel program's arguments, its own arguments as launched. -/
theorem ref_side (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hPre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v5) = rHidden m c
          ∧ r.2.mem ((c.tc : Thread Cert.ReferenceIdeal.nD Cert.ReferenceIdeal.τ).loc Cert.ReferenceIdeal.main_v48) = rProj m c
          ∧ r.2.mem ((c.tc : Thread Cert.ReferenceIdeal.nD Cert.ReferenceIdeal.τ).loc Cert.ReferenceIdeal.main_v13) = rApred m c
          ∧ r.2.mem ((c.tc : Thread Cert.ReferenceIdeal.nD Cert.ReferenceIdeal.τ).loc Cert.ReferenceIdeal.main_v54) = rXbar m c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) := by
  refine (θ_run (Cert.ReferenceIdeal.defs (F := Ideal)) _ _).mono (fun r h c => ?_) (Cert.ReferenceIdeal.Hand.run m' ρ')
  obtain ⟨g0, g1, g2, g3, g4, g5, g6, g7, g8, g9⟩ := hagree c
  obtain ⟨⟨h5, h48, h13, h54⟩, hargs⟩ := h c
  rw [g0, g1, g2, g3] at h5 h13
  rw [g0, g1, g2, g3, g4, g5, g6, g7] at h48
  rw [g0, g1, g2, g3, g4, g5, g6, g7, g8, g9] at h54
  exact ⟨h5.trans (ref_hidden m c), h48.trans (ref_proj m c hPre), h13.trans (ref_apred m c hPre),
    h54.trans (ref_xbar m c hPre), hargs⟩

/-! ## The claim -/

/-- At the ideal values, from memories that agree on the ten arguments and satisfy the precondition, both programs run
    and end with equal results — the specification's four functions of the arguments — and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' hPre hagree =>
    ⟨fun c => rHidden m c, fun c => rProj m c, fun c => rApred m c, fun c => rXbar m c,
      kernel_side m ρ, ref_side m m' ρ' hPre hagree⟩

end Cert.Proof.Alg

end
-- ==== Proof.lean ====
/-
  The certificate: a graph auto-encoder's Pallas kernel program against its jnp reference, over the extended reals.

  Both programs compute, from node features X, a dense adjacency matrix A and eight weight arrays,
    hidden = relu (A · (relu (A · (X · W_e1)) · W_e2)),   A_pred = sigmoid (hidden · hiddenᵀ),
    proj   = softmax (relu (batchnorm (hidden · W_mlp + b))),   X_bar = relu (A · (relu (A · (proj · W_d1)) · W_d2)),
  with the same grouping of every matrix product. The kernel program runs seven kernel regions (row blocks of 400 nodes
  against whole right factors; a bf16 copy of A, the identity on the extended reals, feeds the later regions); the
  reference is a straight line of host operations. They differ in two spellings only: the logistic function
  (½·(tanh(½·x)+1) against 1/(1+e^(−x))) and the normalisation ((z−μ)·rsqrt(σ²+ε) against (z−μ)/sqrt(σ²+ε)); both pairs
  agree on real arguments, and every intermediate value is real when the inputs are finite — which is the precondition.

  The three frames: each kernel program's run leaves every unscoped buffer at a fold of the launch memory in which no
  argument array is ever written; the reference's run keeps its arguments likewise. The idealisation rewrote nothing, so
  its conjunct is trivial. The value conjunct reads the four results off the two runs and joins them by the two
  identities above.
-/
import proofs.«157920_g66340064854107_cont_9to1c4b_694_10_alg».proof.Defs
import proofs.«157920_g66340064854107_cont_9to1c4b_694_10_alg».proof.Proof.Gen.Kernel
import proofs.«157920_g66340064854107_cont_9to1c4b_694_10_alg».proof.Proof.Gen.KernelIdeal
import proofs.«157920_g66340064854107_cont_9to1c4b_694_10_alg».proof.Proof.Gen.ReferenceIdeal
import proofs.«157920_g66340064854107_cont_9to1c4b_694_10_alg».proof.Proof.Gen.Pre_finite_inputs
import proofs.«157920_g66340064854107_cont_9to1c4b_694_10_alg».proof.Proof.HandKernel.Run
import proofs.«157920_g66340064854107_cont_9to1c4b_694_10_alg».proof.Proof.HandKernelIdeal.Run
import proofs.«157920_g66340064854107_cont_9to1c4b_694_10_alg».proof.Proof.RefRun
import proofs.«157920_g66340064854107_cont_9to1c4b_694_10_alg».proof.Proof.Algebraic
import Idealize.ShloMosaic.Adequacy
import Idealize.ShloMosaic.Init

noncomputable section

namespace Cert.Proof

open Idealize.ShloMosaic Idealize.SL.Sem

/-- The kernel program as printed, read at the word level: it runs to the end, faults nowhere, and no argument array is written. -/
theorem frame_kernel : Cert.frame_Kernel := fun m ρ _ => Cert.Kernel.Hand.frame m ρ

/-- The same program read on the extended reals. -/
theorem frame_kernelIdeal : Cert.frame_KernelIdeal := fun m ρ _ => Cert.KernelIdeal.Hand.frame m ρ

/-- The reference's run, its results dropped. -/
theorem frame_referenceIdeal : Cert.frame_ReferenceIdeal := fun m ρ _ =>
  (θ_run Cert.ReferenceIdeal.defs _ _).mono (fun _ h c => (h c).2) (Cert.ReferenceIdeal.Hand.run m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Alg.algebraic⟩

end Cert.Proof

end
